-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S8192x8192 : Shape := ⟨2, ![8192, 8192]⟩
abbrev S8192 : Shape := ⟨1, ![8192]⟩
abbrev S6 : Shape := ⟨1, ![6]⟩
abbrev S64x64 : Shape := ⟨2, ![64, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S8192 : S_.BroadcastsInDim S8192 (![] : Fin 0 → Fin S8192.rank)
  reducesTo_S8192_S_d0 : S8192.ReducesTo [0] S_
  bcast_S_S6 : S_.BroadcastsInDim S6 (![] : Fin 0 → Fin S6.rank)
  reducesTo_S6_S_d0 : S6.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64x64 .f32) (main_v13 : IVec S_ 1) (main_v16 : IVec S6 1) : IVec S_ 1 :=
  let main_c_5 : IVec S_ 1 := constantI S_ 1 1#1
  let main_v17 : IVec S_ 1 := (fun x v => Host.reduce IntOp.andi x v reducesTo_S6_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  main_v23

def fn {F : FTy → Type} [FloatOps F] (main_arg0 : FVec F S8192x64 .f32) (main_arg1 : FVec F S8192x8192 .f32) (main_arg2 : FVec F S8192 .f32) (main_arg3 : FVec F S6 .f32) (main_arg4 : FVec F S64x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S6 .f32 := Host.absf main_arg3
  let main_cst_4 : FVec F S_ .f32 := constant S_ .f32 0x7F800000#32
  let main_v15 : FVec F S6 .f32 := broadcastInDim S6 ![] bcast_S_S6 main_cst_4
  let main_v16 : IVec S6 1 := cmpf .olt main_v14 main_v15
  fn_part1 (F := F) main_arg4 main_v13 main_v16
-- ==== Kernel.lean ====
abbrev S8192x64 : Shape := ⟨2, ![8192, 64]⟩
abbrev S8192x8192 : Shape := ⟨2, ![8192, 8192]⟩
abbrev S8192 : Shape := ⟨1, ![8192]⟩
abbrev S6 : Shape := ⟨1, ![6]⟩
abbrev S64x64 : Shape := ⟨2, ![64, 64]⟩
abbrev S2048x64 : Shape := ⟨2, ![2048, 64]⟩
abbrev S1 : Shape := ⟨1, ![1]⟩
abbrev S_ : Shape := ⟨0, ![]⟩
abbrev S2048x2048 : Shape := ⟨2, ![2048, 2048]⟩
abbrev S8192x1 : Shape := ⟨2, ![8192, 1]⟩

abbrev nBuf : Space → Nat
  | .hbm => 42
  | .vmem => 29
  | .smem => 0
  | _ => 0

abbrev bufTy : (tb : Table) → Fin (tcTables nBuf tb) → BufTy
  | .hbm, ⟨0, _⟩ => ⟨S8192x64, .f32⟩
  | .hbm, ⟨1, _⟩ => ⟨S8192x8192, .f32⟩
  | .hbm, ⟨2, _⟩ => ⟨S8192, .f32⟩
  | .hbm, ⟨3, _⟩ => ⟨S6, .f32⟩
  | .hbm, ⟨4, _⟩ => ⟨S64x64, .f32⟩
  | .hbm, ⟨5, _⟩ => ⟨S8192x8192, .bf16⟩
  | .hbm, ⟨6, _⟩ => ⟨S8192x64, .f32⟩
  | .hbm, ⟨7, _⟩ => ⟨S1, .f32⟩
  | .hbm, ⟨8, _⟩ => ⟨S_, .f32⟩
  | .hbm, ⟨9, _⟩ => ⟨S8192x64, .f32⟩
  | .hbm, ⟨10, _⟩ => ⟨S8192x64, .f32⟩
  | .hbm, ⟨11, _⟩ => ⟨S8192x64, .f32⟩
  | .hbm, ⟨12, _⟩ => ⟨S1, .f32⟩
  | .hbm, ⟨13, _⟩ => ⟨S_, .f32⟩
  | .hbm, ⟨14, _⟩ => ⟨S8192x64, .f32⟩
  | .hbm, ⟨15, _⟩ => ⟨S8192x64, .f32⟩
  | .hbm, ⟨16, _⟩ => ⟨S8192x64, .f32⟩
  | .hbm, ⟨17, _⟩ => ⟨S8192x64, .f32⟩
  | .hbm, ⟨18, _⟩ => ⟨S1, .f32⟩
  | .hbm, ⟨19, _⟩ => ⟨S_, .f32⟩
  | .hbm, ⟨20, _⟩ => ⟨S8192x64, .f32⟩
  | .hbm, ⟨21, _⟩ => ⟨S8192x64, .f32⟩
  | .hbm, ⟨22, _⟩ => ⟨S8192x64, .f32⟩
  | .hbm, ⟨23, _⟩ => ⟨S8192x1, .f32⟩
  | .hbm, ⟨24, _⟩ => ⟨S8192x64, .f32⟩
  | .hbm, ⟨25, _⟩ => ⟨S8192x64, .f32⟩
  | .hbm, ⟨26, _⟩ => ⟨S1, .f32⟩
  | .hbm, ⟨27, _⟩ => ⟨S_, .f32⟩
  | .hbm, ⟨28, _⟩ => ⟨S8192x64, .f32⟩
  | .hbm, ⟨29, _⟩ => ⟨S8192x64, .f32⟩
  | .hbm, ⟨30, _⟩ => ⟨S8192x64, .f32⟩
  | .hbm, ⟨31, _⟩ => ⟨S1, .f32⟩
  | .hbm, ⟨32, _⟩ => ⟨S_, .f32⟩
  | .hbm, ⟨33, _⟩ => ⟨S8192x64, .f32⟩
  | .hbm, ⟨34, _⟩ => ⟨S8192x64, .f32⟩
  | .hbm, ⟨35, _⟩ => ⟨S8192x64, .f32⟩
  | .hbm, ⟨36, _⟩ => ⟨S8192x64, .f32⟩
  | .hbm, ⟨37, _⟩ => ⟨S1, .f32⟩
  | .hbm, ⟨38, _⟩ => ⟨S_, .f32⟩
  | .hbm, ⟨39, _⟩ => ⟨S8192x64, .f32⟩
  | .hbm, ⟨40, _⟩ => ⟨S8192x64, .f32⟩
  | .hbm, ⟨41, _⟩ => ⟨S8192x64, .f32⟩
  | .local _ .vmem, ⟨0, _⟩ => ⟨S2048x64, .f32⟩
  | .local _ .vmem, ⟨1, _⟩ => ⟨S2048x64, .f32⟩
  | .local _ .vmem, ⟨2, _⟩ => ⟨S64x64, .f32⟩
  | .local _ .vmem, ⟨3, _⟩ => ⟨S2048x64, .f32⟩
  | .local _ .vmem, ⟨4, _⟩ => ⟨S2048x64, .f32⟩
  | .local _ .vmem, ⟨5, _⟩ => ⟨S2048x2048, .bf16⟩
  | .local _ .vmem, ⟨6, _⟩ => ⟨S2048x2048, .bf16⟩
  | .local _ .vmem, ⟨7, _⟩ => ⟨S8192x64, .f32⟩
  | .local _ .vmem, ⟨8, _⟩ => ⟨S2048x64, .f32⟩
  | .local _ .vmem, ⟨9, _⟩ => ⟨S2048x64, .f32⟩
  | .local _ .vmem, ⟨10, _⟩ => ⟨S2048x64, .f32⟩
  | .local _ .vmem, ⟨11, _⟩ => ⟨S2048x2048, .bf16⟩
  | .local _ .vmem, ⟨12, _⟩ => ⟨S2048x2048, .bf16⟩
  | .local _ .vmem, ⟨13, _⟩ => ⟨S8192x64, .f32⟩
  | .local _ .vmem, ⟨14, _⟩ => ⟨S2048x64, .f32⟩
  | .local _ .vmem, ⟨15, _⟩ => ⟨S2048x64, .f32⟩
  | .local _ .vmem, ⟨16, _⟩ => ⟨S2048x64, .f32⟩
  | .local _ .vmem, ⟨17, _⟩ => ⟨S2048x2048, .bf16⟩
  | .local _ .vmem, ⟨18, _⟩ => ⟨S2048x2048, .bf16⟩
  | .local _ .vmem, ⟨19, _⟩ => ⟨S8192x64, .f32⟩
  | .local _ .vmem, ⟨20, _⟩ => ⟨S2048x64, .f32⟩
  | .local _ .vmem, ⟨21, _⟩ => ⟨S2048x64, .f32⟩
  | .local _ .vmem, ⟨22, _⟩ => ⟨S2048x64, .f32⟩
  | .local _ .vmem, ⟨23, _⟩ => ⟨S2048x2048, .bf16⟩
  | .local _ .vmem, ⟨24, _⟩ => ⟨S2048x2048, .bf16⟩
  | .local _ .vmem, ⟨25, _⟩ => ⟨S8192x64, .f32⟩
  | .local _ .vmem, ⟨26, _⟩ => ⟨S2048x64, .f32⟩
  | .local _ .vmem, ⟨27, _⟩ => ⟨S2048x64, .f32⟩
  | .local _ .vmem, ⟨28, _⟩ => ⟨S2048x64, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_scratch0 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_scratch0 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc3_scratch0 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc4_scratch0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 4], ![false, false]⟩

def k1_mult1 (i : grid1.Coords) : BitVec 32 :=
  let arg1 : BitVec 32 := BitVec.ofNat 32 (i 1).val
  let c2048_i32 : BitVec 32 := 2048#32
  let v3 : BitVec 32 := Scalar.muli arg1 c2048_i32
  v3
def k1_off1 (i : grid1.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_7 : BitVec 32 := 0#32
  let v19 : BitVec 1 := Scalar.cmpi .ne v18 c0_i32_7
  v19

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![4, 4], ![false, false]⟩

def k2_mult1 (i : grid2.Coords) : BitVec 32 :=
  let arg1 : BitVec 32 := BitVec.ofNat 32 (i 1).val
  let c2048_i32 : BitVec 32 := 2048#32
  let v3 : BitVec 32 := Scalar.muli arg1 c2048_i32
  v3
def k2_off1 (i : grid2.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k2_cond2 (i : grid2.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_7 : BitVec 32 := 0#32
  let v19 : BitVec 1 := Scalar.cmpi .ne v18 c0_i32_7
  v19

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S8192x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S2048x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨2, ![4, 4], ![false, false]⟩

def k3_mult1 (i : grid3.Coords) : BitVec 32 :=
  let arg1 : BitVec 32 := BitVec.ofNat 32 (i 1).val
  let c2048_i32 : BitVec 32 := 2048#32
  let v3 : BitVec 32 := Scalar.muli arg1 c2048_i32
  v3
def k3_off1 (i : grid3.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k3_cond2 (i : grid3.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_7 : BitVec 32 := 0#32
  let v19 : BitVec 1 := Scalar.cmpi .ne v18 c0_i32_7
  v19

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S8192x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 2 → Memref sig .tc .vmem S2048x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![4, 4], ![false, false]⟩

def k4_mult1 (i : grid4.Coords) : BitVec 32 :=
  let arg1 : BitVec 32 := BitVec.ofNat 32 (i 1).val
  let c2048_i32 : BitVec 32 := 2048#32
  let v3 : BitVec 32 := Scalar.muli arg1 c2048_i32
  v3
def k4_off1 (i : grid4.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  let c0 : Index := 0#32
  ![v5.toNat, 0]
def k4_cond2 (i : grid4.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_7 : BitVec 32 := 0#32
  let v19 : BitVec 1 := Scalar.cmpi .ne v18 c0_i32_7
  v19

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S2048x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S8192x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 2 → Memref sig .tc .vmem S2048x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

class Facts₀ : Prop where
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  inb_S64x64_S64x64_0_0 : ∀ a, (![0, 0] : Fin 2 → Nat) a + S64x64.size a ≤ S64x64.size a
  h_S64x64 : 0 < S64x64.numel
  slices_S6_S1_3 : S6.Slices ![3] S1
  shapeCasts_S1_S_ : S1.ShapeCasts S_
  bcast_S_S8192x64 : S_.BroadcastsInDim S8192x64 (![] : Fin 0 → Fin S8192x64.rank)
  shapeCasts_S2048x64_S2048x64 : S2048x64.ShapeCasts S2048x64
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  slices_S6_S1_4 : S6.Slices ![4] S1
  slices_S6_S1_5 : S6.Slices ![5] S1
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  slices_S6_S1_0 : S6.Slices ![0] S1
  slices_S6_S1_1 : S6.Slices ![1] S1
  slices_S6_S1_2 : S6.Slices ![2] S1
  dot_S2048x64_S64x64_S2048x64_1_0_0_1_n_n_wf : DotDims.WF S2048x64 S64x64 S2048x64 [1] [0] [0] [1] [] []
  dot_S2048x2048_S2048x64_S2048x64_0_0_1_1_n_n_wf : DotDims.WF S2048x2048 S2048x64 S2048x64 [0] [0] [1] [1] [] []
  dot_S2048x2048_S2048x64_S2048x64_1_0_0_1_n_n_wf : DotDims.WF S2048x2048 S2048x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S8192x64.size a
  hwx0_0 : ∀ i : grid0.Coords, EltTy.bits .f32 = 32 ∨ (Rect.block (s := S8192x64) S2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S8192x64.size a
  hwx0_2 : ∀ i : grid0.Coords, EltTy.bits .f32 = 32 ∨ (Rect.block (s := S8192x64) S2048x64.size (cc0_transform_2 i) (hinb0_2 i)).WholeWords (EltTy.packing .f32)
  hrank1 : 0 < grid1.rank
  k1_mult1_dvd : ∀ i : grid1.Coords, 2048 ∣ (k1_mult1 i).toNat
  k1_off1_inb : ∀ i : grid1.Coords, ∀ a, (k1_off1 i) a + S2048x64.size a ≤ S8192x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S8192x8192.size a
  hwx1_0 : ∀ i : grid1.Coords, EltTy.bits .bf16 = 32 ∨ (Rect.block (s := S8192x8192) S2048x2048.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x64.size a ≤ S8192x64.size a
  hwx1_1 : ∀ i : grid1.Coords, EltTy.bits .f32 = 32 ∨ (Rect.block (s := S8192x64) S8192x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x64.size a ≤ S8192x64.size a
  hwx1_2 : ∀ i : grid1.Coords, EltTy.bits .f32 = 32 ∨ (Rect.block (s := S8192x64) S2048x64.size (cc1_transform_2 i) (hinb1_2 i)).WholeWords (EltTy.packing .f32)
  hrank2 : 0 < grid2.rank
  k2_mult1_dvd : ∀ i : grid2.Coords, 2048 ∣ (k2_mult1 i).toNat
  k2_off1_inb : ∀ i : grid2.Coords, ∀ a, (k2_off1 i) a + S2048x64.size a ≤ S8192x64.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x2048.size a ≤ S8192x8192.size a
  hwx2_0 : ∀ i : grid2.Coords, EltTy.bits .bf16 = 32 ∨ (Rect.block (s := S8192x8192) S2048x2048.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x64.size a ≤ S8192x64.size a
  hwx2_1 : ∀ i : grid2.Coords, EltTy.bits .f32 = 32 ∨ (Rect.block (s := S8192x64) S8192x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x64.size a ≤ S8192x64.size a
  hwx2_2 : ∀ i : grid2.Coords, EltTy.bits .f32 = 32 ∨ (Rect.block (s := S8192x64) S2048x64.size (cc2_transform_2 i) (hinb2_2 i)).WholeWords (EltTy.packing .f32)
  hrank3 : 0 < grid3.rank
  k3_mult1_dvd : ∀ i : grid3.Coords, 2048 ∣ (k3_mult1 i).toNat
  k3_off1_inb : ∀ i : grid3.Coords, ∀ a, (k3_off1 i) a + S2048x64.size a ≤ S8192x64.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x2048.size a ≤ S8192x8192.size a
  hwx3_0 : ∀ i : grid3.Coords, EltTy.bits .bf16 = 32 ∨ (Rect.block (s := S8192x8192) S2048x2048.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8192x64.size a ≤ S8192x64.size a
  hwx3_1 : ∀ i : grid3.Coords, EltTy.bits .f32 = 32 ∨ (Rect.block (s := S8192x64) S8192x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x64.size a ≤ S8192x64.size a
  hwx3_2 : ∀ i : grid3.Coords, EltTy.bits .f32 = 32 ∨ (Rect.block (s := S8192x64) S2048x64.size (cc3_transform_2 i) (hinb3_2 i)).WholeWords (EltTy.packing .f32)
  hrank4 : 0 < grid4.rank
  k4_mult1_dvd : ∀ i : grid4.Coords, 2048 ∣ (k4_mult1 i).toNat
  k4_off1_inb : ∀ i : grid4.Coords, ∀ a, (k4_off1 i) a + S2048x64.size a ≤ S8192x64.size a
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x2048.size a ≤ S8192x8192.size a
  hwx4_0 : ∀ i : grid4.Coords, EltTy.bits .bf16 = 32 ∨ (Rect.block (s := S8192x8192) S2048x2048.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S8192x64.size a ≤ S8192x64.size a
  hwx4_1 : ∀ i : grid4.Coords, EltTy.bits .f32 = 32 ∨ (Rect.block (s := S8192x64) S8192x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x64.size a ≤ S8192x64.size a
  hwx4_2 : ∀ i : grid4.Coords, EltTy.bits .f32 = 32 ∨ (Rect.block (s := S8192x64) S2048x64.size (cc4_transform_2 i) (hinb4_2 i)).WholeWords (EltTy.packing .f32)

variable [Facts₀]

def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x2048_S2048x64_S2048x64_0_0_1_1_n_n : DotDims S2048x2048 S2048x64 S2048x64 where
  lhsContracting := [0]
  rhsContracting := [0]
  lhsNonContracting := [1]
  rhsNonContracting := [1]
  lhsBatch := []
  rhsBatch := []
  wf := dot_S2048x2048_S2048x64_S2048x64_0_0_1_1_n_n_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S8192x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S2048x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v0) S2048x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S8192x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12) S2048x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v0) S2048x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v20) S8192x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v25) S2048x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v0) S2048x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v25) S8192x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v31) S2048x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

class Facts : Prop extends Facts₀ where

variable [Facts]
-- ==== ReferenceIdeal.lean ====
abbrev S8192x64 : Shape := ⟨2, ![8192, 64]⟩
abbrev S8192x8192 : Shape := ⟨2, ![8192, 8192]⟩
abbrev S8192 : Shape := ⟨1, ![8192]⟩
abbrev S6 : Shape := ⟨1, ![6]⟩
abbrev S64x64 : Shape := ⟨2, ![64, 64]⟩
abbrev S1 : Shape := ⟨1, ![1]⟩
abbrev S_ : Shape := ⟨0, ![]⟩
abbrev S8192x1 : Shape := ⟨2, ![8192, 1]⟩

abbrev nBuf : Space → Nat
  | .hbm => 43
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x8192, .f32⟩
  | .hbm, ⟨2, _⟩ => ⟨S8192, .f32⟩
  | .hbm, ⟨3, _⟩ => ⟨S6, .f32⟩
  | .hbm, ⟨4, _⟩ => ⟨S64x64, .f32⟩
  | .hbm, ⟨5, _⟩ => ⟨S8192x64, .f32⟩
  | .hbm, ⟨6, _⟩ => ⟨S1, .f32⟩
  | .hbm, ⟨7, _⟩ => ⟨S_, .f32⟩
  | .hbm, ⟨8, _⟩ => ⟨S8192x64, .f32⟩
  | .hbm, ⟨9, _⟩ => ⟨S8192x64, .f32⟩
  | .hbm, ⟨10, _⟩ => ⟨S8192x8192, .f32⟩
  | .hbm, ⟨11, _⟩ => ⟨S8192x64, .f32⟩
  | .hbm, ⟨12, _⟩ => ⟨S1, .f32⟩
  | .hbm, ⟨13, _⟩ => ⟨S_, .f32⟩
  | .hbm, ⟨14, _⟩ => ⟨S8192x64, .f32⟩
  | .hbm, ⟨15, _⟩ => ⟨S8192x64, .f32⟩
  | .hbm, ⟨16, _⟩ => ⟨S8192x64, .f32⟩
  | .hbm, ⟨17, _⟩ => ⟨S8192x8192, .f32⟩
  | .hbm, ⟨18, _⟩ => ⟨S8192x64, .f32⟩
  | .hbm, ⟨19, _⟩ => ⟨S1, .f32⟩
  | .hbm, ⟨20, _⟩ => ⟨S_, .f32⟩
  | .hbm, ⟨21, _⟩ => ⟨S8192x64, .f32⟩
  | .hbm, ⟨22, _⟩ => ⟨S8192x64, .f32⟩
  | .hbm, ⟨23, _⟩ => ⟨S8192x64, .f32⟩
  | .hbm, ⟨24, _⟩ => ⟨S8192x1, .f32⟩
  | .hbm, ⟨25, _⟩ => ⟨S8192x64, .f32⟩
  | .hbm, ⟨26, _⟩ => ⟨S8192x64, .f32⟩
  | .hbm, ⟨27, _⟩ => ⟨S1, .f32⟩
  | .hbm, ⟨28, _⟩ => ⟨S_, .f32⟩
  | .hbm, ⟨29, _⟩ => ⟨S8192x64, .f32⟩
  | .hbm, ⟨30, _⟩ => ⟨S8192x64, .f32⟩
  | .hbm, ⟨31, _⟩ => ⟨S8192x64, .f32⟩
  | .hbm, ⟨32, _⟩ => ⟨S1, .f32⟩
  | .hbm, ⟨33, _⟩ => ⟨S_, .f32⟩
  | .hbm, ⟨34, _⟩ => ⟨S8192x64, .f32⟩
  | .hbm, ⟨35, _⟩ => ⟨S8192x64, .f32⟩
  | .hbm, ⟨36, _⟩ => ⟨S8192x64, .f32⟩
  | .hbm, ⟨37, _⟩ => ⟨S8192x64, .f32⟩
  | .hbm, ⟨38, _⟩ => ⟨S1, .f32⟩
  | .hbm, ⟨39, _⟩ => ⟨S_, .f32⟩
  | .hbm, ⟨40, _⟩ => ⟨S8192x64, .f32⟩
  | .hbm, ⟨41, _⟩ => ⟨S8192x64, .f32⟩
  | .hbm, ⟨42, _⟩ => ⟨S8192x64, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩

abbrev nD : Nat := 1
abbrev τ : Topo := Topo.v7x

variable {F : FTy → Type} [FloatOps F]

class Facts₀ : Prop where
  slices_S6_S1_3 : S6.Slices ![3] S1
  shapeCasts_S1_S_ : S1.ShapeCasts S_
  bcast_S_S8192x64 : S_.BroadcastsInDim S8192x64 (![] : Fin 0 → Fin S8192x64.rank)
  transposes_S8192x8192_S8192x8192_1_0 : S8192x8192.Transposes [1, 0] S8192x8192
  slices_S6_S1_4 : S6.Slices ![4] S1
  slices_S6_S1_5 : S6.Slices ![5] S1
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  slices_S6_S1_0 : S6.Slices ![0] S1
  slices_S6_S1_1 : S6.Slices ![1] S1
  slices_S6_S1_2 : S6.Slices ![2] S1
  dot_S8192x64_S64x64_S8192x64_1_0_0_1_n_n_wf : DotDims.WF S8192x64 S64x64 S8192x64 [1] [0] [0] [1] [] []
  dot_S8192x8192_S8192x64_S8192x64_1_0_0_1_n_n_wf : DotDims.WF S8192x8192 S8192x64 S8192x64 [1] [0] [0] [1] [] []

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.BitsGemm.lean ====
import proofs.«135368_j63153199120588_2_alg».proof.Proof.Gen.Kernel.Launch
import proofs.«135368_j63153199120588_2_alg».proof.Proof.Gen.Kernel.Skeleton
import proofs.«135368_j63153199120588_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the dense projection, one row block of 2048 rows per grid point

At every point the body loads its block of the features (2048 × 64) and the whole weight (64 × 64) and stores their
product into its output block; nothing is kept between points. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 2048 × 64 block and the whole 64 × 64 block as rectangles. -/
abbrev rA0 : Rect S2048x64 := Rect.unit (s := S2048x64) ![0, 0] S2048x64.size inb_S2048x64_S2048x64_0_0
abbrev rB0 : Rect S64x64 := Rect.unit (s := S64x64) ![0, 0] S64x64.size inb_S64x64_S64x64_0_0

/-- The output block after the body: the one store's payload, the product of the two loaded blocks. -/
def out0_2 (x0 : Vec F S2048x64 .f32) (x1 : Vec F S64x64 .f32) : Vec F S2048x64 .f32 :=
  View.canon [⟨rA0, k0_pay1 (View.ld x0 rA0) (View.ld x1 rB0)⟩]

theorem cover0_2 (p0 : Vec F S2048x64 .f32) (y : S2048x64.Idx) :
    ∃ pc ∈ ([⟨rA0, p0⟩] : List (View.Piece (Elt F) S2048x64 .f32)), y ∈ pc.1.set :=
  View.cover_of_tiled [⟨rA0, p0⟩] S2048x64.size (by rfl) y

set_option maxHeartbeats 1000000 in
/-- The body on whole staging memrefs: the inputs are handed back as they were, the output holds the product. -/
theorem sound_kernel0 (c : Dev nD) (E : Set ℕ) (i : grid0.Coords) (arg1 : Memref sig .tc .vmem S2048x64 .f32) (harg1 : arg1.IsWhole)
    (arg2 : Memref sig .tc .vmem S64x64 .f32) (harg2 : arg2.IsWhole) (arg3 : Memref sig .tc .vmem S2048x64 .f32) (harg3 : arg3.IsWhole)
    (x0 : Vec F S2048x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__gemm_kernel i arg1 harg1 arg2 harg2 arg3 harg3) K := by
  simp only [cc0__gemm_kernel_eq_skeleton]; unfold cc0__gemm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of region 0: the arrays as the region finds them; after the body each input's buffer at its block and the
    output's at the product of the two input blocks; the invariant is the scoped rest and the generator register. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := .rfl

theorem hout0 (c : Dev nD) : (dat0 V c).Φ (Fin.last cfg0.N) ⊢ (Pipeline.ΦA spec0 c : sProp 𝕄) := .rfl

end Cert.Kernel.Fr

end
-- ==== Proof.BitsTheta1.lean ====
import proofs.«135368_j63153199120588_2_alg».proof.Proof.Gen.Kernel.Launch
import proofs.«135368_j63153199120588_2_alg».proof.Proof.Gen.Kernel.Skeleton
import proofs.«135368_j63153199120588_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: a product with Θᵀ accumulated over the contraction blocks

The grid is (i, k) ∈ 4 × 4, k fastest. At (i, k) the body zeroes the accumulator when k = 0, adds to it the product of the
point's 2048 × 2048 block of Θ with rows [2048 k, 2048 k + 2048) of the resident 8192 × 64 operand, and when k = 3 copies
the accumulator into the output block i. So the body has three cases (k = 0; k = 1, 2; k = 3), the accumulator is carried
from point to point, and the output block is untouched, and not written back, except at k = 3. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, in closed form over the grid -/

/-- `k = 0`: the accumulator is zeroed. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- `k = 3`: the accumulator is copied out. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
theorem liveAt1_2_C : ∀ t : Fin cfg1.N, ¬cond1_0 (grid1.coords t) → cond1_1 (grid1.coords t) → cfg1.idle 2 (grid1.coords t) = false := by decide +kernel

/-! ## The memrefs the body is called with -/

abbrev VO1_2 : View sig .tc .vmem S2048x64 .f32 := (Memref.whole cc1_stg2_0 : Memref sig .tc .vmem S2048x64 .f32).view
abbrev ms1_0 (t : Fin cfg1.N) : Memref sig .tc .vmem S2048x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x64 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1_0 : Memref sig .tc .vmem S2048x64 .f32 := Memref.whole cc1_scratch0
abbrev VS1_0 : View sig .tc .vmem S2048x64 .f32 := scM1_0.view

/-- The scoped rest of this region holds the accumulator, at some contents, beside the other regions' scoped buffers: it can
    be taken out, and putting it back (at any contents) restores the scoped rest. -/
theorem PhiA1_split (c : Dev nD) :
    (Pipeline.ΦA spec1 c : sProp 𝕄)
      ⊢ iprop((∃ d, owns (c : Thread nD τ) scM1_0 fullShare d) ∗ ((∃ d, owns (c : Thread nD τ) scM1_0 fullShare d) -∗ Pipeline.ΦA spec1 c)) := by
  unfold Pipeline.ΦA; rw [scopedRest1_eq]; simp only [scM1_0, owns_whole]
  iintro ⟨⟨H0, H1, H2, H3, H4, H5, H6, H7, H8, H9, H10, H11, H12, H13, H14, H15, H16, H17, H18, H19, H20, H21, H22, H23⟩, Hg⟩
  isplitl [H5]; · iexact H5
  iintro HS
  isplitr [Hg]
  · (try dsimp only)
    isplitl [H0]; · iexact H0
    isplitl [H1]; · iexact H1
    isplitl [H2]; · iexact H2
    isplitl [H3]; · iexact H3
    isplitl [H4]; · iexact H4
    isplitl [HS]; · iexact HS
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iexact H23
  · iexact Hg

/-! ## The body, case by case -/

set_option maxHeartbeats 4000000 in
/-- The body on whole staging memrefs in case A of its two conditionals: the pieces its stores leave in the output block and in
    the accumulator, with the proof that it runs to a continuation holding the inputs as they were and those pieces written. -/
noncomputable def kernelRun1_A (c : Dev nD) (i : grid1.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : cond1_0 i) (hc1 : ¬cond1_1 i)
    (x0 : Vec F S2048x2048 .bf16) (x1 : Vec F S8192x64 .f32) :
    Σ' (L2 : List (View.Piece (Elt F) S2048x64 .f32)), { LS0 : List (View.Piece (Elt F) S2048x64 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1_kernel i arg2 harg2 arg3 harg3 arg4 harg4 arg5 harg5) K } := by
  refine ⟨[], ?_, fun xi2 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- The body on whole staging memrefs in case B of its two conditionals: the pieces its stores leave in the output block and in
    the accumulator, with the proof that it runs to a continuation holding the inputs as they were and those pieces written. -/
noncomputable def kernelRun1_B (c : Dev nD) (i : grid1.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond1_0 i) (hc1 : ¬cond1_1 i)
    (x0 : Vec F S2048x2048 .bf16) (x1 : Vec F S8192x64 .f32) (xs0 : Vec F S2048x64 .f32) :
    Σ' (L2 : List (View.Piece (Elt F) S2048x64 .f32)), { LS0 : List (View.Piece (Elt F) S2048x64 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1_kernel i arg2 harg2 arg3 harg3 arg4 harg4 arg5 harg5) K } := by
  refine ⟨[], ?_, fun xi2 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- The body on whole staging memrefs in case C of its two conditionals: the pieces its stores leave in the output block and in
    the accumulator, with the proof that it runs to a continuation holding the inputs as they were and those pieces written. -/
noncomputable def kernelRun1_C (c : Dev nD) (i : grid1.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond1_0 i) (hc1 : cond1_1 i)
    (x0 : Vec F S2048x2048 .bf16) (x1 : Vec F S8192x64 .f32) (xs0 : Vec F S2048x64 .f32) :
    Σ' (L2 : List (View.Piece (Elt F) S2048x64 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1_kernel i arg2 harg2 arg3 harg3 arg4 harg4 arg5 harg5) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS0

/-! ## What each case leaves -/

/-- What case A leaves in the output block's buffer, read back over junk (no store: a placeholder nothing consults, the window being idle there). -/
def out1_A_2 (c : Dev nD) (i : grid1.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : cond1_0 i) (hc1 : ¬cond1_1 i)
    (x0 : Vec F S2048x2048 .bf16) (x1 : Vec F S8192x64 .f32) : Vec F S2048x64 .f32 :=
  VO1_2.read (Elt F) (VO1_2.writes (Elt F) VO1_2.junk (kernelRun1_A c i arg2 harg2 arg3 harg3 arg4 harg4 arg5 harg5 hc0 hc1 x0 x1).1)

/-- Case A's stores into the accumulator cover it. -/
theorem scover1_A_0 (c : Dev nD) (i : grid1.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : cond1_0 i) (hc1 : ¬cond1_1 i)
    (x0 : Vec F S2048x2048 .bf16) (x1 : Vec F S8192x64 .f32) (y : S2048x64.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S2048x64.size (by sl_kernel_rfl) y

/-- What case A leaves in the accumulator. -/
def sout1_A_0 (c : Dev nD) (i : grid1.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : cond1_0 i) (hc1 : ¬cond1_1 i)
    (x0 : Vec F S2048x2048 .bf16) (x1 : Vec F S8192x64 .f32) : Vec F S2048x64 .f32 :=
  VS1_0.read (Elt F) (VS1_0.writes (Elt F) VS1_0.junk (kernelRun1_A c i arg2 harg2 arg3 harg3 arg4 harg4 arg5 harg5 hc0 hc1 x0 x1).2.1)

/-- What case B leaves in the output block's buffer, read back over junk (no store: a placeholder nothing consults, the window being idle there). -/
def out1_B_2 (c : Dev nD) (i : grid1.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond1_0 i) (hc1 : ¬cond1_1 i)
    (x0 : Vec F S2048x2048 .bf16) (x1 : Vec F S8192x64 .f32) (xs0 : Vec F S2048x64 .f32) : Vec F S2048x64 .f32 :=
  VO1_2.read (Elt F) (VO1_2.writes (Elt F) VO1_2.junk (kernelRun1_B c i arg2 harg2 arg3 harg3 arg4 harg4 arg5 harg5 hc0 hc1 x0 x1 xs0).1)

/-- Case B's stores into the accumulator cover it. -/
theorem scover1_B_0 (c : Dev nD) (i : grid1.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond1_0 i) (hc1 : ¬cond1_1 i)
    (x0 : Vec F S2048x2048 .bf16) (x1 : Vec F S8192x64 .f32) (xs0 : Vec F S2048x64 .f32) (y : S2048x64.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S2048x64.size (by sl_kernel_rfl) y

/-- What case B leaves in the accumulator. -/
def sout1_B_0 (c : Dev nD) (i : grid1.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond1_0 i) (hc1 : ¬cond1_1 i)
    (x0 : Vec F S2048x2048 .bf16) (x1 : Vec F S8192x64 .f32) (xs0 : Vec F S2048x64 .f32) : Vec F S2048x64 .f32 :=
  VS1_0.read (Elt F) (VS1_0.writes (Elt F) VS1_0.junk (kernelRun1_B c i arg2 harg2 arg3 harg3 arg4 harg4 arg5 harg5 hc0 hc1 x0 x1 xs0).2.1)

/-- What case C leaves in the output block's buffer, read back over junk. -/
def out1_C_2 (c : Dev nD) (i : grid1.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond1_0 i) (hc1 : cond1_1 i)
    (x0 : Vec F S2048x2048 .bf16) (x1 : Vec F S8192x64 .f32) (xs0 : Vec F S2048x64 .f32) : Vec F S2048x64 .f32 :=
  VO1_2.read (Elt F) (VO1_2.writes (Elt F) VO1_2.junk (kernelRun1_C c i arg2 harg2 arg3 harg3 arg4 harg4 arg5 harg5 hc0 hc1 x0 x1 xs0).1)

/-- Case C's one store tiles the output block. -/
theorem cover1_C_2 (c : Dev nD) (i : grid1.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond1_0 i) (hc1 : cond1_1 i)
    (x0 : Vec F S2048x2048 .bf16) (x1 : Vec F S8192x64 .f32) (xs0 : Vec F S2048x64 .f32) (y : S2048x64.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S2048x64.size (by sl_kernel_rfl) y

/-- Case C's stores into the accumulator cover it. -/
theorem scover1_C_0 (c : Dev nD) (i : grid1.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond1_0 i) (hc1 : cond1_1 i)
    (x0 : Vec F S2048x2048 .bf16) (x1 : Vec F S8192x64 .f32) (xs0 : Vec F S2048x64 .f32) (y : S2048x64.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S2048x64.size (by sl_kernel_rfl) y

/-- What case C leaves in the accumulator. -/
def sout1_C_0 (c : Dev nD) (i : grid1.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond1_0 i) (hc1 : cond1_1 i)
    (x0 : Vec F S2048x2048 .bf16) (x1 : Vec F S8192x64 .f32) (xs0 : Vec F S2048x64 .f32) : Vec F S2048x64 .f32 :=
  VS1_0.read (Elt F) (VS1_0.writes (Elt F) VS1_0.junk (kernelRun1_C c i arg2 harg2 arg3 harg3 arg4 harg4 arg5 harg5 hc0 hc1 x0 x1 xs0).2.1)

/-! ## What the output block's buffer and the accumulator hold after each point -/

/-- After the body at position `n`: (the output block's buffer, the accumulator) — the case the position is in, run at the
    point's memrefs and input blocks over the accumulator the point before left. -/
def outsAt1 (c : Dev nD) : (n : ℕ) → n < cfg1.N → Vec F S2048x64 .f32 × Vec F S2048x64 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the scoped rest at anything; afterwards the
    accumulator at what the point before left, and the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2)) ∗ ((∃ d, owns (c : Thread nD τ) scM1_0 fullShare d) -∗ (Pipeline.ΦA spec1 c : sProp 𝕄)))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2)) ∗ ((∃ d, owns (c : Thread nD τ) scM1_0 fullShare d) -∗ (Pipeline.ΦA spec1 c : sProp 𝕄))) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2)) ∗ ((∃ d, owns (c : Thread nD τ) scM1_0 fullShare d) -∗ (Pipeline.ΦA spec1 c : sProp 𝕄))) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the closed forms say which case the point is in; the
    invariant hands the body the accumulator at what the point before left (at anything at the first point) and takes it
    back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz]
        iintro ⟨HP, Ho, ⟨%d0, H0⟩, ⟨%d1, H1⟩, ⟨%d2, H2⟩⟩
        ihave HH := (PhiA1_split (F := F) c) $$ HP
        icases HH with ⟨HS0, Hg⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
      · rw [PhiS1_castSucc V c t, PhiS1_pos V c _ _ hz]
        iintro ⟨⟨HS0, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      by_cases hz : t.val = 0
      · exfalso; omega
      · rw [PhiS1_castSucc V c t, PhiS1_pos V c _ _ hz]
        iintro ⟨⟨HS0, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hg]
        · isplitl [HS0]
          · unfold owns; iexists _; isplitr
            swap; · iexact HS0
            ipureintro; exact View.read_writes_of_cover _ _ _ _ _ (scover1_C_0 c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨HS0, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover1_B_0 c _ _ _ _ _ _ _ _ _ _ _ _ _ _)
          iexact Hg
        isplitl [Ho]; · iexact Ho
        isplitl [H0]; · iexact H0
        isplitl [H1]; · iexact H1
        iexists _; iexact H2

theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped rest back: the accumulator's named contents are forgotten. -/
theorem hout1 (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 16 := N_1; omega)]
  iintro ⟨HS0, Hg⟩
  iapply Hg
  iexists _; iexact HS0

end Cert.Kernel.Fr

end
-- ==== Proof.BitsTheta2.lean ====
import proofs.«135368_j63153199120588_2_alg».proof.Proof.Gen.Kernel.Launch
import proofs.«135368_j63153199120588_2_alg».proof.Proof.Gen.Kernel.Skeleton
import proofs.«135368_j63153199120588_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: a product with Θᵀ accumulated over the contraction blocks

The grid is (i, k) ∈ 4 × 4, k fastest. At (i, k) the body zeroes the accumulator when k = 0, adds to it the product of the
point's 2048 × 2048 block of Θ with rows [2048 k, 2048 k + 2048) of the resident 8192 × 64 operand, and when k = 3 copies
the accumulator into the output block i. So the body has three cases (k = 0; k = 1, 2; k = 3), the accumulator is carried
from point to point, and the output block is untouched, and not written back, except at k = 3. -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions, in closed form over the grid -/

/-- `k = 0`: the accumulator is zeroed. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)
/-- `k = 3`: the accumulator is copied out. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2_A : ∀ t : Fin cfg2.N, cond2_0 (grid2.coords t) → ¬cond2_1 (grid2.coords t) → cfg2.idle 2 (grid2.coords t) = true := by decide +kernel
theorem noFlush2_2_A : ∀ t : Fin cfg2.N, cond2_0 (grid2.coords t) → ¬cond2_1 (grid2.coords t) → (cfg2.win 2).flush t = false := by decide +kernel
theorem idleAt2_2_B : ∀ t : Fin cfg2.N, ¬cond2_0 (grid2.coords t) → ¬cond2_1 (grid2.coords t) → cfg2.idle 2 (grid2.coords t) = true := by decide +kernel
theorem noFlush2_2_B : ∀ t : Fin cfg2.N, ¬cond2_0 (grid2.coords t) → ¬cond2_1 (grid2.coords t) → (cfg2.win 2).flush t = false := by decide +kernel
theorem liveAt2_2_C : ∀ t : Fin cfg2.N, ¬cond2_0 (grid2.coords t) → cond2_1 (grid2.coords t) → cfg2.idle 2 (grid2.coords t) = false := by decide +kernel

/-! ## The memrefs the body is called with -/

abbrev VO2_2 : View sig .tc .vmem S2048x64 .f32 := (Memref.whole cc2_stg2_0 : Memref sig .tc .vmem S2048x64 .f32).view
abbrev ms2_0 (t : Fin cfg2.N) : Memref sig .tc .vmem S2048x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8192x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x64 .f32 := win2_2.stage (cfg2.slots t 2)
abbrev hs2_2 (t : Fin cfg2.N) : (ms2_2 t).IsWhole := hstage2_2 ((cfg2.slots t 2).cast nbuf2_2)
/-- The accumulator: a whole scoped buffer of the kernel's own. -/
abbrev scM2_0 : Memref sig .tc .vmem S2048x64 .f32 := Memref.whole cc2_scratch0
abbrev VS2_0 : View sig .tc .vmem S2048x64 .f32 := scM2_0.view

/-- The scoped rest of this region holds the accumulator, at some contents, beside the other regions' scoped buffers: it can
    be taken out, and putting it back (at any contents) restores the scoped rest. -/
theorem PhiA2_split (c : Dev nD) :
    (Pipeline.ΦA spec2 c : sProp 𝕄)
      ⊢ iprop((∃ d, owns (c : Thread nD τ) scM2_0 fullShare d) ∗ ((∃ d, owns (c : Thread nD τ) scM2_0 fullShare d) -∗ Pipeline.ΦA spec2 c)) := by
  unfold Pipeline.ΦA; rw [scopedRest2_eq]; simp only [scM2_0, owns_whole]
  iintro ⟨⟨H0, H1, H2, H3, H4, H5, H6, H7, H8, H9, H10, H11, H12, H13, H14, H15, H16, H17, H18, H19, H20, H21, H22, H23⟩, Hg⟩
  isplitl [H11]; · iexact H11
  iintro HS
  isplitr [Hg]
  · (try dsimp only)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS]; · iexact HS
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iexact H23
  · iexact Hg

/-! ## The body, case by case -/

set_option maxHeartbeats 4000000 in
/-- The body on whole staging memrefs in case A of its two conditionals: the pieces its stores leave in the output block and in
    the accumulator, with the proof that it runs to a continuation holding the inputs as they were and those pieces written. -/
noncomputable def kernelRun2_A (c : Dev nD) (i : grid2.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : cond2_0 i) (hc1 : ¬cond2_1 i)
    (x0 : Vec F S2048x2048 .bf16) (x1 : Vec F S8192x64 .f32) :
    Σ' (L2 : List (View.Piece (Elt F) S2048x64 .f32)), { LS0 : List (View.Piece (Elt F) S2048x64 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2_kernel i arg2 harg2 arg3 harg3 arg4 harg4 arg5 harg5) K } := by
  refine ⟨[], ?_, fun xi2 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- The body on whole staging memrefs in case B of its two conditionals: the pieces its stores leave in the output block and in
    the accumulator, with the proof that it runs to a continuation holding the inputs as they were and those pieces written. -/
noncomputable def kernelRun2_B (c : Dev nD) (i : grid2.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond2_0 i) (hc1 : ¬cond2_1 i)
    (x0 : Vec F S2048x2048 .bf16) (x1 : Vec F S8192x64 .f32) (xs0 : Vec F S2048x64 .f32) :
    Σ' (L2 : List (View.Piece (Elt F) S2048x64 .f32)), { LS0 : List (View.Piece (Elt F) S2048x64 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2_kernel i arg2 harg2 arg3 harg3 arg4 harg4 arg5 harg5) K } := by
  refine ⟨[], ?_, fun xi2 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- The body on whole staging memrefs in case C of its two conditionals: the pieces its stores leave in the output block and in
    the accumulator, with the proof that it runs to a continuation holding the inputs as they were and those pieces written. -/
noncomputable def kernelRun2_C (c : Dev nD) (i : grid2.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond2_0 i) (hc1 : cond2_1 i)
    (x0 : Vec F S2048x2048 .bf16) (x1 : Vec F S8192x64 .f32) (xs0 : Vec F S2048x64 .f32) :
    Σ' (L2 : List (View.Piece (Elt F) S2048x64 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2_kernel i arg2 harg2 arg3 harg3 arg4 harg4 arg5 harg5) K } := by
  refine ⟨?_, ?_, fun E K => ?run⟩
  case run =>
    simp only [cc2_kernel_eq_skeleton]; unfold cc2_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS0

/-! ## What each case leaves -/

/-- What case A leaves in the output block's buffer, read back over junk (no store: a placeholder nothing consults, the window being idle there). -/
def out2_A_2 (c : Dev nD) (i : grid2.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : cond2_0 i) (hc1 : ¬cond2_1 i)
    (x0 : Vec F S2048x2048 .bf16) (x1 : Vec F S8192x64 .f32) : Vec F S2048x64 .f32 :=
  VO2_2.read (Elt F) (VO2_2.writes (Elt F) VO2_2.junk (kernelRun2_A c i arg2 harg2 arg3 harg3 arg4 harg4 arg5 harg5 hc0 hc1 x0 x1).1)

/-- Case A's stores into the accumulator cover it. -/
theorem scover2_A_0 (c : Dev nD) (i : grid2.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : cond2_0 i) (hc1 : ¬cond2_1 i)
    (x0 : Vec F S2048x2048 .bf16) (x1 : Vec F S8192x64 .f32) (y : S2048x64.Idx) :
    ∃ pc ∈ (kernelRun2_A c i arg2 harg2 arg3 harg3 arg4 harg4 arg5 harg5 hc0 hc1 x0 x1).2.1, y ∈ pc.1.set :=
  View.cover_of_tiledL (kernelRun2_A c i arg2 harg2 arg3 harg3 arg4 harg4 arg5 harg5 hc0 hc1 x0 x1).2.1 S2048x64.size (by sl_kernel_rfl) y

/-- What case A leaves in the accumulator. -/
def sout2_A_0 (c : Dev nD) (i : grid2.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : cond2_0 i) (hc1 : ¬cond2_1 i)
    (x0 : Vec F S2048x2048 .bf16) (x1 : Vec F S8192x64 .f32) : Vec F S2048x64 .f32 :=
  VS2_0.read (Elt F) (VS2_0.writes (Elt F) VS2_0.junk (kernelRun2_A c i arg2 harg2 arg3 harg3 arg4 harg4 arg5 harg5 hc0 hc1 x0 x1).2.1)

/-- What case B leaves in the output block's buffer, read back over junk (no store: a placeholder nothing consults, the window being idle there). -/
def out2_B_2 (c : Dev nD) (i : grid2.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond2_0 i) (hc1 : ¬cond2_1 i)
    (x0 : Vec F S2048x2048 .bf16) (x1 : Vec F S8192x64 .f32) (xs0 : Vec F S2048x64 .f32) : Vec F S2048x64 .f32 :=
  VO2_2.read (Elt F) (VO2_2.writes (Elt F) VO2_2.junk (kernelRun2_B c i arg2 harg2 arg3 harg3 arg4 harg4 arg5 harg5 hc0 hc1 x0 x1 xs0).1)

/-- Case B's stores into the accumulator cover it. -/
theorem scover2_B_0 (c : Dev nD) (i : grid2.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond2_0 i) (hc1 : ¬cond2_1 i)
    (x0 : Vec F S2048x2048 .bf16) (x1 : Vec F S8192x64 .f32) (xs0 : Vec F S2048x64 .f32) (y : S2048x64.Idx) :
    ∃ pc ∈ (kernelRun2_B c i arg2 harg2 arg3 harg3 arg4 harg4 arg5 harg5 hc0 hc1 x0 x1 xs0).2.1, y ∈ pc.1.set :=
  View.cover_of_tiledL (kernelRun2_B c i arg2 harg2 arg3 harg3 arg4 harg4 arg5 harg5 hc0 hc1 x0 x1 xs0).2.1 S2048x64.size (by sl_kernel_rfl) y

/-- What case B leaves in the accumulator. -/
def sout2_B_0 (c : Dev nD) (i : grid2.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond2_0 i) (hc1 : ¬cond2_1 i)
    (x0 : Vec F S2048x2048 .bf16) (x1 : Vec F S8192x64 .f32) (xs0 : Vec F S2048x64 .f32) : Vec F S2048x64 .f32 :=
  VS2_0.read (Elt F) (VS2_0.writes (Elt F) VS2_0.junk (kernelRun2_B c i arg2 harg2 arg3 harg3 arg4 harg4 arg5 harg5 hc0 hc1 x0 x1 xs0).2.1)

/-- What case C leaves in the output block's buffer, read back over junk. -/
def out2_C_2 (c : Dev nD) (i : grid2.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond2_0 i) (hc1 : cond2_1 i)
    (x0 : Vec F S2048x2048 .bf16) (x1 : Vec F S8192x64 .f32) (xs0 : Vec F S2048x64 .f32) : Vec F S2048x64 .f32 :=
  VO2_2.read (Elt F) (VO2_2.writes (Elt F) VO2_2.junk (kernelRun2_C c i arg2 harg2 arg3 harg3 arg4 harg4 arg5 harg5 hc0 hc1 x0 x1 xs0).1)

/-- Case C's one store tiles the output block. -/
theorem cover2_C_2 (c : Dev nD) (i : grid2.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond2_0 i) (hc1 : cond2_1 i)
    (x0 : Vec F S2048x2048 .bf16) (x1 : Vec F S8192x64 .f32) (xs0 : Vec F S2048x64 .f32) (y : S2048x64.Idx) :
    ∃ pc ∈ (kernelRun2_C c i arg2 harg2 arg3 harg3 arg4 harg4 arg5 harg5 hc0 hc1 x0 x1 xs0).1, y ∈ pc.1.set :=
  View.cover_of_tiledL (kernelRun2_C c i arg2 harg2 arg3 harg3 arg4 harg4 arg5 harg5 hc0 hc1 x0 x1 xs0).1 S2048x64.size (by sl_kernel_rfl) y

/-- Case C's stores into the accumulator cover it. -/
theorem scover2_C_0 (c : Dev nD) (i : grid2.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond2_0 i) (hc1 : cond2_1 i)
    (x0 : Vec F S2048x2048 .bf16) (x1 : Vec F S8192x64 .f32) (xs0 : Vec F S2048x64 .f32) (y : S2048x64.Idx) :
    ∃ pc ∈ (kernelRun2_C c i arg2 harg2 arg3 harg3 arg4 harg4 arg5 harg5 hc0 hc1 x0 x1 xs0).2.1, y ∈ pc.1.set :=
  View.cover_of_tiledL (kernelRun2_C c i arg2 harg2 arg3 harg3 arg4 harg4 arg5 harg5 hc0 hc1 x0 x1 xs0).2.1 S2048x64.size (by sl_kernel_rfl) y

/-- What case C leaves in the accumulator. -/
def sout2_C_0 (c : Dev nD) (i : grid2.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond2_0 i) (hc1 : cond2_1 i)
    (x0 : Vec F S2048x2048 .bf16) (x1 : Vec F S8192x64 .f32) (xs0 : Vec F S2048x64 .f32) : Vec F S2048x64 .f32 :=
  VS2_0.read (Elt F) (VS2_0.writes (Elt F) VS2_0.junk (kernelRun2_C c i arg2 harg2 arg3 harg3 arg4 harg4 arg5 harg5 hc0 hc1 x0 x1 xs0).2.1)

/-! ## What the output block's buffer and the accumulator hold after each point -/

/-- After the body at position `n`: (the output block's buffer, the accumulator) — the case the position is in, run at the
    point's memrefs and input blocks over the accumulator the point before left. -/
def outsAt2 (c : Dev nD) : (n : ℕ) → n < cfg2.N → Vec F S2048x64 .f32 × Vec F S2048x64 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 4 = 0 then
      if h1 : (n + 1) % 4 = 3 then
        False.elim (by omega)
      else
        (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 4 = 3 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

theorem outsAt2_A (c : Dev nD) (t : Fin cfg2.N) (h0 : t.val % 4 = 0) (h1 : ¬t.val % 4 = 3) :
    outsAt2 V c t.val t.isLt = (out2_A_2 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t), sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

theorem outsAt2_B (c : Dev nD) (t : Fin cfg2.N) (h0 : ¬t.val % 4 = 0) (h1 : ¬t.val % 4 = 3) :
    outsAt2 V c t.val t.isLt = (out2_B_2 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the scoped rest at anything; afterwards the
    accumulator at what the point before left, and the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2)) ∗ ((∃ d, owns (c : Thread nD τ) scM2_0 fullShare d) -∗ (Pipeline.ΦA spec2 c : sProp 𝕄)))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2)) ∗ ((∃ d, owns (c : Thread nD τ) scM2_0 fullShare d) -∗ (Pipeline.ΦA spec2 c : sProp 𝕄))) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2)) ∗ ((∃ d, owns (c : Thread nD τ) scM2_0 fullShare d) -∗ (Pipeline.ΦA spec2 c : sProp 𝕄))) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' memrefs hold their blocks; the closed forms say which case the point is in; the
    invariant hands the body the accumulator at what the point before left (at anything at the first point) and takes it
    back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  by_cases h0 : t.val % 4 = 0
  · by_cases h1 : t.val % 4 = 3
    · exfalso; omega
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [Dat.leavesExact_idle (dat2 V c) 2 t (idleAt2_2_A t ((hcond2_0 t).mpr h0) (fun h => h1 ((hcond2_1 t).mp h))) (noFlush2_2_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz]
        iintro ⟨HP, Ho, ⟨%d0, H0⟩, ⟨%d1, H1⟩, ⟨%d2, H2⟩⟩
        ihave HH := (PhiA2_split (F := F) c) $$ HP
        icases HH with ⟨HS0, Hg⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover2_A_0 c _ _ _ _ _ _ _ _ _ _ _ _ _)
          iexact Hg
        isplitl [Ho]; · iexact Ho
        isplitl [H0]; · iexact H0
        isplitl [H1]; · iexact H1
        iexists _; iexact H2
      · rw [PhiS2_castSucc V c t, PhiS2_pos V c _ _ hz]
        iintro ⟨⟨HS0, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover2_A_0 c _ _ _ _ _ _ _ _ _ _ _ _ _)
          iexact Hg
        isplitl [Ho]; · iexact Ho
        isplitl [H0]; · iexact H0
        isplitl [H1]; · iexact H1
        iexists _; iexact H2
  · by_cases h1 : t.val % 4 = 3
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2_C t (fun h => h0 ((hcond2_0 t).mp h)) ((hcond2_1 t).mpr h1)], after2_2]
      rw [outsAt2_C V c t h0 h1]
      unfold out2_C_2 sout2_C_0; (try dsimp only)
      by_cases hz : t.val = 0
      · exfalso; omega
      · rw [PhiS2_castSucc V c t, PhiS2_pos V c _ _ hz]
        iintro ⟨⟨HS0, Hg⟩, Ho, ⟨%d0, H0⟩, ⟨%d1, H1⟩, ⟨%d2, H2⟩⟩
        iapply ((kernelRun2_C c (grid2.coords t) _ _ _ _ _ _ _ _ (fun h => h0 ((hcond2_0 t).mp h)) ((hcond2_1 t).mpr h1) (iblk2 V c 0 t) (iblk2 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hg]
        · isplitl [HS0]
          · unfold owns; iexists _; isplitr
            swap; · iexact HS0
            ipureintro; exact View.read_writes_of_cover _ _ _ _ _ (scover2_C_0 c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover2_C_2 c _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [Dat.leavesExact_idle (dat2 V c) 2 t (idleAt2_2_B t (fun h => h0 ((hcond2_0 t).mp h)) (fun h => h1 ((hcond2_1 t).mp h))) (noFlush2_2_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        iintro ⟨⟨HS0, Hg⟩, Ho, ⟨%d0, H0⟩, ⟨%d1, H1⟩, ⟨%d2, H2⟩⟩
        iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover2_B_0 c _ _ _ _ _ _ _ _ _ _ _ _ _ _)
          iexact Hg
        isplitl [Ho]; · iexact Ho
        isplitl [H0]; · iexact H0
        isplitl [H1]; · iexact H1
        iexists _; iexact H2

theorem body_obligation2 (c : Dev nD) : BodyObligation (dat2 (F := F) V c) (defs₀ (F := F)) Variants.none () Set.univ := fun t => by
  rw [bigSep_W2, bigSep_W2]
  exact sound_body2 V c t

/-- What the region is handed is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the scoped rest back: the accumulator's named contents are forgotten. -/
theorem hout2 (c : Dev nD) : (dat2 V c).Φ (Fin.last cfg2.N) ⊢ (Pipeline.ΦA spec2 c : sProp 𝕄) := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 16 := N_2; omega)]
  iintro ⟨HS0, Hg⟩
  iapply Hg
  iexists _; iexact HS0

end Cert.Kernel.Fr

end
-- ==== Proof.BitsTheta3.lean ====
import proofs.«135368_j63153199120588_2_alg».proof.Proof.Gen.Kernel.Launch
import proofs.«135368_j63153199120588_2_alg».proof.Proof.Gen.Kernel.Skeleton
import proofs.«135368_j63153199120588_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3: a product with Θ accumulated over the contraction blocks

The grid is (i, k) ∈ 4 × 4, k fastest. At (i, k) the body zeroes the accumulator when k = 0, adds to it the product of the
point's 2048 × 2048 block of Θ with rows [2048 k, 2048 k + 2048) of the resident 8192 × 64 operand, and when k = 3 copies
the accumulator into the output block i. So the body has three cases (k = 0; k = 1, 2; k = 3), the accumulator is carried
from point to point, and the output block is untouched, and not written back, except at k = 3. -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's two conditions, in closed form over the grid -/

/-- `k = 0`: the accumulator is zeroed. -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 4 = 0 :=
  (by decide +kernel : ∀ t : Fin grid3.N, cond3_0 (grid3.coords t) ↔ t.val % 4 = 0)
/-- `k = 3`: the accumulator is copied out. -/
abbrev cond3_1 (i : grid3.Coords) : Prop := k3_cond2 i = 1#1
theorem hcond3_1 : ∀ t : Fin cfg3.N, cond3_1 (grid3.coords t) ↔ t.val % 4 = 3 :=
  (by decide +kernel : ∀ t : Fin grid3.N, cond3_1 (grid3.coords t) ↔ t.val % 4 = 3)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem idleAt3_2_A : ∀ t : Fin cfg3.N, cond3_0 (grid3.coords t) → ¬cond3_1 (grid3.coords t) → cfg3.idle 2 (grid3.coords t) = true := by decide +kernel
theorem noFlush3_2_A : ∀ t : Fin cfg3.N, cond3_0 (grid3.coords t) → ¬cond3_1 (grid3.coords t) → (cfg3.win 2).flush t = false := by decide +kernel
theorem idleAt3_2_B : ∀ t : Fin cfg3.N, ¬cond3_0 (grid3.coords t) → ¬cond3_1 (grid3.coords t) → cfg3.idle 2 (grid3.coords t) = true := by decide +kernel
theorem noFlush3_2_B : ∀ t : Fin cfg3.N, ¬cond3_0 (grid3.coords t) → ¬cond3_1 (grid3.coords t) → (cfg3.win 2).flush t = false := by decide +kernel
theorem liveAt3_2_C : ∀ t : Fin cfg3.N, ¬cond3_0 (grid3.coords t) → cond3_1 (grid3.coords t) → cfg3.idle 2 (grid3.coords t) = false := by decide +kernel

/-! ## The memrefs the body is called with -/

abbrev VO3_2 : View sig .tc .vmem S2048x64 .f32 := (Memref.whole cc3_stg2_0 : Memref sig .tc .vmem S2048x64 .f32).view
abbrev ms3_0 (t : Fin cfg3.N) : Memref sig .tc .vmem S2048x2048 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S8192x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2048x64 .f32 := win3_2.stage (cfg3.slots t 2)
abbrev hs3_2 (t : Fin cfg3.N) : (ms3_2 t).IsWhole := hstage3_2 ((cfg3.slots t 2).cast nbuf3_2)
/-- The accumulator: a whole scoped buffer of the kernel's own. -/
abbrev scM3_0 : Memref sig .tc .vmem S2048x64 .f32 := Memref.whole cc3_scratch0
abbrev VS3_0 : View sig .tc .vmem S2048x64 .f32 := scM3_0.view

/-- The scoped rest of this region holds the accumulator, at some contents, beside the other regions' scoped buffers: it can
    be taken out, and putting it back (at any contents) restores the scoped rest. -/
theorem PhiA3_split (c : Dev nD) :
    (Pipeline.ΦA spec3 c : sProp 𝕄)
      ⊢ iprop((∃ d, owns (c : Thread nD τ) scM3_0 fullShare d) ∗ ((∃ d, owns (c : Thread nD τ) scM3_0 fullShare d) -∗ Pipeline.ΦA spec3 c)) := by
  unfold Pipeline.ΦA; rw [scopedRest3_eq]; simp only [scM3_0, owns_whole]
  iintro ⟨⟨H0, H1, H2, H3, H4, H5, H6, H7, H8, H9, H10, H11, H12, H13, H14, H15, H16, H17, H18, H19, H20, H21, H22, H23⟩, Hg⟩
  isplitl [H17]; · iexact H17
  iintro HS
  isplitr [Hg]
  · (try dsimp only)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [HS]; · iexact HS
    isplitl [H18]; · iexact H18
    isplitl [H19]; · iexact H19
    isplitl [H20]; · iexact H20
    isplitl [H21]; · iexact H21
    isplitl [H22]; · iexact H22
    iexact H23
  · iexact Hg

/-! ## The body, case by case -/

set_option maxHeartbeats 4000000 in
/-- The body on whole staging memrefs in case A of its two conditionals: the pieces its stores leave in the output block and in
    the accumulator, with the proof that it runs to a continuation holding the inputs as they were and those pieces written. -/
noncomputable def kernelRun3_A (c : Dev nD) (i : grid3.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : cond3_0 i) (hc1 : ¬cond3_1 i)
    (x0 : Vec F S2048x2048 .bf16) (x1 : Vec F S8192x64 .f32) :
    Σ' (L2 : List (View.Piece (Elt F) S2048x64 .f32)), { LS0 : List (View.Piece (Elt F) S2048x64 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc3_kernel i arg2 harg2 arg3 harg3 arg4 harg4 arg5 harg5) K } := by
  refine ⟨[], ?_, fun xi2 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- The body on whole staging memrefs in case B of its two conditionals: the pieces its stores leave in the output block and in
    the accumulator, with the proof that it runs to a continuation holding the inputs as they were and those pieces written. -/
noncomputable def kernelRun3_B (c : Dev nD) (i : grid3.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond3_0 i) (hc1 : ¬cond3_1 i)
    (x0 : Vec F S2048x2048 .bf16) (x1 : Vec F S8192x64 .f32) (xs0 : Vec F S2048x64 .f32) :
    Σ' (L2 : List (View.Piece (Elt F) S2048x64 .f32)), { LS0 : List (View.Piece (Elt F) S2048x64 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc3_kernel i arg2 harg2 arg3 harg3 arg4 harg4 arg5 harg5) K } := by
  refine ⟨[], ?_, fun xi2 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- The body on whole staging memrefs in case C of its two conditionals: the pieces its stores leave in the output block and in
    the accumulator, with the proof that it runs to a continuation holding the inputs as they were and those pieces written. -/
noncomputable def kernelRun3_C (c : Dev nD) (i : grid3.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond3_0 i) (hc1 : cond3_1 i)
    (x0 : Vec F S2048x2048 .bf16) (x1 : Vec F S8192x64 .f32) (xs0 : Vec F S2048x64 .f32) :
    Σ' (L2 : List (View.Piece (Elt F) S2048x64 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc3_kernel i arg2 harg2 arg3 harg3 arg4 harg4 arg5 harg5) K } := by
  refine ⟨?_, ?_, fun E K => ?run⟩
  case run =>
    simp only [cc3_kernel_eq_skeleton]; unfold cc3_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS0

/-! ## What each case leaves -/

/-- What case A leaves in the output block's buffer, read back over junk (no store: a placeholder nothing consults, the window being idle there). -/
def out3_A_2 (c : Dev nD) (i : grid3.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : cond3_0 i) (hc1 : ¬cond3_1 i)
    (x0 : Vec F S2048x2048 .bf16) (x1 : Vec F S8192x64 .f32) : Vec F S2048x64 .f32 :=
  VO3_2.read (Elt F) (VO3_2.writes (Elt F) VO3_2.junk (kernelRun3_A c i arg2 harg2 arg3 harg3 arg4 harg4 arg5 harg5 hc0 hc1 x0 x1).1)

/-- Case A's stores into the accumulator cover it. -/
theorem scover3_A_0 (c : Dev nD) (i : grid3.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : cond3_0 i) (hc1 : ¬cond3_1 i)
    (x0 : Vec F S2048x2048 .bf16) (x1 : Vec F S8192x64 .f32) (y : S2048x64.Idx) :
    ∃ pc ∈ (kernelRun3_A c i arg2 harg2 arg3 harg3 arg4 harg4 arg5 harg5 hc0 hc1 x0 x1).2.1, y ∈ pc.1.set :=
  View.cover_of_tiledL (kernelRun3_A c i arg2 harg2 arg3 harg3 arg4 harg4 arg5 harg5 hc0 hc1 x0 x1).2.1 S2048x64.size (by sl_kernel_rfl) y

/-- What case A leaves in the accumulator. -/
def sout3_A_0 (c : Dev nD) (i : grid3.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : cond3_0 i) (hc1 : ¬cond3_1 i)
    (x0 : Vec F S2048x2048 .bf16) (x1 : Vec F S8192x64 .f32) : Vec F S2048x64 .f32 :=
  VS3_0.read (Elt F) (VS3_0.writes (Elt F) VS3_0.junk (kernelRun3_A c i arg2 harg2 arg3 harg3 arg4 harg4 arg5 harg5 hc0 hc1 x0 x1).2.1)

/-- What case B leaves in the output block's buffer, read back over junk (no store: a placeholder nothing consults, the window being idle there). -/
def out3_B_2 (c : Dev nD) (i : grid3.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond3_0 i) (hc1 : ¬cond3_1 i)
    (x0 : Vec F S2048x2048 .bf16) (x1 : Vec F S8192x64 .f32) (xs0 : Vec F S2048x64 .f32) : Vec F S2048x64 .f32 :=
  VO3_2.read (Elt F) (VO3_2.writes (Elt F) VO3_2.junk (kernelRun3_B c i arg2 harg2 arg3 harg3 arg4 harg4 arg5 harg5 hc0 hc1 x0 x1 xs0).1)

/-- Case B's stores into the accumulator cover it. -/
theorem scover3_B_0 (c : Dev nD) (i : grid3.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond3_0 i) (hc1 : ¬cond3_1 i)
    (x0 : Vec F S2048x2048 .bf16) (x1 : Vec F S8192x64 .f32) (xs0 : Vec F S2048x64 .f32) (y : S2048x64.Idx) :
    ∃ pc ∈ (kernelRun3_B c i arg2 harg2 arg3 harg3 arg4 harg4 arg5 harg5 hc0 hc1 x0 x1 xs0).2.1, y ∈ pc.1.set :=
  View.cover_of_tiledL (kernelRun3_B c i arg2 harg2 arg3 harg3 arg4 harg4 arg5 harg5 hc0 hc1 x0 x1 xs0).2.1 S2048x64.size (by sl_kernel_rfl) y

/-- What case B leaves in the accumulator. -/
def sout3_B_0 (c : Dev nD) (i : grid3.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond3_0 i) (hc1 : ¬cond3_1 i)
    (x0 : Vec F S2048x2048 .bf16) (x1 : Vec F S8192x64 .f32) (xs0 : Vec F S2048x64 .f32) : Vec F S2048x64 .f32 :=
  VS3_0.read (Elt F) (VS3_0.writes (Elt F) VS3_0.junk (kernelRun3_B c i arg2 harg2 arg3 harg3 arg4 harg4 arg5 harg5 hc0 hc1 x0 x1 xs0).2.1)

/-- What case C leaves in the output block's buffer, read back over junk. -/
def out3_C_2 (c : Dev nD) (i : grid3.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond3_0 i) (hc1 : cond3_1 i)
    (x0 : Vec F S2048x2048 .bf16) (x1 : Vec F S8192x64 .f32) (xs0 : Vec F S2048x64 .f32) : Vec F S2048x64 .f32 :=
  VO3_2.read (Elt F) (VO3_2.writes (Elt F) VO3_2.junk (kernelRun3_C c i arg2 harg2 arg3 harg3 arg4 harg4 arg5 harg5 hc0 hc1 x0 x1 xs0).1)

/-- Case C's one store tiles the output block. -/
theorem cover3_C_2 (c : Dev nD) (i : grid3.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond3_0 i) (hc1 : cond3_1 i)
    (x0 : Vec F S2048x2048 .bf16) (x1 : Vec F S8192x64 .f32) (xs0 : Vec F S2048x64 .f32) (y : S2048x64.Idx) :
    ∃ pc ∈ (kernelRun3_C c i arg2 harg2 arg3 harg3 arg4 harg4 arg5 harg5 hc0 hc1 x0 x1 xs0).1, y ∈ pc.1.set :=
  View.cover_of_tiledL (kernelRun3_C c i arg2 harg2 arg3 harg3 arg4 harg4 arg5 harg5 hc0 hc1 x0 x1 xs0).1 S2048x64.size (by sl_kernel_rfl) y

/-- Case C's stores into the accumulator cover it. -/
theorem scover3_C_0 (c : Dev nD) (i : grid3.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond3_0 i) (hc1 : cond3_1 i)
    (x0 : Vec F S2048x2048 .bf16) (x1 : Vec F S8192x64 .f32) (xs0 : Vec F S2048x64 .f32) (y : S2048x64.Idx) :
    ∃ pc ∈ (kernelRun3_C c i arg2 harg2 arg3 harg3 arg4 harg4 arg5 harg5 hc0 hc1 x0 x1 xs0).2.1, y ∈ pc.1.set :=
  View.cover_of_tiledL (kernelRun3_C c i arg2 harg2 arg3 harg3 arg4 harg4 arg5 harg5 hc0 hc1 x0 x1 xs0).2.1 S2048x64.size (by sl_kernel_rfl) y

/-- What case C leaves in the accumulator. -/
def sout3_C_0 (c : Dev nD) (i : grid3.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond3_0 i) (hc1 : cond3_1 i)
    (x0 : Vec F S2048x2048 .bf16) (x1 : Vec F S8192x64 .f32) (xs0 : Vec F S2048x64 .f32) : Vec F S2048x64 .f32 :=
  VS3_0.read (Elt F) (VS3_0.writes (Elt F) VS3_0.junk (kernelRun3_C c i arg2 harg2 arg3 harg3 arg4 harg4 arg5 harg5 hc0 hc1 x0 x1 xs0).2.1)

/-! ## What the output block's buffer and the accumulator hold after each point -/

/-- After the body at position `n`: (the output block's buffer, the accumulator) — the case the position is in, run at the
    point's memrefs and input blocks over the accumulator the point before left. -/
def outsAt3 (c : Dev nD) : (n : ℕ) → n < cfg3.N → Vec F S2048x64 .f32 × Vec F S2048x64 .f32
  | 0, hn => (out3_A_2 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩))
  | n + 1, hn =>
    if h0 : (n + 1) % 4 = 0 then
      if h1 : (n + 1) % 4 = 3 then
        False.elim (by omega)
      else
        (out3_A_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩))
    else
      if h1 : (n + 1) % 4 = 3 then
        (out3_C_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2)
      else
        (out3_B_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2)

theorem outsAt3_A (c : Dev nD) (t : Fin cfg3.N) (h0 : t.val % 4 = 0) (h1 : ¬t.val % 4 = 3) :
    outsAt3 V c t.val t.isLt = (out3_A_2 c (grid3.coords t) (ms3_0 t) (hs3_0 t) (ms3_1 t) (hs3_1 t) (ms3_2 t) (hs3_2 t) scM3_0 (Memref.isWhole_whole _) ((hcond3_0 t).mpr h0) (fun h => h1 ((hcond3_1 t).mp h)) (iblk3 V c 0 t) (iblk3 V c 1 t), sout3_A_0 c (grid3.coords t) (ms3_0 t) (hs3_0 t) (ms3_1 t) (hs3_1 t) (ms3_2 t) (hs3_2 t) scM3_0 (Memref.isWhole_whole _) ((hcond3_0 t).mpr h0) (fun h => h1 ((hcond3_1 t).mp h)) (iblk3 V c 0 t) (iblk3 V c 1 t)) := by
  obtain ⟨n, hn⟩ := t
  cases n with
  | zero => exact rfl
  | succ n => exact (dif_pos h0).trans ((dif_neg h1).trans rfl)

theorem outsAt3_B (c : Dev nD) (t : Fin cfg3.N) (h0 : ¬t.val % 4 = 0) (h1 : ¬t.val % 4 = 3) :
    outsAt3 V c t.val t.isLt = (out3_B_2 c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 4 = 0) (h1 : t.val % 4 = 3) :
    outsAt3 V c t.val t.isLt = (out3_C_2 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the scoped rest at anything; afterwards the
    accumulator at what the point before left, and the generator register at some state. -/
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2)) ∗ ((∃ d, owns (c : Thread nD τ) scM3_0 fullShare d) -∗ (Pipeline.ΦA spec3 c : sProp 𝕄)))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare ((outsAt3 V c n hn).2)) ∗ ((∃ d, owns (c : Thread nD τ) scM3_0 fullShare d) -∗ (Pipeline.ΦA spec3 c : sProp 𝕄))) := rfl

theorem PhiS3_pos (c : Dev nD) (n : ℕ) (h : n ≤ cfg3.N) (hz : n ≠ 0) :
    PhiS3 V c n h = iprop(iprop(owns (c : Thread nD τ) scM3_0 fullShare ((outsAt3 V c (n - 1) (by omega)).2)) ∗ ((∃ d, owns (c : Thread nD τ) scM3_0 fullShare d) -∗ (Pipeline.ΦA spec3 c : sProp 𝕄))) := by
  cases n with
  | zero => exact absurd rfl hz
  | succ n => rfl

/-! ## The proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point: the inputs' memrefs hold their blocks; the closed forms say which case the point is in; the
    invariant hands the body the accumulator at what the point before left (at anything at the first point) and takes it
    back at this point's contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hN : t.val < 16 := lt_of_lt_of_eq t.isLt (show cfg3.N = 16 from N_3)
  by_cases h0 : t.val % 4 = 0
  · by_cases h1 : t.val % 4 = 3
    · exfalso; omega
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [Dat.leavesExact_idle (dat3 V c) 2 t (idleAt3_2_A t ((hcond3_0 t).mpr h0) (fun h => h1 ((hcond3_1 t).mp h))) (noFlush3_2_A t ((hcond3_0 t).mpr h0) (fun h => h1 ((hcond3_1 t).mp h)))]
      rw [outsAt3_A V c t h0 h1]
      unfold sout3_A_0; (try dsimp only)
      by_cases hz : t.val = 0
      · rw [PhiS3_castSucc V c t, PhiS3_zero V c _ _ hz]
        iintro ⟨HP, Ho, ⟨%d0, H0⟩, ⟨%d1, H1⟩, ⟨%d2, H2⟩⟩
        ihave HH := (PhiA3_split (F := F) c) $$ HP
        icases HH with ⟨HS0, Hg⟩
        iapply ((kernelRun3_A c (grid3.coords t) _ _ _ _ _ _ _ _ ((hcond3_0 t).mpr h0) (fun h => h1 ((hcond3_1 t).mp h)) (iblk3 V c 0 t) (iblk3 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover3_A_0 c _ _ _ _ _ _ _ _ _ _ _ _ _)
          iexact Hg
        isplitl [Ho]; · iexact Ho
        isplitl [H0]; · iexact H0
        isplitl [H1]; · iexact H1
        iexists _; iexact H2
      · rw [PhiS3_castSucc V c t, PhiS3_pos V c _ _ hz]
        iintro ⟨⟨HS0, Hg⟩, Ho, ⟨%d0, H0⟩, ⟨%d1, H1⟩, ⟨%d2, H2⟩⟩
        iapply ((kernelRun3_A c (grid3.coords t) _ _ _ _ _ _ _ _ ((hcond3_0 t).mpr h0) (fun h => h1 ((hcond3_1 t).mp h)) (iblk3 V c 0 t) (iblk3 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover3_A_0 c _ _ _ _ _ _ _ _ _ _ _ _ _)
          iexact Hg
        isplitl [Ho]; · iexact Ho
        isplitl [H0]; · iexact H0
        isplitl [H1]; · iexact H1
        iexists _; iexact H2
  · by_cases h1 : t.val % 4 = 3
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2_C t (fun h => h0 ((hcond3_0 t).mp h)) ((hcond3_1 t).mpr h1)], after3_2]
      rw [outsAt3_C V c t h0 h1]
      unfold out3_C_2 sout3_C_0; (try dsimp only)
      by_cases hz : t.val = 0
      · exfalso; omega
      · rw [PhiS3_castSucc V c t, PhiS3_pos V c _ _ hz]
        iintro ⟨⟨HS0, Hg⟩, Ho, ⟨%d0, H0⟩, ⟨%d1, H1⟩, ⟨%d2, H2⟩⟩
        iapply ((kernelRun3_C c (grid3.coords t) _ _ _ _ _ _ _ _ (fun h => h0 ((hcond3_0 t).mp h)) ((hcond3_1 t).mpr h1) (iblk3 V c 0 t) (iblk3 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hg]
        · isplitl [HS0]
          · unfold owns; iexists _; isplitr
            swap; · iexact HS0
            ipureintro; exact View.read_writes_of_cover _ _ _ _ _ (scover3_C_0 c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover3_C_2 c _ _ _ _ _ _ _ _ _ _ _ _ _ _)
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [Dat.leavesExact_idle (dat3 V c) 2 t (idleAt3_2_B t (fun h => h0 ((hcond3_0 t).mp h)) (fun h => h1 ((hcond3_1 t).mp h))) (noFlush3_2_B t (fun h => h0 ((hcond3_0 t).mp h)) (fun h => h1 ((hcond3_1 t).mp h)))]
      rw [outsAt3_B V c t h0 h1]
      unfold sout3_B_0; (try dsimp only)
      by_cases hz : t.val = 0
      · exfalso; omega
      · rw [PhiS3_castSucc V c t, PhiS3_pos V c _ _ hz]
        iintro ⟨⟨HS0, Hg⟩, Ho, ⟨%d0, H0⟩, ⟨%d1, H1⟩, ⟨%d2, H2⟩⟩
        iapply ((kernelRun3_B c (grid3.coords t) _ _ _ _ _ _ _ _ (fun h => h0 ((hcond3_0 t).mp h)) (fun h => h1 ((hcond3_1 t).mp h)) (iblk3 V c 0 t) (iblk3 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover3_B_0 c _ _ _ _ _ _ _ _ _ _ _ _ _ _)
          iexact Hg
        isplitl [Ho]; · iexact Ho
        isplitl [H0]; · iexact H0
        isplitl [H1]; · iexact H1
        iexists _; iexact H2

theorem body_obligation3 (c : Dev nD) : BodyObligation (dat3 (F := F) V c) (defs₀ (F := F)) Variants.none () Set.univ := fun t => by
  rw [bigSep_W3, bigSep_W3]
  exact sound_body3 V c t

/-- What the region is handed is the invariant before the first point. -/
theorem hin3 (c : Dev nD) : (Pipeline.ΦA spec3 c : sProp 𝕄) ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the scoped rest back: the accumulator's named contents are forgotten. -/
theorem hout3 (c : Dev nD) : (dat3 V c).Φ (Fin.last cfg3.N) ⊢ (Pipeline.ΦA spec3 c : sProp 𝕄) := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 16 := N_3; omega)]
  iintro ⟨HS0, Hg⟩
  iapply Hg
  iexists _; iexact HS0

end Cert.Kernel.Fr

end
-- ==== Proof.BitsTheta4.lean ====
import proofs.«135368_j63153199120588_2_alg».proof.Proof.Gen.Kernel.Launch
import proofs.«135368_j63153199120588_2_alg».proof.Proof.Gen.Kernel.Skeleton
import proofs.«135368_j63153199120588_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4: a product with Θ accumulated over the contraction blocks

The grid is (i, k) ∈ 4 × 4, k fastest. At (i, k) the body zeroes the accumulator when k = 0, adds to it the product of the
point's 2048 × 2048 block of Θ with rows [2048 k, 2048 k + 2048) of the resident 8192 × 64 operand, and when k = 3 copies
the accumulator into the output block i. So the body has three cases (k = 0; k = 1, 2; k = 3), the accumulator is carried
from point to point, and the output block is untouched, and not written back, except at k = 3. -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's two conditions, in closed form over the grid -/

/-- `k = 0`: the accumulator is zeroed. -/
abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 4 = 0 :=
  (by decide +kernel : ∀ t : Fin grid4.N, cond4_0 (grid4.coords t) ↔ t.val % 4 = 0)
/-- `k = 3`: the accumulator is copied out. -/
abbrev cond4_1 (i : grid4.Coords) : Prop := k4_cond2 i = 1#1
theorem hcond4_1 : ∀ t : Fin cfg4.N, cond4_1 (grid4.coords t) ↔ t.val % 4 = 3 :=
  (by decide +kernel : ∀ t : Fin grid4.N, cond4_1 (grid4.coords t) ↔ t.val % 4 = 3)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem idleAt4_2_A : ∀ t : Fin cfg4.N, cond4_0 (grid4.coords t) → ¬cond4_1 (grid4.coords t) → cfg4.idle 2 (grid4.coords t) = true := by decide +kernel
theorem noFlush4_2_A : ∀ t : Fin cfg4.N, cond4_0 (grid4.coords t) → ¬cond4_1 (grid4.coords t) → (cfg4.win 2).flush t = false := by decide +kernel
theorem idleAt4_2_B : ∀ t : Fin cfg4.N, ¬cond4_0 (grid4.coords t) → ¬cond4_1 (grid4.coords t) → cfg4.idle 2 (grid4.coords t) = true := by decide +kernel
theorem noFlush4_2_B : ∀ t : Fin cfg4.N, ¬cond4_0 (grid4.coords t) → ¬cond4_1 (grid4.coords t) → (cfg4.win 2).flush t = false := by decide +kernel
theorem liveAt4_2_C : ∀ t : Fin cfg4.N, ¬cond4_0 (grid4.coords t) → cond4_1 (grid4.coords t) → cfg4.idle 2 (grid4.coords t) = false := by decide +kernel

/-! ## The memrefs the body is called with -/

abbrev VO4_2 : View sig .tc .vmem S2048x64 .f32 := (Memref.whole cc4_stg2_0 : Memref sig .tc .vmem S2048x64 .f32).view
abbrev ms4_0 (t : Fin cfg4.N) : Memref sig .tc .vmem S2048x2048 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S8192x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2048x64 .f32 := win4_2.stage (cfg4.slots t 2)
abbrev hs4_2 (t : Fin cfg4.N) : (ms4_2 t).IsWhole := hstage4_2 ((cfg4.slots t 2).cast nbuf4_2)
/-- The accumulator: a whole scoped buffer of the kernel's own. -/
abbrev scM4_0 : Memref sig .tc .vmem S2048x64 .f32 := Memref.whole cc4_scratch0
abbrev VS4_0 : View sig .tc .vmem S2048x64 .f32 := scM4_0.view

/-- The scoped rest of this region holds the accumulator, at some contents, beside the other regions' scoped buffers: it can
    be taken out, and putting it back (at any contents) restores the scoped rest. -/
theorem PhiA4_split (c : Dev nD) :
    (Pipeline.ΦA spec4 c : sProp 𝕄)
      ⊢ iprop((∃ d, owns (c : Thread nD τ) scM4_0 fullShare d) ∗ ((∃ d, owns (c : Thread nD τ) scM4_0 fullShare d) -∗ Pipeline.ΦA spec4 c)) := by
  unfold Pipeline.ΦA; rw [scopedRest4_eq]; simp only [scM4_0, owns_whole]
  iintro ⟨⟨H0, H1, H2, H3, H4, H5, H6, H7, H8, H9, H10, H11, H12, H13, H14, H15, H16, H17, H18, H19, H20, H21, H22, H23⟩, Hg⟩
  isplitl [H23]; · iexact H23
  iintro HS
  isplitr [Hg]
  · (try dsimp only)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iexact HS
  · iexact Hg

/-! ## The body, case by case -/

set_option maxHeartbeats 4000000 in
/-- The body on whole staging memrefs in case A of its two conditionals: the pieces its stores leave in the output block and in
    the accumulator, with the proof that it runs to a continuation holding the inputs as they were and those pieces written. -/
noncomputable def kernelRun4_A (c : Dev nD) (i : grid4.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : cond4_0 i) (hc1 : ¬cond4_1 i)
    (x0 : Vec F S2048x2048 .bf16) (x1 : Vec F S8192x64 .f32) :
    Σ' (L2 : List (View.Piece (Elt F) S2048x64 .f32)), { LS0 : List (View.Piece (Elt F) S2048x64 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc4_kernel i arg2 harg2 arg3 harg3 arg4 harg4 arg5 harg5) K } := by
  refine ⟨[], ?_, fun xi2 E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- The body on whole staging memrefs in case B of its two conditionals: the pieces its stores leave in the output block and in
    the accumulator, with the proof that it runs to a continuation holding the inputs as they were and those pieces written. -/
noncomputable def kernelRun4_B (c : Dev nD) (i : grid4.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond4_0 i) (hc1 : ¬cond4_1 i)
    (x0 : Vec F S2048x2048 .bf16) (x1 : Vec F S8192x64 .f32) (xs0 : Vec F S2048x64 .f32) :
    Σ' (L2 : List (View.Piece (Elt F) S2048x64 .f32)), { LS0 : List (View.Piece (Elt F) S2048x64 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc4_kernel i arg2 harg2 arg3 harg3 arg4 harg4 arg5 harg5) K } := by
  refine ⟨[], ?_, fun xi2 E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- The body on whole staging memrefs in case C of its two conditionals: the pieces its stores leave in the output block and in
    the accumulator, with the proof that it runs to a continuation holding the inputs as they were and those pieces written. -/
noncomputable def kernelRun4_C (c : Dev nD) (i : grid4.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond4_0 i) (hc1 : cond4_1 i)
    (x0 : Vec F S2048x2048 .bf16) (x1 : Vec F S8192x64 .f32) (xs0 : Vec F S2048x64 .f32) :
    Σ' (L2 : List (View.Piece (Elt F) S2048x64 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc4_kernel i arg2 harg2 arg3 harg3 arg4 harg4 arg5 harg5) K } := by
  refine ⟨?_, ?_, fun E K => ?run⟩
  case run =>
    simp only [cc4_kernel_eq_skeleton]; unfold cc4_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS0

/-! ## What each case leaves -/

/-- What case A leaves in the output block's buffer, read back over junk (no store: a placeholder nothing consults, the window being idle there). -/
def out4_A_2 (c : Dev nD) (i : grid4.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : cond4_0 i) (hc1 : ¬cond4_1 i)
    (x0 : Vec F S2048x2048 .bf16) (x1 : Vec F S8192x64 .f32) : Vec F S2048x64 .f32 :=
  VO4_2.read (Elt F) (VO4_2.writes (Elt F) VO4_2.junk (kernelRun4_A c i arg2 harg2 arg3 harg3 arg4 harg4 arg5 harg5 hc0 hc1 x0 x1).1)

/-- Case A's stores into the accumulator cover it. -/
theorem scover4_A_0 (c : Dev nD) (i : grid4.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : cond4_0 i) (hc1 : ¬cond4_1 i)
    (x0 : Vec F S2048x2048 .bf16) (x1 : Vec F S8192x64 .f32) (y : S2048x64.Idx) :
    ∃ pc ∈ (kernelRun4_A c i arg2 harg2 arg3 harg3 arg4 harg4 arg5 harg5 hc0 hc1 x0 x1).2.1, y ∈ pc.1.set :=
  View.cover_of_tiledL (kernelRun4_A c i arg2 harg2 arg3 harg3 arg4 harg4 arg5 harg5 hc0 hc1 x0 x1).2.1 S2048x64.size (by sl_kernel_rfl) y

/-- What case A leaves in the accumulator. -/
def sout4_A_0 (c : Dev nD) (i : grid4.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : cond4_0 i) (hc1 : ¬cond4_1 i)
    (x0 : Vec F S2048x2048 .bf16) (x1 : Vec F S8192x64 .f32) : Vec F S2048x64 .f32 :=
  VS4_0.read (Elt F) (VS4_0.writes (Elt F) VS4_0.junk (kernelRun4_A c i arg2 harg2 arg3 harg3 arg4 harg4 arg5 harg5 hc0 hc1 x0 x1).2.1)

/-- What case B leaves in the output block's buffer, read back over junk (no store: a placeholder nothing consults, the window being idle there). -/
def out4_B_2 (c : Dev nD) (i : grid4.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond4_0 i) (hc1 : ¬cond4_1 i)
    (x0 : Vec F S2048x2048 .bf16) (x1 : Vec F S8192x64 .f32) (xs0 : Vec F S2048x64 .f32) : Vec F S2048x64 .f32 :=
  VO4_2.read (Elt F) (VO4_2.writes (Elt F) VO4_2.junk (kernelRun4_B c i arg2 harg2 arg3 harg3 arg4 harg4 arg5 harg5 hc0 hc1 x0 x1 xs0).1)

/-- Case B's stores into the accumulator cover it. -/
theorem scover4_B_0 (c : Dev nD) (i : grid4.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond4_0 i) (hc1 : ¬cond4_1 i)
    (x0 : Vec F S2048x2048 .bf16) (x1 : Vec F S8192x64 .f32) (xs0 : Vec F S2048x64 .f32) (y : S2048x64.Idx) :
    ∃ pc ∈ (kernelRun4_B c i arg2 harg2 arg3 harg3 arg4 harg4 arg5 harg5 hc0 hc1 x0 x1 xs0).2.1, y ∈ pc.1.set :=
  View.cover_of_tiledL (kernelRun4_B c i arg2 harg2 arg3 harg3 arg4 harg4 arg5 harg5 hc0 hc1 x0 x1 xs0).2.1 S2048x64.size (by sl_kernel_rfl) y

/-- What case B leaves in the accumulator. -/
def sout4_B_0 (c : Dev nD) (i : grid4.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond4_0 i) (hc1 : ¬cond4_1 i)
    (x0 : Vec F S2048x2048 .bf16) (x1 : Vec F S8192x64 .f32) (xs0 : Vec F S2048x64 .f32) : Vec F S2048x64 .f32 :=
  VS4_0.read (Elt F) (VS4_0.writes (Elt F) VS4_0.junk (kernelRun4_B c i arg2 harg2 arg3 harg3 arg4 harg4 arg5 harg5 hc0 hc1 x0 x1 xs0).2.1)

/-- What case C leaves in the output block's buffer, read back over junk. -/
def out4_C_2 (c : Dev nD) (i : grid4.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond4_0 i) (hc1 : cond4_1 i)
    (x0 : Vec F S2048x2048 .bf16) (x1 : Vec F S8192x64 .f32) (xs0 : Vec F S2048x64 .f32) : Vec F S2048x64 .f32 :=
  VO4_2.read (Elt F) (VO4_2.writes (Elt F) VO4_2.junk (kernelRun4_C c i arg2 harg2 arg3 harg3 arg4 harg4 arg5 harg5 hc0 hc1 x0 x1 xs0).1)

/-- Case C's one store tiles the output block. -/
theorem cover4_C_2 (c : Dev nD) (i : grid4.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond4_0 i) (hc1 : cond4_1 i)
    (x0 : Vec F S2048x2048 .bf16) (x1 : Vec F S8192x64 .f32) (xs0 : Vec F S2048x64 .f32) (y : S2048x64.Idx) :
    ∃ pc ∈ (kernelRun4_C c i arg2 harg2 arg3 harg3 arg4 harg4 arg5 harg5 hc0 hc1 x0 x1 xs0).1, y ∈ pc.1.set :=
  View.cover_of_tiledL (kernelRun4_C c i arg2 harg2 arg3 harg3 arg4 harg4 arg5 harg5 hc0 hc1 x0 x1 xs0).1 S2048x64.size (by sl_kernel_rfl) y

/-- Case C's stores into the accumulator cover it. -/
theorem scover4_C_0 (c : Dev nD) (i : grid4.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond4_0 i) (hc1 : cond4_1 i)
    (x0 : Vec F S2048x2048 .bf16) (x1 : Vec F S8192x64 .f32) (xs0 : Vec F S2048x64 .f32) (y : S2048x64.Idx) :
    ∃ pc ∈ (kernelRun4_C c i arg2 harg2 arg3 harg3 arg4 harg4 arg5 harg5 hc0 hc1 x0 x1 xs0).2.1, y ∈ pc.1.set :=
  View.cover_of_tiledL (kernelRun4_C c i arg2 harg2 arg3 harg3 arg4 harg4 arg5 harg5 hc0 hc1 x0 x1 xs0).2.1 S2048x64.size (by sl_kernel_rfl) y

/-- What case C leaves in the accumulator. -/
def sout4_C_0 (c : Dev nD) (i : grid4.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond4_0 i) (hc1 : cond4_1 i)
    (x0 : Vec F S2048x2048 .bf16) (x1 : Vec F S8192x64 .f32) (xs0 : Vec F S2048x64 .f32) : Vec F S2048x64 .f32 :=
  VS4_0.read (Elt F) (VS4_0.writes (Elt F) VS4_0.junk (kernelRun4_C c i arg2 harg2 arg3 harg3 arg4 harg4 arg5 harg5 hc0 hc1 x0 x1 xs0).2.1)

/-! ## What the output block's buffer and the accumulator hold after each point -/

/-- After the body at position `n`: (the output block's buffer, the accumulator) — the case the position is in, run at the
    point's memrefs and input blocks over the accumulator the point before left. -/
def outsAt4 (c : Dev nD) : (n : ℕ) → n < cfg4.N → Vec F S2048x64 .f32 × Vec F S2048x64 .f32
  | 0, hn => (out4_A_2 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩))
  | n + 1, hn =>
    if h0 : (n + 1) % 4 = 0 then
      if h1 : (n + 1) % 4 = 3 then
        False.elim (by omega)
      else
        (out4_A_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩))
    else
      if h1 : (n + 1) % 4 = 3 then
        (out4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2)
      else
        (out4_B_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2)

theorem outsAt4_A (c : Dev nD) (t : Fin cfg4.N) (h0 : t.val % 4 = 0) (h1 : ¬t.val % 4 = 3) :
    outsAt4 V c t.val t.isLt = (out4_A_2 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t), sout4_A_0 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t)) := by
  obtain ⟨n, hn⟩ := t
  cases n with
  | zero => exact rfl
  | succ n => exact (dif_pos h0).trans ((dif_neg h1).trans rfl)

theorem outsAt4_B (c : Dev nD) (t : Fin cfg4.N) (h0 : ¬t.val % 4 = 0) (h1 : ¬t.val % 4 = 3) :
    outsAt4 V c t.val t.isLt = (out4_B_2 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 4 = 0) (h1 : t.val % 4 = 3) :
    outsAt4 V c t.val t.isLt = (out4_C_2 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the scoped rest at anything; afterwards the
    accumulator at what the point before left, and the generator register at some state. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2)) ∗ ((∃ d, owns (c : Thread nD τ) scM4_0 fullShare d) -∗ (Pipeline.ΦA spec4 c : sProp 𝕄)))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4_0 fullShare ((outsAt4 V c n hn).2)) ∗ ((∃ d, owns (c : Thread nD τ) scM4_0 fullShare d) -∗ (Pipeline.ΦA spec4 c : sProp 𝕄))) := rfl

theorem PhiS4_pos (c : Dev nD) (n : ℕ) (h : n ≤ cfg4.N) (hz : n ≠ 0) :
    PhiS4 V c n h = iprop(iprop(owns (c : Thread nD τ) scM4_0 fullShare ((outsAt4 V c (n - 1) (by omega)).2)) ∗ ((∃ d, owns (c : Thread nD τ) scM4_0 fullShare d) -∗ (Pipeline.ΦA spec4 c : sProp 𝕄))) := by
  cases n with
  | zero => exact absurd rfl hz
  | succ n => rfl

/-! ## The proof data -/

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point: the inputs' memrefs hold their blocks; the closed forms say which case the point is in; the
    invariant hands the body the accumulator at what the point before left (at anything at the first point) and takes it
    back at this point's contents; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 16 := lt_of_lt_of_eq t.isLt (show cfg4.N = 16 from N_4)
  by_cases h0 : t.val % 4 = 0
  · by_cases h1 : t.val % 4 = 3
    · exfalso; omega
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [Dat.leavesExact_idle (dat4 V c) 2 t (idleAt4_2_A t ((hcond4_0 t).mpr h0) (fun h => h1 ((hcond4_1 t).mp h))) (noFlush4_2_A t ((hcond4_0 t).mpr h0) (fun h => h1 ((hcond4_1 t).mp h)))]
      rw [outsAt4_A V c t h0 h1]
      unfold sout4_A_0; (try dsimp only)
      by_cases hz : t.val = 0
      · rw [PhiS4_castSucc V c t, PhiS4_zero V c _ _ hz]
        iintro ⟨HP, Ho, ⟨%d0, H0⟩, ⟨%d1, H1⟩, ⟨%d2, H2⟩⟩
        ihave HH := (PhiA4_split (F := F) c) $$ HP
        icases HH with ⟨HS0, Hg⟩
        iapply ((kernelRun4_A c (grid4.coords t) _ _ _ _ _ _ _ _ ((hcond4_0 t).mpr h0) (fun h => h1 ((hcond4_1 t).mp h)) (iblk4 V c 0 t) (iblk4 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover4_A_0 c _ _ _ _ _ _ _ _ _ _ _ _ _)
          iexact Hg
        isplitl [Ho]; · iexact Ho
        isplitl [H0]; · iexact H0
        isplitl [H1]; · iexact H1
        iexists _; iexact H2
      · rw [PhiS4_castSucc V c t, PhiS4_pos V c _ _ hz]
        iintro ⟨⟨HS0, Hg⟩, Ho, ⟨%d0, H0⟩, ⟨%d1, H1⟩, ⟨%d2, H2⟩⟩
        iapply ((kernelRun4_A c (grid4.coords t) _ _ _ _ _ _ _ _ ((hcond4_0 t).mpr h0) (fun h => h1 ((hcond4_1 t).mp h)) (iblk4 V c 0 t) (iblk4 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover4_A_0 c _ _ _ _ _ _ _ _ _ _ _ _ _)
          iexact Hg
        isplitl [Ho]; · iexact Ho
        isplitl [H0]; · iexact H0
        isplitl [H1]; · iexact H1
        iexists _; iexact H2
  · by_cases h1 : t.val % 4 = 3
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2_C t (fun h => h0 ((hcond4_0 t).mp h)) ((hcond4_1 t).mpr h1)], after4_2]
      rw [outsAt4_C V c t h0 h1]
      unfold out4_C_2 sout4_C_0; (try dsimp only)
      by_cases hz : t.val = 0
      · exfalso; omega
      · rw [PhiS4_castSucc V c t, PhiS4_pos V c _ _ hz]
        iintro ⟨⟨HS0, Hg⟩, Ho, ⟨%d0, H0⟩, ⟨%d1, H1⟩, ⟨%d2, H2⟩⟩
        iapply ((kernelRun4_C c (grid4.coords t) _ _ _ _ _ _ _ _ (fun h => h0 ((hcond4_0 t).mp h)) ((hcond4_1 t).mpr h1) (iblk4 V c 0 t) (iblk4 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hg]
        · isplitl [HS0]
          · unfold owns; iexists _; isplitr
            swap; · iexact HS0
            ipureintro; exact View.read_writes_of_cover _ _ _ _ _ (scover4_C_0 c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover4_C_2 c _ _ _ _ _ _ _ _ _ _ _ _ _ _)
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [Dat.leavesExact_idle (dat4 V c) 2 t (idleAt4_2_B t (fun h => h0 ((hcond4_0 t).mp h)) (fun h => h1 ((hcond4_1 t).mp h))) (noFlush4_2_B t (fun h => h0 ((hcond4_0 t).mp h)) (fun h => h1 ((hcond4_1 t).mp h)))]
      rw [outsAt4_B V c t h0 h1]
      unfold sout4_B_0; (try dsimp only)
      by_cases hz : t.val = 0
      · exfalso; omega
      · rw [PhiS4_castSucc V c t, PhiS4_pos V c _ _ hz]
        iintro ⟨⟨HS0, Hg⟩, Ho, ⟨%d0, H0⟩, ⟨%d1, H1⟩, ⟨%d2, H2⟩⟩
        iapply ((kernelRun4_B c (grid4.coords t) _ _ _ _ _ _ _ _ (fun h => h0 ((hcond4_0 t).mp h)) (fun h => h1 ((hcond4_1 t).mp h)) (iblk4 V c 0 t) (iblk4 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover4_B_0 c _ _ _ _ _ _ _ _ _ _ _ _ _ _)
          iexact Hg
        isplitl [Ho]; · iexact Ho
        isplitl [H0]; · iexact H0
        isplitl [H1]; · iexact H1
        iexists _; iexact H2

theorem body_obligation4 (c : Dev nD) : BodyObligation (dat4 (F := F) V c) (defs₀ (F := F)) Variants.none () Set.univ := fun t => by
  rw [bigSep_W4, bigSep_W4]
  exact sound_body4 V c t

/-- What the region is handed is the invariant before the first point. -/
theorem hin4 (c : Dev nD) : (Pipeline.ΦA spec4 c : sProp 𝕄) ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the scoped rest back: the accumulator's named contents are forgotten. -/
theorem hout4 (c : Dev nD) : (dat4 V c).Φ (Fin.last cfg4.N) ⊢ (Pipeline.ΦA spec4 c : sProp 𝕄) := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 16 := N_4; omega)]
  iintro ⟨HS0, Hg⟩
  iapply Hg
  iexists _; iexact HS0

end Cert.Kernel.Fr

end
-- ==== Proof.BitsRun.lean ====
/- The run of @main as eleven segments — six stretches of host operations and five pipelined regions — from the
   launch memory to the return: the buffer contents at every segment boundary, every region's proof data at its entry
   contents, the segments over the thread state "every unscoped buffer at the boundary's contents, the generator
   register at some state, nothing owed", and from them that every weakly fair execution terminates with every
   unscoped buffer at the last boundary's contents, the argument arrays as launched. -/
import proofs.«135368_j63153199120588_2_alg».proof.Proof.BitsGemm
import proofs.«135368_j63153199120588_2_alg».proof.Proof.BitsTheta1
import proofs.«135368_j63153199120588_2_alg».proof.Proof.BitsTheta2
import proofs.«135368_j63153199120588_2_alg».proof.Proof.BitsTheta3
import proofs.«135368_j63153199120588_2_alg».proof.Proof.BitsTheta4

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)
/-- After `hostOps0` (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, each output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`). -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3` (region 3's entry). -/
abbrev W7 : Dev nD → Valuation τ sig (Elt F) := fun c => StableHlo.after hostOps3 (W6 m ρ c)
/-- The same read at the TensorCore's references (what region 3's proof data take). -/
abbrev V7 : (c : Dev nD) → (b : Ref sig .tc) → Buf (Elt F) ((c : Thread nD τ).loc b) := fun c b => W7 m ρ c b
/-- At region 3's exit: its arrays at what the pipeline leaves (the inputs as entered, each output's write-backs
    folded), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves (`hF3`) and every other buffer what it
    held at entry (`hrest3`). -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After `hostOps4` (region 4's entry). -/
abbrev W9 : Dev nD → Valuation τ sig (Elt F) := fun c => StableHlo.after hostOps4 (W8 m ρ c)
/-- The same read at the TensorCore's references (what region 4's proof data take). -/
abbrev V9 : (c : Dev nD) → (b : Ref sig .tc) → Buf (Elt F) ((c : Thread nD τ).loc b) := fun c b => W9 m ρ c b
/-- At region 4's exit: its arrays at what the pipeline leaves (the inputs as entered, each output's write-backs
    folded), every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same read at the TensorCore's references (region 4's exit contents). -/
abbrev V10 : (c : Dev nD) → (b : Ref sig .tc) → Buf (Elt F) ((c : Thread nD τ).loc b) := fun c b => W10 m ρ c b
/-- At region 4's exit each of its arrays holds what the pipeline leaves (`hF4`) and every other buffer what it
    held at entry (`hrest4`). -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After `hostOps5` (the return). -/
abbrev W11 : Dev nD → Valuation τ sig (Elt F) := fun c => StableHlo.after hostOps5 (W10 m ρ c)

/-! ### The arguments end as launched: no host operation and no region writes one (a region reads it through an
    input window or bypasses it), so the fold at an argument's buffer walks back to the launch memory -/

theorem W11_main_arg0 (c : Dev nD) : W11 m ρ c (Proc.devRef .tc main_arg0) = m ((c : Thread nD τ).loc main_arg0) :=
  calc W11 m ρ c (Proc.devRef .tc main_arg0)
    _ = W10 m ρ c (Proc.devRef .tc main_arg0) := StableHlo.after_of_forall_not_mem (b := Proc.devRef .tc main_arg0) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg0) := W10_of_ne m ρ c main_arg0 (by decide)
    _ = W8 m ρ c (Proc.devRef .tc main_arg0) := StableHlo.after_of_forall_not_mem (b := Proc.devRef .tc main_arg0) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg0) := W8_of_ne m ρ c main_arg0 (by decide)
    _ = W6 m ρ c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W11_main_arg1 (c : Dev nD) : W11 m ρ c (Proc.devRef .tc main_arg1) = m ((c : Thread nD τ).loc main_arg1) :=
  calc W11 m ρ c (Proc.devRef .tc main_arg1)
    _ = W10 m ρ c (Proc.devRef .tc main_arg1) := StableHlo.after_of_forall_not_mem (b := Proc.devRef .tc main_arg1) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg1) := W10_of_ne m ρ c main_arg1 (by decide)
    _ = W8 m ρ c (Proc.devRef .tc main_arg1) := StableHlo.after_of_forall_not_mem (b := Proc.devRef .tc main_arg1) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg1) := W8_of_ne m ρ c main_arg1 (by decide)
    _ = W6 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W11_main_arg2 (c : Dev nD) : W11 m ρ c (Proc.devRef .tc main_arg2) = m ((c : Thread nD τ).loc main_arg2) :=
  calc W11 m ρ c (Proc.devRef .tc main_arg2)
    _ = W10 m ρ c (Proc.devRef .tc main_arg2) := StableHlo.after_of_forall_not_mem (b := Proc.devRef .tc main_arg2) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg2) := W10_of_ne m ρ c main_arg2 (by decide)
    _ = W8 m ρ c (Proc.devRef .tc main_arg2) := StableHlo.after_of_forall_not_mem (b := Proc.devRef .tc main_arg2) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W11_main_arg3 (c : Dev nD) : W11 m ρ c (Proc.devRef .tc main_arg3) = m ((c : Thread nD τ).loc main_arg3) :=
  calc W11 m ρ c (Proc.devRef .tc main_arg3)
    _ = W10 m ρ c (Proc.devRef .tc main_arg3) := StableHlo.after_of_forall_not_mem (b := Proc.devRef .tc main_arg3) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg3) := W10_of_ne m ρ c main_arg3 (by decide)
    _ = W8 m ρ c (Proc.devRef .tc main_arg3) := StableHlo.after_of_forall_not_mem (b := Proc.devRef .tc main_arg3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg3) := W8_of_ne m ρ c main_arg3 (by decide)
    _ = W6 m ρ c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W11_main_arg4 (c : Dev nD) : W11 m ρ c (Proc.devRef .tc main_arg4) = m ((c : Thread nD τ).loc main_arg4) :=
  calc W11 m ρ c (Proc.devRef .tc main_arg4)
    _ = W10 m ρ c (Proc.devRef .tc main_arg4) := StableHlo.after_of_forall_not_mem (b := Proc.devRef .tc main_arg4) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg4) := W10_of_ne m ρ c main_arg4 (by decide)
    _ = W8 m ρ c (Proc.devRef .tc main_arg4) := StableHlo.after_of_forall_not_mem (b := Proc.devRef .tc main_arg4) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg4) := W8_of_ne m ρ c main_arg4 (by decide)
    _ = W6 m ρ c (Proc.devRef .tc main_arg4) := StableHlo.after_of_forall_not_mem (b := Proc.devRef .tc main_arg4) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := (W2_arr m ρ c 1).trans (((dat0 (V1 m ρ) c).arrAt_in 1 rfl _).trans (A_eq0 (V1 m ρ) c 1))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ## The proof data family and the thread state -/

/-- The prefetched tables' admissible contents: no pipeline has a table. -/
abbrev adm : (p : Fin 5) → (pcfgs (F := F) p).Adm := fun p => (cfgs p).toPCfg_adm
/-- Every pipeline's proof data, each at its region's entry contents — a literal `match`, so that the pinned
    configuration at a numeral reduces to the printed one. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along (its `post` is
    then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of `hostOps0` allocates a buffer. -/
theorem hostOps0_fresh : (hostOps0 : List (HloOp τ sig (Elt F))).Forall fun op => op.fresh = ∅ := by
  simp only [List.Forall]; repeat' constructor
/-- No operation of `hostOps1` allocates a buffer. -/
theorem hostOps1_fresh : (hostOps1 : List (HloOp τ sig (Elt F))).Forall fun op => op.fresh = ∅ := by
  simp only [List.Forall]; repeat' constructor
/-- No operation of `hostOps2` allocates a buffer. -/
theorem hostOps2_fresh : (hostOps2 : List (HloOp τ sig (Elt F))).Forall fun op => op.fresh = ∅ := by
  simp only [List.Forall]; repeat' constructor
/-- No operation of `hostOps3` allocates a buffer. -/
theorem hostOps3_fresh : (hostOps3 : List (HloOp τ sig (Elt F))).Forall fun op => op.fresh = ∅ := by
  simp only [List.Forall]; repeat' constructor
/-- No operation of `hostOps4` allocates a buffer. -/
theorem hostOps4_fresh : (hostOps4 : List (HloOp τ sig (Elt F))).Forall fun op => op.fresh = ∅ := by
  simp only [List.Forall]; repeat' constructor
/-- No operation of `hostOps5` allocates a buffer. -/
theorem hostOps5_fresh : (hostOps5 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W11`, the
    generator register at some state. -/
abbrev Tₙ (c : Dev nD) : sProp 𝕄 := iprop(StableHlo.held (c : Thread nD τ) (Pipeline.ucRefs τ sig) (W11 m ρ c) ∗ ∃ r, prngReg c r)

/-! ## The regions as segments -/

set_option backward.isDefEq.respectTransparency.types false in
/-- REGION 0 over the thread state: entered from every unscoped buffer at `W1`, left at `W2`. Its arrays split
    out of the unscoped buffers and put back at the exit contents; the generator register and the scoped buffers no
    window stages into the region's invariant at its first point and out of it at its last; nothing owed; no
    semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its arrays split
    out of the unscoped buffers and put back at the exit contents; the generator register and the scoped buffers no
    window stages into the region's invariant at its first point and out of it at its last; nothing owed; no
    semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W5`, left at `W6`. Its arrays split
    out of the unscoped buffers and put back at the exit contents; the generator register and the scoped buffers no
    window stages into the region's invariant at its first point and out of it at its last; nothing owed; no
    semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun w => A_eq2 (V5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V5 m ρ) c)
    unfold Pipeline.ΦA
    iintro ⟨Hp, -, Hr⟩
    isplitl [Hr]; · iexact Hr
    iexact Hp
  hout c := by
    rw [Pipeline.ownSems0_none]
    refine BIBase.Entails.trans (hout2 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W7`, left at `W8`. Its arrays split
    out of the unscoped buffers and put back at the exit contents; the generator register and the scoped buffers no
    window stages into the region's invariant at its first point and out of it at its last; nothing owed; no
    semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun w => A_eq3 (V7 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V7 m ρ) c)
    unfold Pipeline.ΦA
    iintro ⟨Hp, -, Hr⟩
    isplitl [Hr]; · iexact Hr
    iexact Hp
  hout c := by
    rw [Pipeline.ownSems0_none]
    refine BIBase.Entails.trans (hout3 (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W9`, left at `W10`. Its arrays split
    out of the unscoped buffers and put back at the exit contents; the generator register and the scoped buffers no
    window stages into the region's invariant at its first point and out of it at its last; nothing owed; no
    semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun w => A_eq4 (V9 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (V9 m ρ) c)
    unfold Pipeline.ΦA
    iintro ⟨Hp, -, Hr⟩
    isplitl [Hr]; · iexact Hr
    iexact Hp
  hout c := by
    rw [Pipeline.ownSems0_none]
    refine BIBase.Entails.trans (hout4 (V9 m ρ) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 11 segments in order: a host segment per stretch from its boundary's contents, a region per pipelined call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)) ]
/-- @main IS the run of the segments. -/
theorem main_run (c : Dev nD) : main (F := F) c = Pipeline.Seg.run (segs m ρ) :=
  main_segs adm (pdats m ρ) () 𝒱₀ L lv _ _ _ _ _ _ (reg0 m ρ) (reg1 m ρ) (reg2 m ρ) (reg3 m ρ) (reg4 m ρ) rfl rfl rfl rfl rfl rfl c

set_option backward.isDefEq.respectTransparency.types false in
/-- THE RUN: at the compiled mesh, from any memory with zero counters, every weakly fair execution of @main on the
    TensorCores terminates, nothing faulting, and every final state has every unscoped buffer of every core at the last
    boundary's contents `W11`. -/
theorem run : θ_run defs (onTc (τ := τ) (main (F := F))) ⟨m, fun _ => 0, ρ⟩ (fun r => ∀ c : Dev nD,
      ∀ b ∈ Pipeline.ucRefs τ sig, r.2.mem ((c : Thread nD τ).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => by
        show iprop(StableHlo.held (c : Thread nD τ) (Pipeline.ucRefs τ sig) (W11 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

/-- THE FRAME: every weakly fair execution of @main terminates, nothing faulting, and every final state has the
    argument arrays as launched: the run, each argument's buffer read at the last boundary's contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c)⟩) (run m ρ)

/-- The result's buffer at the return holds the last boundary's contents at it. -/
theorem W_out (r : PUnit × MemSt nD τ sig (Elt F)) (c : Dev nD)
    (h : ∀ b ∈ Pipeline.ucRefs τ sig, r.2.mem ((c : Thread nD τ).1, b) = W11 m ρ c b) :
    r.2.mem ((c.tc : Thread nD τ).loc main_v36) = W11 m ρ c (Proc.devRef .tc main_v36) :=
  h _ (mem_uc main_v36 (by decide))

end Cert.Kernel.Fr

end
-- ==== Proof.IdealGemm.lean ====
import proofs.«135368_j63153199120588_2_alg».proof.Proof.Gen.KernelIdeal.Launch
import proofs.«135368_j63153199120588_2_alg».proof.Proof.Gen.KernelIdeal.Skeleton
import proofs.«135368_j63153199120588_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the dense projection, one row block of 2048 rows per grid point

At every point the body loads its block of the features (2048 × 64) and the whole weight (64 × 64) and stores their
product into its output block; nothing is kept between points. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole 2048 × 64 block and the whole 64 × 64 block as rectangles. -/
abbrev rA0 : Rect S2048x64 := Rect.unit (s := S2048x64) ![0, 0] S2048x64.size inb_S2048x64_S2048x64_0_0
abbrev rB0 : Rect S64x64 := Rect.unit (s := S64x64) ![0, 0] S64x64.size inb_S64x64_S64x64_0_0

/-- The output block after the body: the one store's payload, the product of the two loaded blocks. -/
def out0_2 (x0 : Vec F S2048x64 .f32) (x1 : Vec F S64x64 .f32) : Vec F S2048x64 .f32 :=
  View.canon [⟨rA0, k0_pay1 (View.ld x0 rA0) (View.ld x1 rB0)⟩]

theorem cover0_2 (p0 : Vec F S2048x64 .f32) (y : S2048x64.Idx) :
    ∃ pc ∈ ([⟨rA0, p0⟩] : List (View.Piece (Elt F) S2048x64 .f32)), y ∈ pc.1.set :=
  View.cover_of_tiled [⟨rA0, p0⟩] S2048x64.size (by rfl) y

set_option maxHeartbeats 1000000 in
/-- The body on whole staging memrefs: the inputs are handed back as they were, the output holds the product. -/
theorem sound_kernel0 (c : Dev nD) (E : Set ℕ) (i : grid0.Coords) (arg1 : Memref sig .tc .vmem S2048x64 .f32) (harg1 : arg1.IsWhole)
    (arg2 : Memref sig .tc .vmem S64x64 .f32) (harg2 : arg2.IsWhole) (arg3 : Memref sig .tc .vmem S2048x64 .f32) (harg3 : arg3.IsWhole)
    (x0 : Vec F S2048x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__gemm_kernel i arg1 harg1 arg2 harg2 arg3 harg3) K := by
  simp only [cc0__gemm_kernel_eq_skeleton]; unfold cc0__gemm_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of region 0: the arrays as the region finds them; after the body each input's buffer at its block and the
    output's at the product of the two input blocks; the invariant is the scoped rest and the generator register. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := .rfl

theorem hout0 (c : Dev nD) : (dat0 V c).Φ (Fin.last cfg0.N) ⊢ (Pipeline.ΦA spec0 c : sProp 𝕄) := .rfl

end Cert.KernelIdeal.Fr

end
-- ==== Proof.IdealTheta1.lean ====
import proofs.«135368_j63153199120588_2_alg».proof.Proof.Gen.KernelIdeal.Launch
import proofs.«135368_j63153199120588_2_alg».proof.Proof.Gen.KernelIdeal.Skeleton
import proofs.«135368_j63153199120588_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: a product with Θᵀ accumulated over the contraction blocks

The grid is (i, k) ∈ 4 × 4, k fastest. At (i, k) the body zeroes the accumulator when k = 0, adds to it the product of the
point's 2048 × 2048 block of Θ with rows [2048 k, 2048 k + 2048) of the resident 8192 × 64 operand, and when k = 3 copies
the accumulator into the output block i. So the body has three cases (k = 0; k = 1, 2; k = 3), the accumulator is carried
from point to point, and the output block is untouched, and not written back, except at k = 3. -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, in closed form over the grid -/

/-- `k = 0`: the accumulator is zeroed. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- `k = 3`: the accumulator is copied out. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
theorem liveAt1_2_C : ∀ t : Fin cfg1.N, ¬cond1_0 (grid1.coords t) → cond1_1 (grid1.coords t) → cfg1.idle 2 (grid1.coords t) = false := by decide +kernel

/-! ## The memrefs the body is called with -/

abbrev VO1_2 : View sig .tc .vmem S2048x64 .f32 := (Memref.whole cc1_stg2_0 : Memref sig .tc .vmem S2048x64 .f32).view
abbrev ms1_0 (t : Fin cfg1.N) : Memref sig .tc .vmem S2048x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x64 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1_0 : Memref sig .tc .vmem S2048x64 .f32 := Memref.whole cc1_scratch0
abbrev VS1_0 : View sig .tc .vmem S2048x64 .f32 := scM1_0.view

/-- The scoped rest of this region holds the accumulator, at some contents, beside the other regions' scoped buffers: it can
    be taken out, and putting it back (at any contents) restores the scoped rest. -/
theorem PhiA1_split (c : Dev nD) :
    (Pipeline.ΦA spec1 c : sProp 𝕄)
      ⊢ iprop((∃ d, owns (c : Thread nD τ) scM1_0 fullShare d) ∗ ((∃ d, owns (c : Thread nD τ) scM1_0 fullShare d) -∗ Pipeline.ΦA spec1 c)) := by
  unfold Pipeline.ΦA; rw [scopedRest1_eq]; simp only [scM1_0, owns_whole]
  iintro ⟨⟨H0, H1, H2, H3, H4, H5, H6, H7, H8, H9, H10, H11, H12, H13, H14, H15, H16, H17, H18, H19, H20, H21, H22, H23⟩, Hg⟩
  isplitl [H5]; · iexact H5
  iintro HS
  isplitr [Hg]
  · (try dsimp only)
    isplitl [H0]; · iexact H0
    isplitl [H1]; · iexact H1
    isplitl [H2]; · iexact H2
    isplitl [H3]; · iexact H3
    isplitl [H4]; · iexact H4
    isplitl [HS]; · iexact HS
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iexact H23
  · iexact Hg

/-! ## The body, case by case -/

set_option maxHeartbeats 4000000 in
/-- The body on whole staging memrefs in case A of its two conditionals: the pieces its stores leave in the output block and in
    the accumulator, with the proof that it runs to a continuation holding the inputs as they were and those pieces written. -/
noncomputable def kernelRun1_A (c : Dev nD) (i : grid1.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : cond1_0 i) (hc1 : ¬cond1_1 i)
    (x0 : Vec F S2048x2048 .bf16) (x1 : Vec F S8192x64 .f32) :
    Σ' (L2 : List (View.Piece (Elt F) S2048x64 .f32)), { LS0 : List (View.Piece (Elt F) S2048x64 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1_kernel i arg2 harg2 arg3 harg3 arg4 harg4 arg5 harg5) K } := by
  refine ⟨[], ?_, fun xi2 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- The body on whole staging memrefs in case B of its two conditionals: the pieces its stores leave in the output block and in
    the accumulator, with the proof that it runs to a continuation holding the inputs as they were and those pieces written. -/
noncomputable def kernelRun1_B (c : Dev nD) (i : grid1.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond1_0 i) (hc1 : ¬cond1_1 i)
    (x0 : Vec F S2048x2048 .bf16) (x1 : Vec F S8192x64 .f32) (xs0 : Vec F S2048x64 .f32) :
    Σ' (L2 : List (View.Piece (Elt F) S2048x64 .f32)), { LS0 : List (View.Piece (Elt F) S2048x64 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1_kernel i arg2 harg2 arg3 harg3 arg4 harg4 arg5 harg5) K } := by
  refine ⟨[], ?_, fun xi2 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- The body on whole staging memrefs in case C of its two conditionals: the pieces its stores leave in the output block and in
    the accumulator, with the proof that it runs to a continuation holding the inputs as they were and those pieces written. -/
noncomputable def kernelRun1_C (c : Dev nD) (i : grid1.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond1_0 i) (hc1 : cond1_1 i)
    (x0 : Vec F S2048x2048 .bf16) (x1 : Vec F S8192x64 .f32) (xs0 : Vec F S2048x64 .f32) :
    Σ' (L2 : List (View.Piece (Elt F) S2048x64 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1_kernel i arg2 harg2 arg3 harg3 arg4 harg4 arg5 harg5) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS0

/-! ## What each case leaves -/

/-- What case A leaves in the output block's buffer, read back over junk (no store: a placeholder nothing consults, the window being idle there). -/
def out1_A_2 (c : Dev nD) (i : grid1.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : cond1_0 i) (hc1 : ¬cond1_1 i)
    (x0 : Vec F S2048x2048 .bf16) (x1 : Vec F S8192x64 .f32) : Vec F S2048x64 .f32 :=
  VO1_2.read (Elt F) (VO1_2.writes (Elt F) VO1_2.junk (kernelRun1_A c i arg2 harg2 arg3 harg3 arg4 harg4 arg5 harg5 hc0 hc1 x0 x1).1)

/-- Case A's stores into the accumulator cover it. -/
theorem scover1_A_0 (c : Dev nD) (i : grid1.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : cond1_0 i) (hc1 : ¬cond1_1 i)
    (x0 : Vec F S2048x2048 .bf16) (x1 : Vec F S8192x64 .f32) (y : S2048x64.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S2048x64.size (by sl_kernel_rfl) y

/-- What case A leaves in the accumulator. -/
def sout1_A_0 (c : Dev nD) (i : grid1.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : cond1_0 i) (hc1 : ¬cond1_1 i)
    (x0 : Vec F S2048x2048 .bf16) (x1 : Vec F S8192x64 .f32) : Vec F S2048x64 .f32 :=
  VS1_0.read (Elt F) (VS1_0.writes (Elt F) VS1_0.junk (kernelRun1_A c i arg2 harg2 arg3 harg3 arg4 harg4 arg5 harg5 hc0 hc1 x0 x1).2.1)

/-- What case B leaves in the output block's buffer, read back over junk (no store: a placeholder nothing consults, the window being idle there). -/
def out1_B_2 (c : Dev nD) (i : grid1.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond1_0 i) (hc1 : ¬cond1_1 i)
    (x0 : Vec F S2048x2048 .bf16) (x1 : Vec F S8192x64 .f32) (xs0 : Vec F S2048x64 .f32) : Vec F S2048x64 .f32 :=
  VO1_2.read (Elt F) (VO1_2.writes (Elt F) VO1_2.junk (kernelRun1_B c i arg2 harg2 arg3 harg3 arg4 harg4 arg5 harg5 hc0 hc1 x0 x1 xs0).1)

/-- Case B's stores into the accumulator cover it. -/
theorem scover1_B_0 (c : Dev nD) (i : grid1.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond1_0 i) (hc1 : ¬cond1_1 i)
    (x0 : Vec F S2048x2048 .bf16) (x1 : Vec F S8192x64 .f32) (xs0 : Vec F S2048x64 .f32) (y : S2048x64.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S2048x64.size (by sl_kernel_rfl) y

/-- What case B leaves in the accumulator. -/
def sout1_B_0 (c : Dev nD) (i : grid1.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond1_0 i) (hc1 : ¬cond1_1 i)
    (x0 : Vec F S2048x2048 .bf16) (x1 : Vec F S8192x64 .f32) (xs0 : Vec F S2048x64 .f32) : Vec F S2048x64 .f32 :=
  VS1_0.read (Elt F) (VS1_0.writes (Elt F) VS1_0.junk (kernelRun1_B c i arg2 harg2 arg3 harg3 arg4 harg4 arg5 harg5 hc0 hc1 x0 x1 xs0).2.1)

/-- What case C leaves in the output block's buffer, read back over junk. -/
def out1_C_2 (c : Dev nD) (i : grid1.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond1_0 i) (hc1 : cond1_1 i)
    (x0 : Vec F S2048x2048 .bf16) (x1 : Vec F S8192x64 .f32) (xs0 : Vec F S2048x64 .f32) : Vec F S2048x64 .f32 :=
  VO1_2.read (Elt F) (VO1_2.writes (Elt F) VO1_2.junk (kernelRun1_C c i arg2 harg2 arg3 harg3 arg4 harg4 arg5 harg5 hc0 hc1 x0 x1 xs0).1)

/-- Case C's one store tiles the output block. -/
theorem cover1_C_2 (c : Dev nD) (i : grid1.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond1_0 i) (hc1 : cond1_1 i)
    (x0 : Vec F S2048x2048 .bf16) (x1 : Vec F S8192x64 .f32) (xs0 : Vec F S2048x64 .f32) (y : S2048x64.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S2048x64.size (by sl_kernel_rfl) y

/-- Case C's stores into the accumulator cover it. -/
theorem scover1_C_0 (c : Dev nD) (i : grid1.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond1_0 i) (hc1 : cond1_1 i)
    (x0 : Vec F S2048x2048 .bf16) (x1 : Vec F S8192x64 .f32) (xs0 : Vec F S2048x64 .f32) (y : S2048x64.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S2048x64.size (by sl_kernel_rfl) y

/-- What case C leaves in the accumulator. -/
def sout1_C_0 (c : Dev nD) (i : grid1.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond1_0 i) (hc1 : cond1_1 i)
    (x0 : Vec F S2048x2048 .bf16) (x1 : Vec F S8192x64 .f32) (xs0 : Vec F S2048x64 .f32) : Vec F S2048x64 .f32 :=
  VS1_0.read (Elt F) (VS1_0.writes (Elt F) VS1_0.junk (kernelRun1_C c i arg2 harg2 arg3 harg3 arg4 harg4 arg5 harg5 hc0 hc1 x0 x1 xs0).2.1)

/-! ## What the output block's buffer and the accumulator hold after each point -/

/-- After the body at position `n`: (the output block's buffer, the accumulator) — the case the position is in, run at the
    point's memrefs and input blocks over the accumulator the point before left. -/
def outsAt1 (c : Dev nD) : (n : ℕ) → n < cfg1.N → Vec F S2048x64 .f32 × Vec F S2048x64 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      if h1 : (n + 1) % 4 = 3 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 4 = 3 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the scoped rest at anything; afterwards the
    accumulator at what the point before left, and the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2)) ∗ ((∃ d, owns (c : Thread nD τ) scM1_0 fullShare d) -∗ (Pipeline.ΦA spec1 c : sProp 𝕄)))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2)) ∗ ((∃ d, owns (c : Thread nD τ) scM1_0 fullShare d) -∗ (Pipeline.ΦA spec1 c : sProp 𝕄))) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2)) ∗ ((∃ d, owns (c : Thread nD τ) scM1_0 fullShare d) -∗ (Pipeline.ΦA spec1 c : sProp 𝕄))) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the closed forms say which case the point is in; the
    invariant hands the body the accumulator at what the point before left (at anything at the first point) and takes it
    back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  by_cases h0 : t.val % 4 = 0
  · by_cases h1 : t.val % 4 = 3
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz]
        iintro ⟨HP, Ho, ⟨%d0, H0⟩, ⟨%d1, H1⟩, ⟨%d2, H2⟩⟩
        ihave HH := (PhiA1_split (F := F) c) $$ HP
        icases HH with ⟨HS0, Hg⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
      · rw [PhiS1_castSucc V c t, PhiS1_pos V c _ _ hz]
        iintro ⟨⟨HS0, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover1_A_0 c _ _ _ _ _ _ _ _ _ _ _ _ _)
          iexact Hg
        isplitl [Ho]; · iexact Ho
        isplitl [H0]; · iexact H0
        isplitl [H1]; · iexact H1
        iexists _; iexact H2
  · by_cases h1 : t.val % 4 = 3
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      by_cases hz : t.val = 0
      · exfalso; omega
      · rw [PhiS1_castSucc V c t, PhiS1_pos V c _ _ hz]
        iintro ⟨⟨HS0, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hg]
        · isplitl [HS0]
          · unfold owns; iexists _; isplitr
            swap; · iexact HS0
            ipureintro; exact View.read_writes_of_cover _ _ _ _ _ (scover1_C_0 c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨HS0, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover1_B_0 c _ _ _ _ _ _ _ _ _ _ _ _ _ _)
          iexact Hg
        isplitl [Ho]; · iexact Ho
        isplitl [H0]; · iexact H0
        isplitl [H1]; · iexact H1
        iexists _; iexact H2

theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped rest back: the accumulator's named contents are forgotten. -/
theorem hout1 (c : Dev nD) : (dat1 V c).Φ (Fin.last cfg1.N) ⊢ (Pipeline.ΦA spec1 c : sProp 𝕄) := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 16 := N_1; omega)]
  iintro ⟨HS0, Hg⟩
  iapply Hg
  iexists _; iexact HS0

end Cert.KernelIdeal.Fr

end
-- ==== Proof.IdealTheta2.lean ====
import proofs.«135368_j63153199120588_2_alg».proof.Proof.Gen.KernelIdeal.Launch
import proofs.«135368_j63153199120588_2_alg».proof.Proof.Gen.KernelIdeal.Skeleton
import proofs.«135368_j63153199120588_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: a product with Θᵀ accumulated over the contraction blocks

The grid is (i, k) ∈ 4 × 4, k fastest. At (i, k) the body zeroes the accumulator when k = 0, adds to it the product of the
point's 2048 × 2048 block of Θ with rows [2048 k, 2048 k + 2048) of the resident 8192 × 64 operand, and when k = 3 copies
the accumulator into the output block i. So the body has three cases (k = 0; k = 1, 2; k = 3), the accumulator is carried
from point to point, and the output block is untouched, and not written back, except at k = 3. -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions, in closed form over the grid -/

/-- `k = 0`: the accumulator is zeroed. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)
/-- `k = 3`: the accumulator is copied out. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem idleAt2_2_A : ∀ t : Fin cfg2.N, cond2_0 (grid2.coords t) → ¬cond2_1 (grid2.coords t) → cfg2.idle 2 (grid2.coords t) = true := by decide +kernel
theorem noFlush2_2_A : ∀ t : Fin cfg2.N, cond2_0 (grid2.coords t) → ¬cond2_1 (grid2.coords t) → (cfg2.win 2).flush t = false := by decide +kernel
theorem idleAt2_2_B : ∀ t : Fin cfg2.N, ¬cond2_0 (grid2.coords t) → ¬cond2_1 (grid2.coords t) → cfg2.idle 2 (grid2.coords t) = true := by decide +kernel
theorem noFlush2_2_B : ∀ t : Fin cfg2.N, ¬cond2_0 (grid2.coords t) → ¬cond2_1 (grid2.coords t) → (cfg2.win 2).flush t = false := by decide +kernel
theorem liveAt2_2_C : ∀ t : Fin cfg2.N, ¬cond2_0 (grid2.coords t) → cond2_1 (grid2.coords t) → cfg2.idle 2 (grid2.coords t) = false := by decide +kernel

/-! ## The memrefs the body is called with -/

abbrev VO2_2 : View sig .tc .vmem S2048x64 .f32 := (Memref.whole cc2_stg2_0 : Memref sig .tc .vmem S2048x64 .f32).view
abbrev ms2_0 (t : Fin cfg2.N) : Memref sig .tc .vmem S2048x2048 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8192x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x64 .f32 := win2_2.stage (cfg2.slots t 2)
abbrev hs2_2 (t : Fin cfg2.N) : (ms2_2 t).IsWhole := hstage2_2 ((cfg2.slots t 2).cast nbuf2_2)
/-- The accumulator: a whole scoped buffer of the kernel's own. -/
abbrev scM2_0 : Memref sig .tc .vmem S2048x64 .f32 := Memref.whole cc2_scratch0
abbrev VS2_0 : View sig .tc .vmem S2048x64 .f32 := scM2_0.view

/-- The scoped rest of this region holds the accumulator, at some contents, beside the other regions' scoped buffers: it can
    be taken out, and putting it back (at any contents) restores the scoped rest. -/
theorem PhiA2_split (c : Dev nD) :
    (Pipeline.ΦA spec2 c : sProp 𝕄)
      ⊢ iprop((∃ d, owns (c : Thread nD τ) scM2_0 fullShare d) ∗ ((∃ d, owns (c : Thread nD τ) scM2_0 fullShare d) -∗ Pipeline.ΦA spec2 c)) := by
  unfold Pipeline.ΦA; rw [scopedRest2_eq]; simp only [scM2_0, owns_whole]
  iintro ⟨⟨H0, H1, H2, H3, H4, H5, H6, H7, H8, H9, H10, H11, H12, H13, H14, H15, H16, H17, H18, H19, H20, H21, H22, H23⟩, Hg⟩
  isplitl [H11]; · iexact H11
  iintro HS
  isplitr [Hg]
  · (try dsimp only)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS]; · iexact HS
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iexact H23
  · iexact Hg

/-! ## The body, case by case -/

set_option maxHeartbeats 4000000 in
/-- The body on whole staging memrefs in case A of its two conditionals: the pieces its stores leave in the output block and in
    the accumulator, with the proof that it runs to a continuation holding the inputs as they were and those pieces written. -/
noncomputable def kernelRun2_A (c : Dev nD) (i : grid2.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : cond2_0 i) (hc1 : ¬cond2_1 i)
    (x0 : Vec F S2048x2048 .bf16) (x1 : Vec F S8192x64 .f32) :
    Σ' (L2 : List (View.Piece (Elt F) S2048x64 .f32)), { LS0 : List (View.Piece (Elt F) S2048x64 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2_kernel i arg2 harg2 arg3 harg3 arg4 harg4 arg5 harg5) K } := by
  refine ⟨[], ?_, fun xi2 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- The body on whole staging memrefs in case B of its two conditionals: the pieces its stores leave in the output block and in
    the accumulator, with the proof that it runs to a continuation holding the inputs as they were and those pieces written. -/
noncomputable def kernelRun2_B (c : Dev nD) (i : grid2.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond2_0 i) (hc1 : ¬cond2_1 i)
    (x0 : Vec F S2048x2048 .bf16) (x1 : Vec F S8192x64 .f32) (xs0 : Vec F S2048x64 .f32) :
    Σ' (L2 : List (View.Piece (Elt F) S2048x64 .f32)), { LS0 : List (View.Piece (Elt F) S2048x64 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2_kernel i arg2 harg2 arg3 harg3 arg4 harg4 arg5 harg5) K } := by
  refine ⟨[], ?_, fun xi2 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- The body on whole staging memrefs in case C of its two conditionals: the pieces its stores leave in the output block and in
    the accumulator, with the proof that it runs to a continuation holding the inputs as they were and those pieces written. -/
noncomputable def kernelRun2_C (c : Dev nD) (i : grid2.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond2_0 i) (hc1 : cond2_1 i)
    (x0 : Vec F S2048x2048 .bf16) (x1 : Vec F S8192x64 .f32) (xs0 : Vec F S2048x64 .f32) :
    Σ' (L2 : List (View.Piece (Elt F) S2048x64 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2_kernel i arg2 harg2 arg3 harg3 arg4 harg4 arg5 harg5) K } := by
  refine ⟨?_, ?_, fun E K => ?run⟩
  case run =>
    simp only [cc2_kernel_eq_skeleton]; unfold cc2_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS0

/-! ## What each case leaves -/

/-- What case A leaves in the output block's buffer, read back over junk (no store: a placeholder nothing consults, the window being idle there). -/
def out2_A_2 (c : Dev nD) (i : grid2.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : cond2_0 i) (hc1 : ¬cond2_1 i)
    (x0 : Vec F S2048x2048 .bf16) (x1 : Vec F S8192x64 .f32) : Vec F S2048x64 .f32 :=
  VO2_2.read (Elt F) (VO2_2.writes (Elt F) VO2_2.junk (kernelRun2_A c i arg2 harg2 arg3 harg3 arg4 harg4 arg5 harg5 hc0 hc1 x0 x1).1)

/-- Case A's stores into the accumulator cover it. -/
theorem scover2_A_0 (c : Dev nD) (i : grid2.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : cond2_0 i) (hc1 : ¬cond2_1 i)
    (x0 : Vec F S2048x2048 .bf16) (x1 : Vec F S8192x64 .f32) (y : S2048x64.Idx) :
    ∃ pc ∈ (kernelRun2_A c i arg2 harg2 arg3 harg3 arg4 harg4 arg5 harg5 hc0 hc1 x0 x1).2.1, y ∈ pc.1.set :=
  View.cover_of_tiledL (kernelRun2_A c i arg2 harg2 arg3 harg3 arg4 harg4 arg5 harg5 hc0 hc1 x0 x1).2.1 S2048x64.size (by sl_kernel_rfl) y

/-- What case A leaves in the accumulator. -/
def sout2_A_0 (c : Dev nD) (i : grid2.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : cond2_0 i) (hc1 : ¬cond2_1 i)
    (x0 : Vec F S2048x2048 .bf16) (x1 : Vec F S8192x64 .f32) : Vec F S2048x64 .f32 :=
  VS2_0.read (Elt F) (VS2_0.writes (Elt F) VS2_0.junk (kernelRun2_A c i arg2 harg2 arg3 harg3 arg4 harg4 arg5 harg5 hc0 hc1 x0 x1).2.1)

/-- What case B leaves in the output block's buffer, read back over junk (no store: a placeholder nothing consults, the window being idle there). -/
def out2_B_2 (c : Dev nD) (i : grid2.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond2_0 i) (hc1 : ¬cond2_1 i)
    (x0 : Vec F S2048x2048 .bf16) (x1 : Vec F S8192x64 .f32) (xs0 : Vec F S2048x64 .f32) : Vec F S2048x64 .f32 :=
  VO2_2.read (Elt F) (VO2_2.writes (Elt F) VO2_2.junk (kernelRun2_B c i arg2 harg2 arg3 harg3 arg4 harg4 arg5 harg5 hc0 hc1 x0 x1 xs0).1)

/-- Case B's stores into the accumulator cover it. -/
theorem scover2_B_0 (c : Dev nD) (i : grid2.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond2_0 i) (hc1 : ¬cond2_1 i)
    (x0 : Vec F S2048x2048 .bf16) (x1 : Vec F S8192x64 .f32) (xs0 : Vec F S2048x64 .f32) (y : S2048x64.Idx) :
    ∃ pc ∈ (kernelRun2_B c i arg2 harg2 arg3 harg3 arg4 harg4 arg5 harg5 hc0 hc1 x0 x1 xs0).2.1, y ∈ pc.1.set :=
  View.cover_of_tiledL (kernelRun2_B c i arg2 harg2 arg3 harg3 arg4 harg4 arg5 harg5 hc0 hc1 x0 x1 xs0).2.1 S2048x64.size (by sl_kernel_rfl) y

/-- What case B leaves in the accumulator. -/
def sout2_B_0 (c : Dev nD) (i : grid2.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond2_0 i) (hc1 : ¬cond2_1 i)
    (x0 : Vec F S2048x2048 .bf16) (x1 : Vec F S8192x64 .f32) (xs0 : Vec F S2048x64 .f32) : Vec F S2048x64 .f32 :=
  VS2_0.read (Elt F) (VS2_0.writes (Elt F) VS2_0.junk (kernelRun2_B c i arg2 harg2 arg3 harg3 arg4 harg4 arg5 harg5 hc0 hc1 x0 x1 xs0).2.1)

/-- What case C leaves in the output block's buffer, read back over junk. -/
def out2_C_2 (c : Dev nD) (i : grid2.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond2_0 i) (hc1 : cond2_1 i)
    (x0 : Vec F S2048x2048 .bf16) (x1 : Vec F S8192x64 .f32) (xs0 : Vec F S2048x64 .f32) : Vec F S2048x64 .f32 :=
  VO2_2.read (Elt F) (VO2_2.writes (Elt F) VO2_2.junk (kernelRun2_C c i arg2 harg2 arg3 harg3 arg4 harg4 arg5 harg5 hc0 hc1 x0 x1 xs0).1)

/-- Case C's one store tiles the output block. -/
theorem cover2_C_2 (c : Dev nD) (i : grid2.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond2_0 i) (hc1 : cond2_1 i)
    (x0 : Vec F S2048x2048 .bf16) (x1 : Vec F S8192x64 .f32) (xs0 : Vec F S2048x64 .f32) (y : S2048x64.Idx) :
    ∃ pc ∈ (kernelRun2_C c i arg2 harg2 arg3 harg3 arg4 harg4 arg5 harg5 hc0 hc1 x0 x1 xs0).1, y ∈ pc.1.set :=
  View.cover_of_tiledL (kernelRun2_C c i arg2 harg2 arg3 harg3 arg4 harg4 arg5 harg5 hc0 hc1 x0 x1 xs0).1 S2048x64.size (by sl_kernel_rfl) y

/-- Case C's stores into the accumulator cover it. -/
theorem scover2_C_0 (c : Dev nD) (i : grid2.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond2_0 i) (hc1 : cond2_1 i)
    (x0 : Vec F S2048x2048 .bf16) (x1 : Vec F S8192x64 .f32) (xs0 : Vec F S2048x64 .f32) (y : S2048x64.Idx) :
    ∃ pc ∈ (kernelRun2_C c i arg2 harg2 arg3 harg3 arg4 harg4 arg5 harg5 hc0 hc1 x0 x1 xs0).2.1, y ∈ pc.1.set :=
  View.cover_of_tiledL (kernelRun2_C c i arg2 harg2 arg3 harg3 arg4 harg4 arg5 harg5 hc0 hc1 x0 x1 xs0).2.1 S2048x64.size (by sl_kernel_rfl) y

/-- What case C leaves in the accumulator. -/
def sout2_C_0 (c : Dev nD) (i : grid2.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond2_0 i) (hc1 : cond2_1 i)
    (x0 : Vec F S2048x2048 .bf16) (x1 : Vec F S8192x64 .f32) (xs0 : Vec F S2048x64 .f32) : Vec F S2048x64 .f32 :=
  VS2_0.read (Elt F) (VS2_0.writes (Elt F) VS2_0.junk (kernelRun2_C c i arg2 harg2 arg3 harg3 arg4 harg4 arg5 harg5 hc0 hc1 x0 x1 xs0).2.1)

/-! ## What the output block's buffer and the accumulator hold after each point -/

/-- After the body at position `n`: (the output block's buffer, the accumulator) — the case the position is in, run at the
    point's memrefs and input blocks over the accumulator the point before left. -/
def outsAt2 (c : Dev nD) : (n : ℕ) → n < cfg2.N → Vec F S2048x64 .f32 × Vec F S2048x64 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 4 = 0 then
      if h1 : (n + 1) % 4 = 3 then
        False.elim (by omega)
      else
        (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 4 = 3 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

theorem outsAt2_A (c : Dev nD) (t : Fin cfg2.N) (h0 : t.val % 4 = 0) (h1 : ¬t.val % 4 = 3) :
    outsAt2 V c t.val t.isLt = (out2_A_2 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t), sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

theorem outsAt2_B (c : Dev nD) (t : Fin cfg2.N) (h0 : ¬t.val % 4 = 0) (h1 : ¬t.val % 4 = 3) :
    outsAt2 V c t.val t.isLt = (out2_B_2 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the scoped rest at anything; afterwards the
    accumulator at what the point before left, and the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2)) ∗ ((∃ d, owns (c : Thread nD τ) scM2_0 fullShare d) -∗ (Pipeline.ΦA spec2 c : sProp 𝕄)))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2)) ∗ ((∃ d, owns (c : Thread nD τ) scM2_0 fullShare d) -∗ (Pipeline.ΦA spec2 c : sProp 𝕄))) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2)) ∗ ((∃ d, owns (c : Thread nD τ) scM2_0 fullShare d) -∗ (Pipeline.ΦA spec2 c : sProp 𝕄))) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' memrefs hold their blocks; the closed forms say which case the point is in; the
    invariant hands the body the accumulator at what the point before left (at anything at the first point) and takes it
    back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  by_cases h0 : t.val % 4 = 0
  · by_cases h1 : t.val % 4 = 3
    · exfalso; omega
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [Dat.leavesExact_idle (dat2 V c) 2 t (idleAt2_2_A t ((hcond2_0 t).mpr h0) (fun h => h1 ((hcond2_1 t).mp h))) (noFlush2_2_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz]
        iintro ⟨HP, Ho, ⟨%d0, H0⟩, ⟨%d1, H1⟩, ⟨%d2, H2⟩⟩
        ihave HH := (PhiA2_split (F := F) c) $$ HP
        icases HH with ⟨HS0, Hg⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover2_A_0 c _ _ _ _ _ _ _ _ _ _ _ _ _)
          iexact Hg
        isplitl [Ho]; · iexact Ho
        isplitl [H0]; · iexact H0
        isplitl [H1]; · iexact H1
        iexists _; iexact H2
      · rw [PhiS2_castSucc V c t, PhiS2_pos V c _ _ hz]
        iintro ⟨⟨HS0, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover2_A_0 c _ _ _ _ _ _ _ _ _ _ _ _ _)
          iexact Hg
        isplitl [Ho]; · iexact Ho
        isplitl [H0]; · iexact H0
        isplitl [H1]; · iexact H1
        iexists _; iexact H2
  · by_cases h1 : t.val % 4 = 3
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2_C t (fun h => h0 ((hcond2_0 t).mp h)) ((hcond2_1 t).mpr h1)], after2_2]
      rw [outsAt2_C V c t h0 h1]
      unfold out2_C_2 sout2_C_0; (try dsimp only)
      by_cases hz : t.val = 0
      · exfalso; omega
      · rw [PhiS2_castSucc V c t, PhiS2_pos V c _ _ hz]
        iintro ⟨⟨HS0, Hg⟩, Ho, ⟨%d0, H0⟩, ⟨%d1, H1⟩, ⟨%d2, H2⟩⟩
        iapply ((kernelRun2_C c (grid2.coords t) _ _ _ _ _ _ _ _ (fun h => h0 ((hcond2_0 t).mp h)) ((hcond2_1 t).mpr h1) (iblk2 V c 0 t) (iblk2 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hg]
        · isplitl [HS0]
          · unfold owns; iexists _; isplitr
            swap; · iexact HS0
            ipureintro; exact View.read_writes_of_cover _ _ _ _ _ (scover2_C_0 c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover2_C_2 c _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [Dat.leavesExact_idle (dat2 V c) 2 t (idleAt2_2_B t (fun h => h0 ((hcond2_0 t).mp h)) (fun h => h1 ((hcond2_1 t).mp h))) (noFlush2_2_B t (fun h => h0 ((hcond2_0 t).mp h)) (fun h => h1 ((hcond2_1 t).mp h)))]
      rw [outsAt2_B V c t h0 h1]
      unfold sout2_B_0; (try dsimp only)
      by_cases hz : t.val = 0
      · exfalso; omega
      · rw [PhiS2_castSucc V c t, PhiS2_pos V c _ _ hz]
        iintro ⟨⟨HS0, Hg⟩, Ho, ⟨%d0, H0⟩, ⟨%d1, H1⟩, ⟨%d2, H2⟩⟩
        iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover2_B_0 c _ _ _ _ _ _ _ _ _ _ _ _ _ _)
          iexact Hg
        isplitl [Ho]; · iexact Ho
        isplitl [H0]; · iexact H0
        isplitl [H1]; · iexact H1
        iexists _; iexact H2

theorem body_obligation2 (c : Dev nD) : BodyObligation (dat2 (F := F) V c) (defs₀ (F := F)) Variants.none () Set.univ := fun t => by
  rw [bigSep_W2, bigSep_W2]
  exact sound_body2 V c t

/-- What the region is handed is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the scoped rest back: the accumulator's named contents are forgotten. -/
theorem hout2 (c : Dev nD) : (dat2 V c).Φ (Fin.last cfg2.N) ⊢ (Pipeline.ΦA spec2 c : sProp 𝕄) := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 16 := N_2; omega)]
  iintro ⟨HS0, Hg⟩
  iapply Hg
  iexists _; iexact HS0

end Cert.KernelIdeal.Fr

end
-- ==== Proof.IdealTheta3.lean ====
import proofs.«135368_j63153199120588_2_alg».proof.Proof.Gen.KernelIdeal.Launch
import proofs.«135368_j63153199120588_2_alg».proof.Proof.Gen.KernelIdeal.Skeleton
import proofs.«135368_j63153199120588_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3: a product with Θ accumulated over the contraction blocks

The grid is (i, k) ∈ 4 × 4, k fastest. At (i, k) the body zeroes the accumulator when k = 0, adds to it the product of the
point's 2048 × 2048 block of Θ with rows [2048 k, 2048 k + 2048) of the resident 8192 × 64 operand, and when k = 3 copies
the accumulator into the output block i. So the body has three cases (k = 0; k = 1, 2; k = 3), the accumulator is carried
from point to point, and the output block is untouched, and not written back, except at k = 3. -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's two conditions, in closed form over the grid -/

/-- `k = 0`: the accumulator is zeroed. -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 4 = 0 :=
  (by decide +kernel : ∀ t : Fin grid3.N, cond3_0 (grid3.coords t) ↔ t.val % 4 = 0)
/-- `k = 3`: the accumulator is copied out. -/
abbrev cond3_1 (i : grid3.Coords) : Prop := k3_cond2 i = 1#1
theorem hcond3_1 : ∀ t : Fin cfg3.N, cond3_1 (grid3.coords t) ↔ t.val % 4 = 3 :=
  (by decide +kernel : ∀ t : Fin grid3.N, cond3_1 (grid3.coords t) ↔ t.val % 4 = 3)

/-! ## Where the windows are idle -/

theorem liveAt3_0 : ∀ t : Fin cfg3.N, cfg3.idle 0 (grid3.coords t) = false := by decide +kernel
theorem liveAt3_1 : ∀ t : Fin cfg3.N, cfg3.idle 1 (grid3.coords t) = false := by decide +kernel
theorem idleAt3_2_A : ∀ t : Fin cfg3.N, cond3_0 (grid3.coords t) → ¬cond3_1 (grid3.coords t) → cfg3.idle 2 (grid3.coords t) = true := by decide +kernel
theorem noFlush3_2_A : ∀ t : Fin cfg3.N, cond3_0 (grid3.coords t) → ¬cond3_1 (grid3.coords t) → (cfg3.win 2).flush t = false := by decide +kernel
theorem idleAt3_2_B : ∀ t : Fin cfg3.N, ¬cond3_0 (grid3.coords t) → ¬cond3_1 (grid3.coords t) → cfg3.idle 2 (grid3.coords t) = true := by decide +kernel
theorem noFlush3_2_B : ∀ t : Fin cfg3.N, ¬cond3_0 (grid3.coords t) → ¬cond3_1 (grid3.coords t) → (cfg3.win 2).flush t = false := by decide +kernel
theorem liveAt3_2_C : ∀ t : Fin cfg3.N, ¬cond3_0 (grid3.coords t) → cond3_1 (grid3.coords t) → cfg3.idle 2 (grid3.coords t) = false := by decide +kernel

/-! ## The memrefs the body is called with -/

abbrev VO3_2 : View sig .tc .vmem S2048x64 .f32 := (Memref.whole cc3_stg2_0 : Memref sig .tc .vmem S2048x64 .f32).view
abbrev ms3_0 (t : Fin cfg3.N) : Memref sig .tc .vmem S2048x2048 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S8192x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2048x64 .f32 := win3_2.stage (cfg3.slots t 2)
abbrev hs3_2 (t : Fin cfg3.N) : (ms3_2 t).IsWhole := hstage3_2 ((cfg3.slots t 2).cast nbuf3_2)
/-- The accumulator: a whole scoped buffer of the kernel's own. -/
abbrev scM3_0 : Memref sig .tc .vmem S2048x64 .f32 := Memref.whole cc3_scratch0
abbrev VS3_0 : View sig .tc .vmem S2048x64 .f32 := scM3_0.view

/-- The scoped rest of this region holds the accumulator, at some contents, beside the other regions' scoped buffers: it can
    be taken out, and putting it back (at any contents) restores the scoped rest. -/
theorem PhiA3_split (c : Dev nD) :
    (Pipeline.ΦA spec3 c : sProp 𝕄)
      ⊢ iprop((∃ d, owns (c : Thread nD τ) scM3_0 fullShare d) ∗ ((∃ d, owns (c : Thread nD τ) scM3_0 fullShare d) -∗ Pipeline.ΦA spec3 c)) := by
  unfold Pipeline.ΦA; rw [scopedRest3_eq]; simp only [scM3_0, owns_whole]
  iintro ⟨⟨H0, H1, H2, H3, H4, H5, H6, H7, H8, H9, H10, H11, H12, H13, H14, H15, H16, H17, H18, H19, H20, H21, H22, H23⟩, Hg⟩
  isplitl [H17]; · iexact H17
  iintro HS
  isplitr [Hg]
  · (try dsimp only)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [HS]; · iexact HS
    isplitl [H18]; · iexact H18
    isplitl [H19]; · iexact H19
    isplitl [H20]; · iexact H20
    isplitl [H21]; · iexact H21
    isplitl [H22]; · iexact H22
    iexact H23
  · iexact Hg

/-! ## The body, case by case -/

set_option maxHeartbeats 4000000 in
/-- The body on whole staging memrefs in case A of its two conditionals: the pieces its stores leave in the output block and in
    the accumulator, with the proof that it runs to a continuation holding the inputs as they were and those pieces written. -/
noncomputable def kernelRun3_A (c : Dev nD) (i : grid3.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : cond3_0 i) (hc1 : ¬cond3_1 i)
    (x0 : Vec F S2048x2048 .bf16) (x1 : Vec F S8192x64 .f32) :
    Σ' (L2 : List (View.Piece (Elt F) S2048x64 .f32)), { LS0 : List (View.Piece (Elt F) S2048x64 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc3_kernel i arg2 harg2 arg3 harg3 arg4 harg4 arg5 harg5) K } := by
  refine ⟨[], ?_, fun xi2 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- The body on whole staging memrefs in case B of its two conditionals: the pieces its stores leave in the output block and in
    the accumulator, with the proof that it runs to a continuation holding the inputs as they were and those pieces written. -/
noncomputable def kernelRun3_B (c : Dev nD) (i : grid3.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond3_0 i) (hc1 : ¬cond3_1 i)
    (x0 : Vec F S2048x2048 .bf16) (x1 : Vec F S8192x64 .f32) (xs0 : Vec F S2048x64 .f32) :
    Σ' (L2 : List (View.Piece (Elt F) S2048x64 .f32)), { LS0 : List (View.Piece (Elt F) S2048x64 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc3_kernel i arg2 harg2 arg3 harg3 arg4 harg4 arg5 harg5) K } := by
  refine ⟨[], ?_, fun xi2 E K => ?run⟩
  case run =>
    simp only [cc3_kernel_eq_skeleton]; unfold cc3_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- The body on whole staging memrefs in case C of its two conditionals: the pieces its stores leave in the output block and in
    the accumulator, with the proof that it runs to a continuation holding the inputs as they were and those pieces written. -/
noncomputable def kernelRun3_C (c : Dev nD) (i : grid3.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond3_0 i) (hc1 : cond3_1 i)
    (x0 : Vec F S2048x2048 .bf16) (x1 : Vec F S8192x64 .f32) (xs0 : Vec F S2048x64 .f32) :
    Σ' (L2 : List (View.Piece (Elt F) S2048x64 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc3_kernel i arg2 harg2 arg3 harg3 arg4 harg4 arg5 harg5) K } := by
  refine ⟨?_, ?_, fun E K => ?run⟩
  case run =>
    simp only [cc3_kernel_eq_skeleton]; unfold cc3_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS0

/-! ## What each case leaves -/

/-- What case A leaves in the output block's buffer, read back over junk (no store: a placeholder nothing consults, the window being idle there). -/
def out3_A_2 (c : Dev nD) (i : grid3.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : cond3_0 i) (hc1 : ¬cond3_1 i)
    (x0 : Vec F S2048x2048 .bf16) (x1 : Vec F S8192x64 .f32) : Vec F S2048x64 .f32 :=
  VO3_2.read (Elt F) (VO3_2.writes (Elt F) VO3_2.junk (kernelRun3_A c i arg2 harg2 arg3 harg3 arg4 harg4 arg5 harg5 hc0 hc1 x0 x1).1)

/-- Case A's stores into the accumulator cover it. -/
theorem scover3_A_0 (c : Dev nD) (i : grid3.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : cond3_0 i) (hc1 : ¬cond3_1 i)
    (x0 : Vec F S2048x2048 .bf16) (x1 : Vec F S8192x64 .f32) (y : S2048x64.Idx) :
    ∃ pc ∈ (kernelRun3_A c i arg2 harg2 arg3 harg3 arg4 harg4 arg5 harg5 hc0 hc1 x0 x1).2.1, y ∈ pc.1.set :=
  View.cover_of_tiledL (kernelRun3_A c i arg2 harg2 arg3 harg3 arg4 harg4 arg5 harg5 hc0 hc1 x0 x1).2.1 S2048x64.size (by sl_kernel_rfl) y

/-- What case A leaves in the accumulator. -/
def sout3_A_0 (c : Dev nD) (i : grid3.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : cond3_0 i) (hc1 : ¬cond3_1 i)
    (x0 : Vec F S2048x2048 .bf16) (x1 : Vec F S8192x64 .f32) : Vec F S2048x64 .f32 :=
  VS3_0.read (Elt F) (VS3_0.writes (Elt F) VS3_0.junk (kernelRun3_A c i arg2 harg2 arg3 harg3 arg4 harg4 arg5 harg5 hc0 hc1 x0 x1).2.1)

/-- What case B leaves in the output block's buffer, read back over junk (no store: a placeholder nothing consults, the window being idle there). -/
def out3_B_2 (c : Dev nD) (i : grid3.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond3_0 i) (hc1 : ¬cond3_1 i)
    (x0 : Vec F S2048x2048 .bf16) (x1 : Vec F S8192x64 .f32) (xs0 : Vec F S2048x64 .f32) : Vec F S2048x64 .f32 :=
  VO3_2.read (Elt F) (VO3_2.writes (Elt F) VO3_2.junk (kernelRun3_B c i arg2 harg2 arg3 harg3 arg4 harg4 arg5 harg5 hc0 hc1 x0 x1 xs0).1)

/-- Case B's stores into the accumulator cover it. -/
theorem scover3_B_0 (c : Dev nD) (i : grid3.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond3_0 i) (hc1 : ¬cond3_1 i)
    (x0 : Vec F S2048x2048 .bf16) (x1 : Vec F S8192x64 .f32) (xs0 : Vec F S2048x64 .f32) (y : S2048x64.Idx) :
    ∃ pc ∈ (kernelRun3_B c i arg2 harg2 arg3 harg3 arg4 harg4 arg5 harg5 hc0 hc1 x0 x1 xs0).2.1, y ∈ pc.1.set :=
  View.cover_of_tiledL (kernelRun3_B c i arg2 harg2 arg3 harg3 arg4 harg4 arg5 harg5 hc0 hc1 x0 x1 xs0).2.1 S2048x64.size (by sl_kernel_rfl) y

/-- What case B leaves in the accumulator. -/
def sout3_B_0 (c : Dev nD) (i : grid3.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond3_0 i) (hc1 : ¬cond3_1 i)
    (x0 : Vec F S2048x2048 .bf16) (x1 : Vec F S8192x64 .f32) (xs0 : Vec F S2048x64 .f32) : Vec F S2048x64 .f32 :=
  VS3_0.read (Elt F) (VS3_0.writes (Elt F) VS3_0.junk (kernelRun3_B c i arg2 harg2 arg3 harg3 arg4 harg4 arg5 harg5 hc0 hc1 x0 x1 xs0).2.1)

/-- What case C leaves in the output block's buffer, read back over junk. -/
def out3_C_2 (c : Dev nD) (i : grid3.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond3_0 i) (hc1 : cond3_1 i)
    (x0 : Vec F S2048x2048 .bf16) (x1 : Vec F S8192x64 .f32) (xs0 : Vec F S2048x64 .f32) : Vec F S2048x64 .f32 :=
  VO3_2.read (Elt F) (VO3_2.writes (Elt F) VO3_2.junk (kernelRun3_C c i arg2 harg2 arg3 harg3 arg4 harg4 arg5 harg5 hc0 hc1 x0 x1 xs0).1)

/-- Case C's one store tiles the output block. -/
theorem cover3_C_2 (c : Dev nD) (i : grid3.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond3_0 i) (hc1 : cond3_1 i)
    (x0 : Vec F S2048x2048 .bf16) (x1 : Vec F S8192x64 .f32) (xs0 : Vec F S2048x64 .f32) (y : S2048x64.Idx) :
    ∃ pc ∈ (kernelRun3_C c i arg2 harg2 arg3 harg3 arg4 harg4 arg5 harg5 hc0 hc1 x0 x1 xs0).1, y ∈ pc.1.set :=
  View.cover_of_tiledL (kernelRun3_C c i arg2 harg2 arg3 harg3 arg4 harg4 arg5 harg5 hc0 hc1 x0 x1 xs0).1 S2048x64.size (by sl_kernel_rfl) y

/-- Case C's stores into the accumulator cover it. -/
theorem scover3_C_0 (c : Dev nD) (i : grid3.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond3_0 i) (hc1 : cond3_1 i)
    (x0 : Vec F S2048x2048 .bf16) (x1 : Vec F S8192x64 .f32) (xs0 : Vec F S2048x64 .f32) (y : S2048x64.Idx) :
    ∃ pc ∈ (kernelRun3_C c i arg2 harg2 arg3 harg3 arg4 harg4 arg5 harg5 hc0 hc1 x0 x1 xs0).2.1, y ∈ pc.1.set :=
  View.cover_of_tiledL (kernelRun3_C c i arg2 harg2 arg3 harg3 arg4 harg4 arg5 harg5 hc0 hc1 x0 x1 xs0).2.1 S2048x64.size (by sl_kernel_rfl) y

/-- What case C leaves in the accumulator. -/
def sout3_C_0 (c : Dev nD) (i : grid3.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond3_0 i) (hc1 : cond3_1 i)
    (x0 : Vec F S2048x2048 .bf16) (x1 : Vec F S8192x64 .f32) (xs0 : Vec F S2048x64 .f32) : Vec F S2048x64 .f32 :=
  VS3_0.read (Elt F) (VS3_0.writes (Elt F) VS3_0.junk (kernelRun3_C c i arg2 harg2 arg3 harg3 arg4 harg4 arg5 harg5 hc0 hc1 x0 x1 xs0).2.1)

/-! ## What the output block's buffer and the accumulator hold after each point -/

/-- After the body at position `n`: (the output block's buffer, the accumulator) — the case the position is in, run at the
    point's memrefs and input blocks over the accumulator the point before left. -/
def outsAt3 (c : Dev nD) : (n : ℕ) → n < cfg3.N → Vec F S2048x64 .f32 × Vec F S2048x64 .f32
  | 0, hn => (out3_A_2 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩))
  | n + 1, hn =>
    if h0 : (n + 1) % 4 = 0 then
      if h1 : (n + 1) % 4 = 3 then
        False.elim (by omega)
      else
        (out3_A_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩))
    else
      if h1 : (n + 1) % 4 = 3 then
        (out3_C_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (outsAt3 c n (Nat.lt_of_succ_lt hn)).2)
      else
        (out3_B_2 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (outsAt3 c n (Nat.lt_of_succ_lt hn)).2)

theorem outsAt3_A (c : Dev nD) (t : Fin cfg3.N) (h0 : t.val % 4 = 0) (h1 : ¬t.val % 4 = 3) :
    outsAt3 V c t.val t.isLt = (out3_A_2 c (grid3.coords t) (ms3_0 t) (hs3_0 t) (ms3_1 t) (hs3_1 t) (ms3_2 t) (hs3_2 t) scM3_0 (Memref.isWhole_whole _) ((hcond3_0 t).mpr h0) (fun h => h1 ((hcond3_1 t).mp h)) (iblk3 V c 0 t) (iblk3 V c 1 t), sout3_A_0 c (grid3.coords t) (ms3_0 t) (hs3_0 t) (ms3_1 t) (hs3_1 t) (ms3_2 t) (hs3_2 t) scM3_0 (Memref.isWhole_whole _) ((hcond3_0 t).mpr h0) (fun h => h1 ((hcond3_1 t).mp h)) (iblk3 V c 0 t) (iblk3 V c 1 t)) := by
  obtain ⟨n, hn⟩ := t
  cases n with
  | zero => exact rfl
  | succ n => exact (dif_pos h0).trans ((dif_neg h1).trans rfl)

theorem outsAt3_B (c : Dev nD) (t : Fin cfg3.N) (h0 : ¬t.val % 4 = 0) (h1 : ¬t.val % 4 = 3) :
    outsAt3 V c t.val t.isLt = (out3_B_2 c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) scM3_0 (Memref.isWhole_whole _) (fun h => h0 ((hcond3_0 t).mp h)) (fun h => h1 ((hcond3_1 t).mp h)) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt3_C (c : Dev nD) (t : Fin cfg3.N) (h0 : ¬t.val % 4 = 0) (h1 : t.val % 4 = 3) :
    outsAt3 V c t.val t.isLt = (out3_C_2 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) scM3_0 (Memref.isWhole_whole _) (fun h => h0 ((hcond3_0 t).mp h)) ((hcond3_1 t).mpr h1) (iblk3 V c 0 t) (iblk3 V c 1 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the scoped rest at anything; afterwards the
    accumulator at what the point before left, and the generator register at some state. -/
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2)) ∗ ((∃ d, owns (c : Thread nD τ) scM3_0 fullShare d) -∗ (Pipeline.ΦA spec3 c : sProp 𝕄)))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3_0 fullShare ((outsAt3 V c n hn).2)) ∗ ((∃ d, owns (c : Thread nD τ) scM3_0 fullShare d) -∗ (Pipeline.ΦA spec3 c : sProp 𝕄))) := rfl

theorem PhiS3_pos (c : Dev nD) (n : ℕ) (h : n ≤ cfg3.N) (hz : n ≠ 0) :
    PhiS3 V c n h = iprop(iprop(owns (c : Thread nD τ) scM3_0 fullShare ((outsAt3 V c (n - 1) (by omega)).2)) ∗ ((∃ d, owns (c : Thread nD τ) scM3_0 fullShare d) -∗ (Pipeline.ΦA spec3 c : sProp 𝕄))) := by
  cases n with
  | zero => exact absurd rfl hz
  | succ n => rfl

/-! ## The proof data -/

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point: the inputs' memrefs hold their blocks; the closed forms say which case the point is in; the
    invariant hands the body the accumulator at what the point before left (at anything at the first point) and takes it
    back at this point's contents; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hN : t.val < 16 := lt_of_lt_of_eq t.isLt (show cfg3.N = 16 from N_3)
  by_cases h0 : t.val % 4 = 0
  · by_cases h1 : t.val % 4 = 3
    · exfalso; omega
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [Dat.leavesExact_idle (dat3 V c) 2 t (idleAt3_2_A t ((hcond3_0 t).mpr h0) (fun h => h1 ((hcond3_1 t).mp h))) (noFlush3_2_A t ((hcond3_0 t).mpr h0) (fun h => h1 ((hcond3_1 t).mp h)))]
      rw [outsAt3_A V c t h0 h1]
      unfold sout3_A_0; (try dsimp only)
      by_cases hz : t.val = 0
      · rw [PhiS3_castSucc V c t, PhiS3_zero V c _ _ hz]
        iintro ⟨HP, Ho, ⟨%d0, H0⟩, ⟨%d1, H1⟩, ⟨%d2, H2⟩⟩
        ihave HH := (PhiA3_split (F := F) c) $$ HP
        icases HH with ⟨HS0, Hg⟩
        iapply ((kernelRun3_A c (grid3.coords t) _ _ _ _ _ _ _ _ ((hcond3_0 t).mpr h0) (fun h => h1 ((hcond3_1 t).mp h)) (iblk3 V c 0 t) (iblk3 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover3_A_0 c _ _ _ _ _ _ _ _ _ _ _ _ _)
          iexact Hg
        isplitl [Ho]; · iexact Ho
        isplitl [H0]; · iexact H0
        isplitl [H1]; · iexact H1
        iexists _; iexact H2
      · rw [PhiS3_castSucc V c t, PhiS3_pos V c _ _ hz]
        iintro ⟨⟨HS0, Hg⟩, Ho, ⟨%d0, H0⟩, ⟨%d1, H1⟩, ⟨%d2, H2⟩⟩
        iapply ((kernelRun3_A c (grid3.coords t) _ _ _ _ _ _ _ _ ((hcond3_0 t).mpr h0) (fun h => h1 ((hcond3_1 t).mp h)) (iblk3 V c 0 t) (iblk3 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover3_A_0 c _ _ _ _ _ _ _ _ _ _ _ _ _)
          iexact Hg
        isplitl [Ho]; · iexact Ho
        isplitl [H0]; · iexact H0
        isplitl [H1]; · iexact H1
        iexists _; iexact H2
  · by_cases h1 : t.val % 4 = 3
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2_C t (fun h => h0 ((hcond3_0 t).mp h)) ((hcond3_1 t).mpr h1)], after3_2]
      rw [outsAt3_C V c t h0 h1]
      unfold out3_C_2 sout3_C_0; (try dsimp only)
      by_cases hz : t.val = 0
      · exfalso; omega
      · rw [PhiS3_castSucc V c t, PhiS3_pos V c _ _ hz]
        iintro ⟨⟨HS0, Hg⟩, Ho, ⟨%d0, H0⟩, ⟨%d1, H1⟩, ⟨%d2, H2⟩⟩
        iapply ((kernelRun3_C c (grid3.coords t) _ _ _ _ _ _ _ _ (fun h => h0 ((hcond3_0 t).mp h)) ((hcond3_1 t).mpr h1) (iblk3 V c 0 t) (iblk3 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hg]
        · isplitl [HS0]
          · unfold owns; iexists _; isplitr
            swap; · iexact HS0
            ipureintro; exact View.read_writes_of_cover _ _ _ _ _ (scover3_C_0 c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover3_C_2 c _ _ _ _ _ _ _ _ _ _ _ _ _ _)
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [Dat.leavesExact_idle (dat3 V c) 2 t (idleAt3_2_B t (fun h => h0 ((hcond3_0 t).mp h)) (fun h => h1 ((hcond3_1 t).mp h))) (noFlush3_2_B t (fun h => h0 ((hcond3_0 t).mp h)) (fun h => h1 ((hcond3_1 t).mp h)))]
      rw [outsAt3_B V c t h0 h1]
      unfold sout3_B_0; (try dsimp only)
      by_cases hz : t.val = 0
      · exfalso; omega
      · rw [PhiS3_castSucc V c t, PhiS3_pos V c _ _ hz]
        iintro ⟨⟨HS0, Hg⟩, Ho, ⟨%d0, H0⟩, ⟨%d1, H1⟩, ⟨%d2, H2⟩⟩
        iapply ((kernelRun3_B c (grid3.coords t) _ _ _ _ _ _ _ _ (fun h => h0 ((hcond3_0 t).mp h)) (fun h => h1 ((hcond3_1 t).mp h)) (iblk3 V c 0 t) (iblk3 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover3_B_0 c _ _ _ _ _ _ _ _ _ _ _ _ _ _)
          iexact Hg
        isplitl [Ho]; · iexact Ho
        isplitl [H0]; · iexact H0
        isplitl [H1]; · iexact H1
        iexists _; iexact H2

theorem body_obligation3 (c : Dev nD) : BodyObligation (dat3 (F := F) V c) (defs₀ (F := F)) Variants.none () Set.univ := fun t => by
  rw [bigSep_W3, bigSep_W3]
  exact sound_body3 V c t

/-- What the region is handed is the invariant before the first point. -/
theorem hin3 (c : Dev nD) : (Pipeline.ΦA spec3 c : sProp 𝕄) ⊢ (dat3 V c).Φ 0 := by
  rw [show (dat3 V c).Φ 0 = PhiS3 V c 0 (Nat.zero_le _) from rfl, PhiS3_zero V c 0 _ rfl]
  try exact Idealize.SL.BI.Entails.refl _

/-- After the last point the invariant gives the scoped rest back: the accumulator's named contents are forgotten. -/
theorem hout3 (c : Dev nD) : (dat3 V c).Φ (Fin.last cfg3.N) ⊢ (Pipeline.ΦA spec3 c : sProp 𝕄) := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 16 := N_3; omega)]
  iintro ⟨HS0, Hg⟩
  iapply Hg
  iexists _; iexact HS0

end Cert.KernelIdeal.Fr

end
-- ==== Proof.IdealTheta4.lean ====
import proofs.«135368_j63153199120588_2_alg».proof.Proof.Gen.KernelIdeal.Launch
import proofs.«135368_j63153199120588_2_alg».proof.Proof.Gen.KernelIdeal.Skeleton
import proofs.«135368_j63153199120588_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 4: a product with Θ accumulated over the contraction blocks

The grid is (i, k) ∈ 4 × 4, k fastest. At (i, k) the body zeroes the accumulator when k = 0, adds to it the product of the
point's 2048 × 2048 block of Θ with rows [2048 k, 2048 k + 2048) of the resident 8192 × 64 operand, and when k = 3 copies
the accumulator into the output block i. So the body has three cases (k = 0; k = 1, 2; k = 3), the accumulator is carried
from point to point, and the output block is untouched, and not written back, except at k = 3. -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's two conditions, in closed form over the grid -/

/-- `k = 0`: the accumulator is zeroed. -/
abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 4 = 0 :=
  (by decide +kernel : ∀ t : Fin grid4.N, cond4_0 (grid4.coords t) ↔ t.val % 4 = 0)
/-- `k = 3`: the accumulator is copied out. -/
abbrev cond4_1 (i : grid4.Coords) : Prop := k4_cond2 i = 1#1
theorem hcond4_1 : ∀ t : Fin cfg4.N, cond4_1 (grid4.coords t) ↔ t.val % 4 = 3 :=
  (by decide +kernel : ∀ t : Fin grid4.N, cond4_1 (grid4.coords t) ↔ t.val % 4 = 3)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem idleAt4_2_A : ∀ t : Fin cfg4.N, cond4_0 (grid4.coords t) → ¬cond4_1 (grid4.coords t) → cfg4.idle 2 (grid4.coords t) = true := by decide +kernel
theorem noFlush4_2_A : ∀ t : Fin cfg4.N, cond4_0 (grid4.coords t) → ¬cond4_1 (grid4.coords t) → (cfg4.win 2).flush t = false := by decide +kernel
theorem idleAt4_2_B : ∀ t : Fin cfg4.N, ¬cond4_0 (grid4.coords t) → ¬cond4_1 (grid4.coords t) → cfg4.idle 2 (grid4.coords t) = true := by decide +kernel
theorem noFlush4_2_B : ∀ t : Fin cfg4.N, ¬cond4_0 (grid4.coords t) → ¬cond4_1 (grid4.coords t) → (cfg4.win 2).flush t = false := by decide +kernel
theorem liveAt4_2_C : ∀ t : Fin cfg4.N, ¬cond4_0 (grid4.coords t) → cond4_1 (grid4.coords t) → cfg4.idle 2 (grid4.coords t) = false := by decide +kernel

/-! ## The memrefs the body is called with -/

abbrev VO4_2 : View sig .tc .vmem S2048x64 .f32 := (Memref.whole cc4_stg2_0 : Memref sig .tc .vmem S2048x64 .f32).view
abbrev ms4_0 (t : Fin cfg4.N) : Memref sig .tc .vmem S2048x2048 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S8192x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2048x64 .f32 := win4_2.stage (cfg4.slots t 2)
abbrev hs4_2 (t : Fin cfg4.N) : (ms4_2 t).IsWhole := hstage4_2 ((cfg4.slots t 2).cast nbuf4_2)
/-- The accumulator: a whole scoped buffer of the kernel's own. -/
abbrev scM4_0 : Memref sig .tc .vmem S2048x64 .f32 := Memref.whole cc4_scratch0
abbrev VS4_0 : View sig .tc .vmem S2048x64 .f32 := scM4_0.view

/-- The scoped rest of this region holds the accumulator, at some contents, beside the other regions' scoped buffers: it can
    be taken out, and putting it back (at any contents) restores the scoped rest. -/
theorem PhiA4_split (c : Dev nD) :
    (Pipeline.ΦA spec4 c : sProp 𝕄)
      ⊢ iprop((∃ d, owns (c : Thread nD τ) scM4_0 fullShare d) ∗ ((∃ d, owns (c : Thread nD τ) scM4_0 fullShare d) -∗ Pipeline.ΦA spec4 c)) := by
  unfold Pipeline.ΦA; rw [scopedRest4_eq]; simp only [scM4_0, owns_whole]
  iintro ⟨⟨H0, H1, H2, H3, H4, H5, H6, H7, H8, H9, H10, H11, H12, H13, H14, H15, H16, H17, H18, H19, H20, H21, H22, H23⟩, Hg⟩
  isplitl [H23]; · iexact H23
  iintro HS
  isplitr [Hg]
  · (try dsimp only)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    iexact HS
  · iexact Hg

/-! ## The body, case by case -/

set_option maxHeartbeats 4000000 in
/-- The body on whole staging memrefs in case A of its two conditionals: the pieces its stores leave in the output block and in
    the accumulator, with the proof that it runs to a continuation holding the inputs as they were and those pieces written. -/
noncomputable def kernelRun4_A (c : Dev nD) (i : grid4.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : cond4_0 i) (hc1 : ¬cond4_1 i)
    (x0 : Vec F S2048x2048 .bf16) (x1 : Vec F S8192x64 .f32) :
    Σ' (L2 : List (View.Piece (Elt F) S2048x64 .f32)), { LS0 : List (View.Piece (Elt F) S2048x64 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc4_kernel i arg2 harg2 arg3 harg3 arg4 harg4 arg5 harg5) K } := by
  refine ⟨[], ?_, fun xi2 E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- The body on whole staging memrefs in case B of its two conditionals: the pieces its stores leave in the output block and in
    the accumulator, with the proof that it runs to a continuation holding the inputs as they were and those pieces written. -/
noncomputable def kernelRun4_B (c : Dev nD) (i : grid4.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond4_0 i) (hc1 : ¬cond4_1 i)
    (x0 : Vec F S2048x2048 .bf16) (x1 : Vec F S8192x64 .f32) (xs0 : Vec F S2048x64 .f32) :
    Σ' (L2 : List (View.Piece (Elt F) S2048x64 .f32)), { LS0 : List (View.Piece (Elt F) S2048x64 .f32) //
      ∀ (xi2 : Vec F S2048x64 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc4_kernel i arg2 harg2 arg3 harg3 arg4 harg4 arg5 harg5) K } := by
  refine ⟨[], ?_, fun xi2 E K => ?run⟩
  case run =>
    simp only [cc4_kernel_eq_skeleton]; unfold cc4_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 4000000 in
/-- The body on whole staging memrefs in case C of its two conditionals: the pieces its stores leave in the output block and in
    the accumulator, with the proof that it runs to a continuation holding the inputs as they were and those pieces written. -/
noncomputable def kernelRun4_C (c : Dev nD) (i : grid4.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond4_0 i) (hc1 : cond4_1 i)
    (x0 : Vec F S2048x2048 .bf16) (x1 : Vec F S8192x64 .f32) (xs0 : Vec F S2048x64 .f32) :
    Σ' (L2 : List (View.Piece (Elt F) S2048x64 .f32)), { LS0 : List (View.Piece (Elt F) S2048x64 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc4_kernel i arg2 harg2 arg3 harg3 arg4 harg4 arg5 harg5) K } := by
  refine ⟨?_, ?_, fun E K => ?run⟩
  case run =>
    simp only [cc4_kernel_eq_skeleton]; unfold cc4_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS0

/-! ## What each case leaves -/

/-- What case A leaves in the output block's buffer, read back over junk (no store: a placeholder nothing consults, the window being idle there). -/
def out4_A_2 (c : Dev nD) (i : grid4.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : cond4_0 i) (hc1 : ¬cond4_1 i)
    (x0 : Vec F S2048x2048 .bf16) (x1 : Vec F S8192x64 .f32) : Vec F S2048x64 .f32 :=
  VO4_2.read (Elt F) (VO4_2.writes (Elt F) VO4_2.junk (kernelRun4_A c i arg2 harg2 arg3 harg3 arg4 harg4 arg5 harg5 hc0 hc1 x0 x1).1)

/-- Case A's stores into the accumulator cover it. -/
theorem scover4_A_0 (c : Dev nD) (i : grid4.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : cond4_0 i) (hc1 : ¬cond4_1 i)
    (x0 : Vec F S2048x2048 .bf16) (x1 : Vec F S8192x64 .f32) (y : S2048x64.Idx) :
    ∃ pc ∈ (kernelRun4_A c i arg2 harg2 arg3 harg3 arg4 harg4 arg5 harg5 hc0 hc1 x0 x1).2.1, y ∈ pc.1.set :=
  View.cover_of_tiledL (kernelRun4_A c i arg2 harg2 arg3 harg3 arg4 harg4 arg5 harg5 hc0 hc1 x0 x1).2.1 S2048x64.size (by sl_kernel_rfl) y

/-- What case A leaves in the accumulator. -/
def sout4_A_0 (c : Dev nD) (i : grid4.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : cond4_0 i) (hc1 : ¬cond4_1 i)
    (x0 : Vec F S2048x2048 .bf16) (x1 : Vec F S8192x64 .f32) : Vec F S2048x64 .f32 :=
  VS4_0.read (Elt F) (VS4_0.writes (Elt F) VS4_0.junk (kernelRun4_A c i arg2 harg2 arg3 harg3 arg4 harg4 arg5 harg5 hc0 hc1 x0 x1).2.1)

/-- What case B leaves in the output block's buffer, read back over junk (no store: a placeholder nothing consults, the window being idle there). -/
def out4_B_2 (c : Dev nD) (i : grid4.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond4_0 i) (hc1 : ¬cond4_1 i)
    (x0 : Vec F S2048x2048 .bf16) (x1 : Vec F S8192x64 .f32) (xs0 : Vec F S2048x64 .f32) : Vec F S2048x64 .f32 :=
  VO4_2.read (Elt F) (VO4_2.writes (Elt F) VO4_2.junk (kernelRun4_B c i arg2 harg2 arg3 harg3 arg4 harg4 arg5 harg5 hc0 hc1 x0 x1 xs0).1)

/-- Case B's stores into the accumulator cover it. -/
theorem scover4_B_0 (c : Dev nD) (i : grid4.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond4_0 i) (hc1 : ¬cond4_1 i)
    (x0 : Vec F S2048x2048 .bf16) (x1 : Vec F S8192x64 .f32) (xs0 : Vec F S2048x64 .f32) (y : S2048x64.Idx) :
    ∃ pc ∈ (kernelRun4_B c i arg2 harg2 arg3 harg3 arg4 harg4 arg5 harg5 hc0 hc1 x0 x1 xs0).2.1, y ∈ pc.1.set :=
  View.cover_of_tiledL (kernelRun4_B c i arg2 harg2 arg3 harg3 arg4 harg4 arg5 harg5 hc0 hc1 x0 x1 xs0).2.1 S2048x64.size (by sl_kernel_rfl) y

/-- What case B leaves in the accumulator. -/
def sout4_B_0 (c : Dev nD) (i : grid4.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond4_0 i) (hc1 : ¬cond4_1 i)
    (x0 : Vec F S2048x2048 .bf16) (x1 : Vec F S8192x64 .f32) (xs0 : Vec F S2048x64 .f32) : Vec F S2048x64 .f32 :=
  VS4_0.read (Elt F) (VS4_0.writes (Elt F) VS4_0.junk (kernelRun4_B c i arg2 harg2 arg3 harg3 arg4 harg4 arg5 harg5 hc0 hc1 x0 x1 xs0).2.1)

/-- What case C leaves in the output block's buffer, read back over junk. -/
def out4_C_2 (c : Dev nD) (i : grid4.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond4_0 i) (hc1 : cond4_1 i)
    (x0 : Vec F S2048x2048 .bf16) (x1 : Vec F S8192x64 .f32) (xs0 : Vec F S2048x64 .f32) : Vec F S2048x64 .f32 :=
  VO4_2.read (Elt F) (VO4_2.writes (Elt F) VO4_2.junk (kernelRun4_C c i arg2 harg2 arg3 harg3 arg4 harg4 arg5 harg5 hc0 hc1 x0 x1 xs0).1)

/-- Case C's one store tiles the output block. -/
theorem cover4_C_2 (c : Dev nD) (i : grid4.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond4_0 i) (hc1 : cond4_1 i)
    (x0 : Vec F S2048x2048 .bf16) (x1 : Vec F S8192x64 .f32) (xs0 : Vec F S2048x64 .f32) (y : S2048x64.Idx) :
    ∃ pc ∈ (kernelRun4_C c i arg2 harg2 arg3 harg3 arg4 harg4 arg5 harg5 hc0 hc1 x0 x1 xs0).1, y ∈ pc.1.set :=
  View.cover_of_tiledL (kernelRun4_C c i arg2 harg2 arg3 harg3 arg4 harg4 arg5 harg5 hc0 hc1 x0 x1 xs0).1 S2048x64.size (by sl_kernel_rfl) y

/-- Case C's stores into the accumulator cover it. -/
theorem scover4_C_0 (c : Dev nD) (i : grid4.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond4_0 i) (hc1 : cond4_1 i)
    (x0 : Vec F S2048x2048 .bf16) (x1 : Vec F S8192x64 .f32) (xs0 : Vec F S2048x64 .f32) (y : S2048x64.Idx) :
    ∃ pc ∈ (kernelRun4_C c i arg2 harg2 arg3 harg3 arg4 harg4 arg5 harg5 hc0 hc1 x0 x1 xs0).2.1, y ∈ pc.1.set :=
  View.cover_of_tiledL (kernelRun4_C c i arg2 harg2 arg3 harg3 arg4 harg4 arg5 harg5 hc0 hc1 x0 x1 xs0).2.1 S2048x64.size (by sl_kernel_rfl) y

/-- What case C leaves in the accumulator. -/
def sout4_C_0 (c : Dev nD) (i : grid4.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond4_0 i) (hc1 : cond4_1 i)
    (x0 : Vec F S2048x2048 .bf16) (x1 : Vec F S8192x64 .f32) (xs0 : Vec F S2048x64 .f32) : Vec F S2048x64 .f32 :=
  VS4_0.read (Elt F) (VS4_0.writes (Elt F) VS4_0.junk (kernelRun4_C c i arg2 harg2 arg3 harg3 arg4 harg4 arg5 harg5 hc0 hc1 x0 x1 xs0).2.1)

/-! ## What the output block's buffer and the accumulator hold after each point -/

/-- After the body at position `n`: (the output block's buffer, the accumulator) — the case the position is in, run at the
    point's memrefs and input blocks over the accumulator the point before left. -/
def outsAt4 (c : Dev nD) : (n : ℕ) → n < cfg4.N → Vec F S2048x64 .f32 × Vec F S2048x64 .f32
  | 0, hn => (out4_A_2 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩))
  | n + 1, hn =>
    if h0 : (n + 1) % 4 = 0 then
      if h1 : (n + 1) % 4 = 3 then
        False.elim (by omega)
      else
        (out4_A_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩))
    else
      if h1 : (n + 1) % 4 = 3 then
        (out4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2)
      else
        (out4_B_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2)

theorem outsAt4_A (c : Dev nD) (t : Fin cfg4.N) (h0 : t.val % 4 = 0) (h1 : ¬t.val % 4 = 3) :
    outsAt4 V c t.val t.isLt = (out4_A_2 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t), sout4_A_0 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t)) := by
  obtain ⟨n, hn⟩ := t
  cases n with
  | zero => exact rfl
  | succ n => exact (dif_pos h0).trans ((dif_neg h1).trans rfl)

theorem outsAt4_B (c : Dev nD) (t : Fin cfg4.N) (h0 : ¬t.val % 4 = 0) (h1 : ¬t.val % 4 = 3) :
    outsAt4 V c t.val t.isLt = (out4_B_2 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt4_C (c : Dev nD) (t : Fin cfg4.N) (h0 : ¬t.val % 4 = 0) (h1 : t.val % 4 = 3) :
    outsAt4 V c t.val t.isLt = (out4_C_2 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the scoped rest at anything; afterwards the
    accumulator at what the point before left, and the generator register at some state. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2)) ∗ ((∃ d, owns (c : Thread nD τ) scM4_0 fullShare d) -∗ (Pipeline.ΦA spec4 c : sProp 𝕄)))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4_0 fullShare ((outsAt4 V c n hn).2)) ∗ ((∃ d, owns (c : Thread nD τ) scM4_0 fullShare d) -∗ (Pipeline.ΦA spec4 c : sProp 𝕄))) := rfl

theorem PhiS4_pos (c : Dev nD) (n : ℕ) (h : n ≤ cfg4.N) (hz : n ≠ 0) :
    PhiS4 V c n h = iprop(iprop(owns (c : Thread nD τ) scM4_0 fullShare ((outsAt4 V c (n - 1) (by omega)).2)) ∗ ((∃ d, owns (c : Thread nD τ) scM4_0 fullShare d) -∗ (Pipeline.ΦA spec4 c : sProp 𝕄))) := by
  cases n with
  | zero => exact absurd rfl hz
  | succ n => rfl

/-! ## The proof data -/

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point: the inputs' memrefs hold their blocks; the closed forms say which case the point is in; the
    invariant hands the body the accumulator at what the point before left (at anything at the first point) and takes it
    back at this point's contents; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 16 := lt_of_lt_of_eq t.isLt (show cfg4.N = 16 from N_4)
  by_cases h0 : t.val % 4 = 0
  · by_cases h1 : t.val % 4 = 3
    · exfalso; omega
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [Dat.leavesExact_idle (dat4 V c) 2 t (idleAt4_2_A t ((hcond4_0 t).mpr h0) (fun h => h1 ((hcond4_1 t).mp h))) (noFlush4_2_A t ((hcond4_0 t).mpr h0) (fun h => h1 ((hcond4_1 t).mp h)))]
      rw [outsAt4_A V c t h0 h1]
      unfold sout4_A_0; (try dsimp only)
      by_cases hz : t.val = 0
      · rw [PhiS4_castSucc V c t, PhiS4_zero V c _ _ hz]
        iintro ⟨HP, Ho, ⟨%d0, H0⟩, ⟨%d1, H1⟩, ⟨%d2, H2⟩⟩
        ihave HH := (PhiA4_split (F := F) c) $$ HP
        icases HH with ⟨HS0, Hg⟩
        iapply ((kernelRun4_A c (grid4.coords t) _ _ _ _ _ _ _ _ ((hcond4_0 t).mpr h0) (fun h => h1 ((hcond4_1 t).mp h)) (iblk4 V c 0 t) (iblk4 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover4_A_0 c _ _ _ _ _ _ _ _ _ _ _ _ _)
          iexact Hg
        isplitl [Ho]; · iexact Ho
        isplitl [H0]; · iexact H0
        isplitl [H1]; · iexact H1
        iexists _; iexact H2
      · rw [PhiS4_castSucc V c t, PhiS4_pos V c _ _ hz]
        iintro ⟨⟨HS0, Hg⟩, Ho, ⟨%d0, H0⟩, ⟨%d1, H1⟩, ⟨%d2, H2⟩⟩
        iapply ((kernelRun4_A c (grid4.coords t) _ _ _ _ _ _ _ _ ((hcond4_0 t).mpr h0) (fun h => h1 ((hcond4_1 t).mp h)) (iblk4 V c 0 t) (iblk4 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover4_A_0 c _ _ _ _ _ _ _ _ _ _ _ _ _)
          iexact Hg
        isplitl [Ho]; · iexact Ho
        isplitl [H0]; · iexact H0
        isplitl [H1]; · iexact H1
        iexists _; iexact H2
  · by_cases h1 : t.val % 4 = 3
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2_C t (fun h => h0 ((hcond4_0 t).mp h)) ((hcond4_1 t).mpr h1)], after4_2]
      rw [outsAt4_C V c t h0 h1]
      unfold out4_C_2 sout4_C_0; (try dsimp only)
      by_cases hz : t.val = 0
      · exfalso; omega
      · rw [PhiS4_castSucc V c t, PhiS4_pos V c _ _ hz]
        iintro ⟨⟨HS0, Hg⟩, Ho, ⟨%d0, H0⟩, ⟨%d1, H1⟩, ⟨%d2, H2⟩⟩
        iapply ((kernelRun4_C c (grid4.coords t) _ _ _ _ _ _ _ _ (fun h => h0 ((hcond4_0 t).mp h)) ((hcond4_1 t).mpr h1) (iblk4 V c 0 t) (iblk4 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hg]
        · isplitl [HS0]
          · unfold owns; iexists _; isplitr
            swap; · iexact HS0
            ipureintro; exact View.read_writes_of_cover _ _ _ _ _ (scover4_C_0 c _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover4_C_2 c _ _ _ _ _ _ _ _ _ _ _ _ _ _)
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [Dat.leavesExact_idle (dat4 V c) 2 t (idleAt4_2_B t (fun h => h0 ((hcond4_0 t).mp h)) (fun h => h1 ((hcond4_1 t).mp h))) (noFlush4_2_B t (fun h => h0 ((hcond4_0 t).mp h)) (fun h => h1 ((hcond4_1 t).mp h)))]
      rw [outsAt4_B V c t h0 h1]
      unfold sout4_B_0; (try dsimp only)
      by_cases hz : t.val = 0
      · exfalso; omega
      · rw [PhiS4_castSucc V c t, PhiS4_pos V c _ _ hz]
        iintro ⟨⟨HS0, Hg⟩, Ho, ⟨%d0, H0⟩, ⟨%d1, H1⟩, ⟨%d2, H2⟩⟩
        iapply ((kernelRun4_B c (grid4.coords t) _ _ _ _ _ _ _ _ (fun h => h0 ((hcond4_0 t).mp h)) (fun h => h1 ((hcond4_1 t).mp h)) (iblk4 V c 0 t) (iblk4 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover4_B_0 c _ _ _ _ _ _ _ _ _ _ _ _ _ _)
          iexact Hg
        isplitl [Ho]; · iexact Ho
        isplitl [H0]; · iexact H0
        isplitl [H1]; · iexact H1
        iexists _; iexact H2

theorem body_obligation4 (c : Dev nD) : BodyObligation (dat4 (F := F) V c) (defs₀ (F := F)) Variants.none () Set.univ := fun t => by
  rw [bigSep_W4, bigSep_W4]
  exact sound_body4 V c t

/-- What the region is handed is the invariant before the first point. -/
theorem hin4 (c : Dev nD) : (Pipeline.ΦA spec4 c : sProp 𝕄) ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the scoped rest back: the accumulator's named contents are forgotten. -/
theorem hout4 (c : Dev nD) : (dat4 V c).Φ (Fin.last cfg4.N) ⊢ (Pipeline.ΦA spec4 c : sProp 𝕄) := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 16 := N_4; omega)]
  iintro ⟨HS0, Hg⟩
  iapply Hg
  iexists _; iexact HS0

end Cert.KernelIdeal.Fr

end
-- ==== Proof.IdealRun.lean ====
/- The run of @main as eleven segments — six stretches of host operations and five pipelined regions — from the
   launch memory to the return: the buffer contents at every segment boundary, every region's proof data at its entry
   contents, the segments over the thread state "every unscoped buffer at the boundary's contents, the generator
   register at some state, nothing owed", and from them that every weakly fair execution terminates with every
   unscoped buffer at the last boundary's contents, the argument arrays as launched. -/
import proofs.«135368_j63153199120588_2_alg».proof.Proof.IdealGemm
import proofs.«135368_j63153199120588_2_alg».proof.Proof.IdealTheta1
import proofs.«135368_j63153199120588_2_alg».proof.Proof.IdealTheta2
import proofs.«135368_j63153199120588_2_alg».proof.Proof.IdealTheta3
import proofs.«135368_j63153199120588_2_alg».proof.Proof.IdealTheta4

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main -/

/-- Core `c`'s buffers at launch. -/
abbrev W0 : Dev nD → Valuation τ sig (Elt F) := fun c b => (s₀ m ρ).mem ((c : Dev nD), b)
/-- After `hostOps0` (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, each output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`). -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3` (region 3's entry). -/
abbrev W7 : Dev nD → Valuation τ sig (Elt F) := fun c => StableHlo.after hostOps3 (W6 m ρ c)
/-- The same read at the TensorCore's references (what region 3's proof data take). -/
abbrev V7 : (c : Dev nD) → (b : Ref sig .tc) → Buf (Elt F) ((c : Thread nD τ).loc b) := fun c b => W7 m ρ c b
/-- At region 3's exit: its arrays at what the pipeline leaves (the inputs as entered, each output's write-backs
    folded), every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves (`hF3`) and every other buffer what it
    held at entry (`hrest3`). -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After `hostOps4` (region 4's entry). -/
abbrev W9 : Dev nD → Valuation τ sig (Elt F) := fun c => StableHlo.after hostOps4 (W8 m ρ c)
/-- The same read at the TensorCore's references (what region 4's proof data take). -/
abbrev V9 : (c : Dev nD) → (b : Ref sig .tc) → Buf (Elt F) ((c : Thread nD τ).loc b) := fun c b => W9 m ρ c b
/-- At region 4's exit: its arrays at what the pipeline leaves (the inputs as entered, each output's write-backs
    folded), every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
/-- The same read at the TensorCore's references (region 4's exit contents). -/
abbrev V10 : (c : Dev nD) → (b : Ref sig .tc) → Buf (Elt F) ((c : Thread nD τ).loc b) := fun c b => W10 m ρ c b
/-- At region 4's exit each of its arrays holds what the pipeline leaves (`hF4`) and every other buffer what it
    held at entry (`hrest4`). -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)

/-- After `hostOps5` (the return). -/
abbrev W11 : Dev nD → Valuation τ sig (Elt F) := fun c => StableHlo.after hostOps5 (W10 m ρ c)

/-! ### The arguments end as launched: no host operation and no region writes one (a region reads it through an
    input window or bypasses it), so the fold at an argument's buffer walks back to the launch memory -/

theorem W11_main_arg0 (c : Dev nD) : W11 m ρ c (Proc.devRef .tc main_arg0) = m ((c : Thread nD τ).loc main_arg0) :=
  calc W11 m ρ c (Proc.devRef .tc main_arg0)
    _ = W10 m ρ c (Proc.devRef .tc main_arg0) := StableHlo.after_of_forall_not_mem (b := Proc.devRef .tc main_arg0) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg0) := W10_of_ne m ρ c main_arg0 (by decide)
    _ = W8 m ρ c (Proc.devRef .tc main_arg0) := StableHlo.after_of_forall_not_mem (b := Proc.devRef .tc main_arg0) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg0) := W8_of_ne m ρ c main_arg0 (by decide)
    _ = W6 m ρ c (Proc.devRef .tc main_arg0) := StableHlo.after_of_forall_not_mem (b := Proc.devRef .tc main_arg0) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W11_main_arg1 (c : Dev nD) : W11 m ρ c (Proc.devRef .tc main_arg1) = m ((c : Thread nD τ).loc main_arg1) :=
  calc W11 m ρ c (Proc.devRef .tc main_arg1)
    _ = W10 m ρ c (Proc.devRef .tc main_arg1) := StableHlo.after_of_forall_not_mem (b := Proc.devRef .tc main_arg1) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg1) := W10_of_ne m ρ c main_arg1 (by decide)
    _ = W8 m ρ c (Proc.devRef .tc main_arg1) := StableHlo.after_of_forall_not_mem (b := Proc.devRef .tc main_arg1) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg1) := W8_of_ne m ρ c main_arg1 (by decide)
    _ = W6 m ρ c (Proc.devRef .tc main_arg1) := StableHlo.after_of_forall_not_mem (b := Proc.devRef .tc main_arg1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W11_main_arg2 (c : Dev nD) : W11 m ρ c (Proc.devRef .tc main_arg2) = m ((c : Thread nD τ).loc main_arg2) :=
  calc W11 m ρ c (Proc.devRef .tc main_arg2)
    _ = W10 m ρ c (Proc.devRef .tc main_arg2) := StableHlo.after_of_forall_not_mem (b := Proc.devRef .tc main_arg2) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg2) := W10_of_ne m ρ c main_arg2 (by decide)
    _ = W8 m ρ c (Proc.devRef .tc main_arg2) := StableHlo.after_of_forall_not_mem (b := Proc.devRef .tc main_arg2) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W11_main_arg3 (c : Dev nD) : W11 m ρ c (Proc.devRef .tc main_arg3) = m ((c : Thread nD τ).loc main_arg3) :=
  calc W11 m ρ c (Proc.devRef .tc main_arg3)
    _ = W10 m ρ c (Proc.devRef .tc main_arg3) := StableHlo.after_of_forall_not_mem (b := Proc.devRef .tc main_arg3) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg3) := W10_of_ne m ρ c main_arg3 (by decide)
    _ = W8 m ρ c (Proc.devRef .tc main_arg3) := StableHlo.after_of_forall_not_mem (b := Proc.devRef .tc main_arg3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg3) := W8_of_ne m ρ c main_arg3 (by decide)
    _ = W6 m ρ c (Proc.devRef .tc main_arg3) := StableHlo.after_of_forall_not_mem (b := Proc.devRef .tc main_arg3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg3) := W6_of_ne m ρ c main_arg3 (by decide)
    _ = W4 m ρ c (Proc.devRef .tc main_arg3) := StableHlo.after_of_forall_not_mem (b := Proc.devRef .tc main_arg3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W11_main_arg4 (c : Dev nD) : W11 m ρ c (Proc.devRef .tc main_arg4) = m ((c : Thread nD τ).loc main_arg4) :=
  calc W11 m ρ c (Proc.devRef .tc main_arg4)
    _ = W10 m ρ c (Proc.devRef .tc main_arg4) := StableHlo.after_of_forall_not_mem (b := Proc.devRef .tc main_arg4) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg4) := W10_of_ne m ρ c main_arg4 (by decide)
    _ = W8 m ρ c (Proc.devRef .tc main_arg4) := StableHlo.after_of_forall_not_mem (b := Proc.devRef .tc main_arg4) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg4) := W8_of_ne m ρ c main_arg4 (by decide)
    _ = W6 m ρ c (Proc.devRef .tc main_arg4) := StableHlo.after_of_forall_not_mem (b := Proc.devRef .tc main_arg4) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := (W2_arr m ρ c 1).trans (((dat0 (V1 m ρ) c).arrAt_in 1 rfl _).trans (A_eq0 (V1 m ρ) c 1))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ## The proof data family and the thread state -/

/-- The prefetched tables' admissible contents: no pipeline has a table. -/
abbrev adm : (p : Fin 5) → (pcfgs (F := F) p).Adm := fun p => (cfgs p).toPCfg_adm
/-- Every pipeline's proof data, each at its region's entry contents — a literal `match`, so that the pinned
    configuration at a numeral reduces to the printed one. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along (its `post` is
    then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of `hostOps0` allocates a buffer. -/
theorem hostOps0_fresh : (hostOps0 : List (HloOp τ sig (Elt F))).Forall fun op => op.fresh = ∅ := by
  simp only [List.Forall]; repeat' constructor
/-- No operation of `hostOps1` allocates a buffer. -/
theorem hostOps1_fresh : (hostOps1 : List (HloOp τ sig (Elt F))).Forall fun op => op.fresh = ∅ := by
  simp only [List.Forall]; repeat' constructor
/-- No operation of `hostOps2` allocates a buffer. -/
theorem hostOps2_fresh : (hostOps2 : List (HloOp τ sig (Elt F))).Forall fun op => op.fresh = ∅ := by
  simp only [List.Forall]; repeat' constructor
/-- No operation of `hostOps3` allocates a buffer. -/
theorem hostOps3_fresh : (hostOps3 : List (HloOp τ sig (Elt F))).Forall fun op => op.fresh = ∅ := by
  simp only [List.Forall]; repeat' constructor
/-- No operation of `hostOps4` allocates a buffer. -/
theorem hostOps4_fresh : (hostOps4 : List (HloOp τ sig (Elt F))).Forall fun op => op.fresh = ∅ := by
  simp only [List.Forall]; repeat' constructor
/-- No operation of `hostOps5` allocates a buffer. -/
theorem hostOps5_fresh : (hostOps5 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W11`, the
    generator register at some state. -/
abbrev Tₙ (c : Dev nD) : sProp 𝕄 := iprop(StableHlo.held (c : Thread nD τ) (Pipeline.ucRefs τ sig) (W11 m ρ c) ∗ ∃ r, prngReg c r)

/-! ## The regions as segments -/

set_option backward.isDefEq.respectTransparency.types false in
/-- REGION 0 over the thread state: entered from every unscoped buffer at `W1`, left at `W2`. Its arrays split
    out of the unscoped buffers and put back at the exit contents; the generator register and the scoped buffers no
    window stages into the region's invariant at its first point and out of it at its last; nothing owed; no
    semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its arrays split
    out of the unscoped buffers and put back at the exit contents; the generator register and the scoped buffers no
    window stages into the region's invariant at its first point and out of it at its last; nothing owed; no
    semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W5`, left at `W6`. Its arrays split
    out of the unscoped buffers and put back at the exit contents; the generator register and the scoped buffers no
    window stages into the region's invariant at its first point and out of it at its last; nothing owed; no
    semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun w => A_eq2 (V5 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V5 m ρ) c)
    unfold Pipeline.ΦA
    iintro ⟨Hp, -, Hr⟩
    isplitl [Hr]; · iexact Hr
    iexact Hp
  hout c := by
    rw [Pipeline.ownSems0_none]
    refine BIBase.Entails.trans (hout2 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W7`, left at `W8`. Its arrays split
    out of the unscoped buffers and put back at the exit contents; the generator register and the scoped buffers no
    window stages into the region's invariant at its first point and out of it at its last; nothing owed; no
    semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun w => A_eq3 (V7 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V7 m ρ) c)
    unfold Pipeline.ΦA
    iintro ⟨Hp, -, Hr⟩
    isplitl [Hr]; · iexact Hr
    iexact Hp
  hout c := by
    rw [Pipeline.ownSems0_none]
    refine BIBase.Entails.trans (hout3 (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W9`, left at `W10`. Its arrays split
    out of the unscoped buffers and put back at the exit contents; the generator register and the scoped buffers no
    window stages into the region's invariant at its first point and out of it at its last; nothing owed; no
    semaphore of the kernel's own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun w => A_eq4 (V9 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (V9 m ρ) c)
    unfold Pipeline.ΦA
    iintro ⟨Hp, -, Hr⟩
    isplitl [Hr]; · iexact Hr
    iexact Hp
  hout c := by
    rw [Pipeline.ownSems0_none]
    refine BIBase.Entails.trans (hout4 (V9 m ρ) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 11 segments in order: a host segment per stretch from its boundary's contents, a region per pipelined call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ),
    .host (hseg hostOps5 hostOps5_sub hostOps5_fresh (W10 m ρ)) ]
/-- @main IS the run of the segments. -/
theorem main_run (c : Dev nD) : main (F := F) c = Pipeline.Seg.run (segs m ρ) :=
  main_segs adm (pdats m ρ) () 𝒱₀ L lv _ _ _ _ _ _ (reg0 m ρ) (reg1 m ρ) (reg2 m ρ) (reg3 m ρ) (reg4 m ρ) rfl rfl rfl rfl rfl rfl c

set_option backward.isDefEq.respectTransparency.types false in
/-- THE RUN: at the compiled mesh, from any memory with zero counters, every weakly fair execution of @main on the
    TensorCores terminates, nothing faulting, and every final state has every unscoped buffer of every core at the last
    boundary's contents `W11`. -/
theorem run : θ_run defs (onTc (τ := τ) (main (F := F))) ⟨m, fun _ => 0, ρ⟩ (fun r => ∀ c : Dev nD,
      ∀ b ∈ Pipeline.ucRefs τ sig, r.2.mem ((c : Thread nD τ).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => by
        show iprop(StableHlo.held (c : Thread nD τ) (Pipeline.ucRefs τ sig) (W11 m ρ c) ∗ R c)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c => h c)

/-- THE FRAME: every weakly fair execution of @main terminates, nothing faulting, and every final state has the
    argument arrays as launched: the run, each argument's buffer read at the last boundary's contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c),
     (h c _ (mem_uc main_arg4 (by decide))).trans (W11_main_arg4 m ρ c)⟩) (run m ρ)

/-- The result's buffer at the return holds the last boundary's contents at it. -/
theorem W_out (r : PUnit × MemSt nD τ sig (Elt F)) (c : Dev nD)
    (h : ∀ b ∈ Pipeline.ucRefs τ sig, r.2.mem ((c : Thread nD τ).1, b) = W11 m ρ c b) :
    r.2.mem ((c.tc : Thread nD τ).loc main_v36) = W11 m ρ c (Proc.devRef .tc main_v36) :=
  h _ (mem_uc main_v36 (by decide))

end Cert.KernelIdeal.Fr

end
-- ==== Proof.Spec.lean ====
/-
  The pure mathematics each kernel region computes, at the ideal instance (a float an extended real).
  `gemm` is the plain product of an [8192,64] array by a [64,64] array. `accT` and `accN` are the two
  accumulated products by the [8192,8192] array Θ: a zero accumulator plus four block products, added in
  that order and grouping, each block contracting 2048 consecutive rows of the [8192,64] operand —
  against Θ's rows (`accT`, the transposed product Θᵀ·Z) or Θ's columns (`accN`, the product Θ·Z).
-/
import proofs.«135368_j63153199120588_2_alg».proof.KernelIdeal
import Idealize.ShloMosaic.PureOps.Ideal
import Idealize.ShloMosaic.Lib.ValueIdx

noncomputable section

open scoped BigOperators

namespace Cert.KernelIdeal.Spec

open Idealize.ShloMosaic Idealize.ShloMosaic.ValueIdx Cert.KernelIdeal

/-- Row `kk` of the `b`-th block of 2048 consecutive rows of an array of 8192 rows. -/
def row (b : Fin 4) (kk : Fin 2048) : Fin 8192 := ⟨2048 * b.val + kk.val, by omega⟩

theorem row_val (b : Fin 4) (kk : Fin 2048) : (row b kk).val = 2048 * b.val + kk.val := rfl

/-- The product X · W of an [8192,64] array by a [64,64] array. -/
def gemm (X : Vec Ideal S8192x64 .f32) (Wt : Vec Ideal S64x64 .f32) : Vec Ideal S8192x64 .f32 := fun j =>
  ∑ k : Fin 64, X (ix2 (j 0) k) * Wt (ix2 k (j 1))

/-- Θᵀ · Z as the kernel accumulates it: zero, plus the four row blocks' products in order. -/
def accT (Θ : Vec Ideal S8192x8192 .bf16) (Z : Vec Ideal S8192x64 .f32) : Vec Ideal S8192x64 .f32 := fun j =>
  ((((0 : EReal) + ∑ kk : Fin 2048, Θ (ix2 (row 0 kk) (j 0)) * Z (ix2 (row 0 kk) (j 1)))
      + ∑ kk : Fin 2048, Θ (ix2 (row 1 kk) (j 0)) * Z (ix2 (row 1 kk) (j 1)))
      + ∑ kk : Fin 2048, Θ (ix2 (row 2 kk) (j 0)) * Z (ix2 (row 2 kk) (j 1)))
      + ∑ kk : Fin 2048, Θ (ix2 (row 3 kk) (j 0)) * Z (ix2 (row 3 kk) (j 1))

/-- Θ · Z as the kernel accumulates it: zero, plus the four column blocks' products in order. -/
def accN (Θ : Vec Ideal S8192x8192 .bf16) (Z : Vec Ideal S8192x64 .f32) : Vec Ideal S8192x64 .f32 := fun j =>
  ((((0 : EReal) + ∑ kk : Fin 2048, Θ (ix2 (j 0) (row 0 kk)) * Z (ix2 (row 0 kk) (j 1)))
      + ∑ kk : Fin 2048, Θ (ix2 (j 0) (row 1 kk)) * Z (ix2 (row 1 kk) (j 1)))
      + ∑ kk : Fin 2048, Θ (ix2 (j 0) (row 2 kk)) * Z (ix2 (row 2 kk) (j 1)))
      + ∑ kk : Fin 2048, Θ (ix2 (j 0) (row 3 kk)) * Z (ix2 (row 3 kk) (j 1))

end Cert.KernelIdeal.Spec
-- ==== Proof.IdealGemmValue.lean ====
/-
  The value of region 0's output array at the ideal instance: the product of the [8192,64] array the region
  finds in its first operand by the [64,64] array in its second. Each grid point writes back the product of its
  2048-row block by the whole [64,64] array (a format change is the identity here and the matmul into a zero
  accumulator is the plain sum over the contraction coordinate); that is the point's block of the whole
  product, and the four blocks tile the array.
-/
import proofs.«135368_j63153199120588_2_alg».proof.Proof.IdealGemm
import proofs.«135368_j63153199120588_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

/-! ## The payload at an index -/

theorem hz0 : (![0, 0] : Fin 2 → Nat) = fun _ => 0 := funext fun a => by fin_cases a <;> rfl

theorem lhs_k0_0 (j : S2048x64.Idx) (q : dot_S2048x64_S64x64_S2048x64_1_0_0_1_n_n.contr.Idx) :
    (dot_S2048x64_S64x64_S2048x64_1_0_0_1_n_n.lhsIdx j q 0).val = (j 0).val := by
  unfold DotDims.lhsIdx
  rw [dif_neg (show ¬(0 : Fin S2048x64.rank) ∈ dot_S2048x64_S64x64_S2048x64_1_0_0_1_n_n.lhsBatch by decide), dif_pos (show (0 : Fin S2048x64.rank) ∈ dot_S2048x64_S64x64_S2048x64_1_0_0_1_n_n.lhsNonContracting by decide)]
  rfl
theorem lhs_k0_1 (j : S2048x64.Idx) (q : dot_S2048x64_S64x64_S2048x64_1_0_0_1_n_n.contr.Idx) :
    (dot_S2048x64_S64x64_S2048x64_1_0_0_1_n_n.lhsIdx j q 1).val = (q ⟨0, by decide⟩).val :=
  dot_S2048x64_S64x64_S2048x64_1_0_0_1_n_n.lhsIdx_val_of_single rfl j q
theorem rhs_k0_0 (j : S2048x64.Idx) (q : dot_S2048x64_S64x64_S2048x64_1_0_0_1_n_n.contr.Idx) :
    (dot_S2048x64_S64x64_S2048x64_1_0_0_1_n_n.rhsIdx j q 0).val = (q ⟨0, by decide⟩).val :=
  dot_S2048x64_S64x64_S2048x64_1_0_0_1_n_n.rhsIdx_val_of_single rfl j q
theorem rhs_k0_1 (j : S2048x64.Idx) (q : dot_S2048x64_S64x64_S2048x64_1_0_0_1_n_n.contr.Idx) :
    (dot_S2048x64_S64x64_S2048x64_1_0_0_1_n_n.rhsIdx j q 1).val = (j 1).val := by
  unfold DotDims.rhsIdx
  rw [dif_neg (show ¬(1 : Fin S64x64.rank) ∈ dot_S2048x64_S64x64_S2048x64_1_0_0_1_n_n.rhsBatch by decide), dif_pos (show (1 : Fin S64x64.rank) ∈ dot_S2048x64_S64x64_S2048x64_1_0_0_1_n_n.rhsNonContracting by decide)]
  rfl

/-- The body's payload at an index: row `j 0` of the loaded block against column `j 1` of the loaded [64,64] array. -/
theorem pay0_apply (x0 : Vec Ideal S2048x64 .f32) (x1 : Vec Ideal S64x64 .f32) (j : S2048x64.Idx) :
    k0_pay1 (F := Ideal) x0 x1 j = ∑ k : Fin 64, x0 (ix2 (j 0) k) * x1 (ix2 k (j 1)) := by
  unfold k0_pay1
  simp only [matmul]
  rw [Ideal.matmul_constant_zero_apply, ← Equiv.sum_comp (contrEquiv1 dot_S2048x64_S64x64_S2048x64_1_0_0_1_n_n 64 rfl rfl).symm]
  refine Finset.sum_congr rfl fun k _ => ?_
  have hk := contrEquiv1_symm_val dot_S2048x64_S64x64_S2048x64_1_0_0_1_n_n 64 rfl rfl k
  have el : dot_S2048x64_S64x64_S2048x64_1_0_0_1_n_n.lhsIdx j ((contrEquiv1 dot_S2048x64_S64x64_S2048x64_1_0_0_1_n_n 64 rfl rfl).symm k) = ix2 (j 0) k := funext fun a => Fin.ext (by
    match a with
    | ⟨0, _⟩ => exact lhs_k0_0 _ _
    | ⟨1, _⟩ => exact (lhs_k0_1 _ _).trans hk)
  have er : dot_S2048x64_S64x64_S2048x64_1_0_0_1_n_n.rhsIdx j ((contrEquiv1 dot_S2048x64_S64x64_S2048x64_1_0_0_1_n_n 64 rfl rfl).symm k) = ix2 k (j 1) := funext fun a => Fin.ext (by
    match a with
    | ⟨0, _⟩ => exact (rhs_k0_0 _ _).trans hk
    | ⟨1, _⟩ => exact rhs_k0_1 _ _)
  rw [el, er]
  rfl

/-! ## What each point writes back -/

/-- The index maps, decided over the four grid points: the first operand's block moves with the output's along the
    rows, every other block index is zero, and the output's row-block index stays below four. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 3 :=
  (by decide +kernel : ∀ t : Fin grid0.N, _)

/-- Every row block is some point's. -/
theorem idx_onto0 : ∀ q0 : Fin 4, ∃ t : Fin cfg0.N, win0_2.index t = ![q0.val, 0] :=
  (by decide +kernel : ∀ q0 : Fin 4, ∃ t : Fin grid0.N, win0_2.index t = ![q0.val, 0])

/-- The product of point `t`'s blocks of two arrays is point `t`'s block of the arrays' product. -/
theorem flushed_core0 (A : Vec Ideal S8192x64 .f32) (W : Vec Ideal S64x64 .f32) (t : Fin cfg0.N) :
    (cfg0.win 2).cut (grid0.coords t)
        (k0_pay1 (F := Ideal) (((cfg0.win 0).blk t).view.read (Elt Ideal) A) (((cfg0.win 1).blk t).view.read (Elt Ideal) W))
      = ((cfg0.win 2).blk t).view.read (Elt Ideal) (Spec.gemm A W) := by
  obtain ⟨e0, e1, e2, e3, e4, e5⟩ := idx_facts0 t
  funext j
  show k0_pay1 (F := Ideal) (((cfg0.win 0).blk t).view.read (Elt Ideal) A) (((cfg0.win 1).blk t).view.read (Elt Ideal) W) j
      = Spec.gemm A W (((cfg0.win 2).blk t).view.emb j)
  rw [pay0_apply]
  refine Finset.sum_congr rfl fun k _ => ?_
  show A (((cfg0.win 0).blk t).view.emb (ix2 (j 0) k)) * W (((cfg0.win 1).blk t).view.emb (ix2 k (j 1)))
      = A (ix2 (((cfg0.win 2).blk t).view.emb j 0) k) * W (ix2 k (((cfg0.win 2).blk t).view.emb j 1))
  have h0 : ((cfg0.win 0).blk t).view.emb (ix2 (j 0) k) = ix2 (((cfg0.win 2).blk t).view.emb j 0) k := by
    funext a; apply Fin.ext
    match a with
    | ⟨0, _⟩ => show win0_0.index t (0 : Fin 2) * 2048 + 1 * (j 0).val = win0_2.index t (0 : Fin 2) * 2048 + 1 * (j 0).val; omega
    | ⟨1, _⟩ => show win0_0.index t (1 : Fin 2) * 64 + 1 * k.val = k.val; omega
  have h1 : ((cfg0.win 1).blk t).view.emb (ix2 k (j 1)) = ix2 k (((cfg0.win 2).blk t).view.emb j 1) := by
    funext a; apply Fin.ext
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega
  rw [h0, h1]
  rfl

variable (V : (c : Dev nD) → (b : Ref sig .tc) → Buf (Elt Ideal) ((c : Thread nD τ).loc b))

/-- What point `t` writes back is block `t` of the product of the arrays the region finds in its operands. -/
theorem flushed0_eq (c : Dev nD) (t : Fin cfg0.N) :
    (dat0 (F := Ideal) V c).flushed 2 t
      = ((cfg0.win 2).blk t).view.read (Elt Ideal) (Spec.gemm (V c main_arg0) (V c main_arg4)) := by
  show (cfg0.win 2).cut (grid0.coords t) ((dat0 (F := Ideal) V c).after 2 t) = _
  rw [after0_2]
  unfold out0_2
  rw [View.canon_unit_zero hz0]
  simp only [View.ld_unit_zero (S := S2048x64) hz0, View.ld_unit_zero (S := S64x64) hz0]
  exact flushed_core0 (V c main_arg0) (V c main_arg4) t

/-! ## The four blocks tile the array -/

/-- An index of the array is in point `t`'s block iff each coordinate is in the block's range on its axis. -/
theorem mem_blk0 (t : Fin cfg0.N) (i : S8192x64.Idx) :
    i ∈ ((cfg0.win 2).blk t).view.set ↔ ∀ a : Fin 2, win0_2.index t a * S2048x64.size a ≤ (i a).val ∧ (i a).val < win0_2.index t a * S2048x64.size a + S2048x64.size a := by
  show i ∈ ((View.whole main_v1).slice (win0_2.rect t)).set ↔ _
  rw [View.set_slice_whole, Rect.mem_set_unit]
  exact Iff.rfl

/-- Every index is in the block of the point whose row block holds its row. -/
theorem cover0 (i : S8192x64.Idx) : ∃ t : Fin cfg0.N, (cfg0.win 2).flush t = true ∧ i ∈ ((cfg0.win 2).blk t).view.set := by
  have hi0 : (i 0).val < 8192 := (i 0).isLt
  have hi1 : (i 1).val < 64 := (i 1).isLt
  obtain ⟨t, ht⟩ := idx_onto0 ⟨(i 0).val / 2048, by omega⟩
  have q0 : win0_2.index t (0 : Fin 2) = (i 0).val / 2048 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 64 ≤ (i 1).val ∧ (i 1).val < win0_2.index t (1 : Fin 2) * 64 + 64; omega

/-- The output array after the region: the product of the two operand arrays as the region finds them. -/
theorem final0 (c : Dev nD) :
    (dat0 (F := Ideal) V c).arrAt 2 cfg0.N = Spec.gemm (V c main_arg0) (V c main_arg4) :=
  (dat0 (F := Ideal) V c).arrAt_eq_of_cover 2 _ (fun t _ => flushed0_eq V c t) cover0

end Cert.KernelIdeal.Fr
-- ==== Proof.PayloadApply.lean ====
/-
  The accumulating kernels' payloads read at an index, at the ideal instance. A same-shape shape cast is the
  identity, a format change is the identity, the matmul into a zero accumulator is the plain sum over the
  contraction coordinate: so the stored value is the accumulator plus the block product, the Θ block contracted
  along its rows (kernels 1 and 2) or its columns (kernels 3 and 4); and the clearing payload is zero.
-/
import proofs.«135368_j63153199120588_2_alg».proof.Proof.Gen.KernelIdeal.Skeleton
import Idealize.ShloMosaic.PureOps.Ideal.Laws
import Idealize.ShloMosaic.Lib.ValueIdx
import Idealize.ShloMosaic.Lib.Pipeline.Value

noncomputable section

open scoped BigOperators

namespace Cert.KernelIdeal.Fr

open Idealize.ShloMosaic Idealize.ShloMosaic.ValueIdx Cert.KernelIdeal Cert.KernelIdeal.Gen

/-! ## The two block contractions at an index -/

theorem lhs_T_c (j : S2048x64.Idx) (q : dot_S2048x2048_S2048x64_S2048x64_0_0_1_1_n_n.contr.Idx) :
    (dot_S2048x2048_S2048x64_S2048x64_0_0_1_1_n_n.lhsIdx j q 0).val = (q ⟨0, by decide⟩).val :=
  dot_S2048x2048_S2048x64_S2048x64_0_0_1_1_n_n.lhsIdx_val_of_single rfl j q
theorem lhs_T_n (j : S2048x64.Idx) (q : dot_S2048x2048_S2048x64_S2048x64_0_0_1_1_n_n.contr.Idx) :
    (dot_S2048x2048_S2048x64_S2048x64_0_0_1_1_n_n.lhsIdx j q 1).val = (j 0).val := by
  unfold DotDims.lhsIdx
  rw [dif_neg (show ¬(1 : Fin S2048x2048.rank) ∈ dot_S2048x2048_S2048x64_S2048x64_0_0_1_1_n_n.lhsBatch by decide), dif_pos (show (1 : Fin S2048x2048.rank) ∈ dot_S2048x2048_S2048x64_S2048x64_0_0_1_1_n_n.lhsNonContracting by decide)]
  rfl
theorem rhs_T_c (j : S2048x64.Idx) (q : dot_S2048x2048_S2048x64_S2048x64_0_0_1_1_n_n.contr.Idx) :
    (dot_S2048x2048_S2048x64_S2048x64_0_0_1_1_n_n.rhsIdx j q 0).val = (q ⟨0, by decide⟩).val :=
  dot_S2048x2048_S2048x64_S2048x64_0_0_1_1_n_n.rhsIdx_val_of_single rfl j q
theorem rhs_T_n (j : S2048x64.Idx) (q : dot_S2048x2048_S2048x64_S2048x64_0_0_1_1_n_n.contr.Idx) :
    (dot_S2048x2048_S2048x64_S2048x64_0_0_1_1_n_n.rhsIdx j q 1).val = (j 1).val := by
  unfold DotDims.rhsIdx
  rw [dif_neg (show ¬(1 : Fin S2048x64.rank) ∈ dot_S2048x2048_S2048x64_S2048x64_0_0_1_1_n_n.rhsBatch by decide), dif_pos (show (1 : Fin S2048x64.rank) ∈ dot_S2048x2048_S2048x64_S2048x64_0_0_1_1_n_n.rhsNonContracting by decide)]
  rfl

/-- The block matmul into a zero accumulator at an index. -/
theorem mm_T_apply (Y : Vec Ideal S2048x2048 .bf16) (Z : Vec Ideal S2048x64 .bf16) (p : Fin 2048) (q : Fin 64) :
    FloatOps.matmul (F := Ideal) (φ₁ := .bf16) (φ₂ := .bf16) dot_S2048x2048_S2048x64_S2048x64_0_0_1_1_n_n none Y Z (constant S2048x64 .f32 0x00000000#32) (ix2 p q)
      = ∑ kk : Fin 2048, Y (ix2 kk p) * Z (ix2 kk q) := by
  rw [Ideal.matmul_constant_zero_apply, ← Equiv.sum_comp (contrEquiv1 dot_S2048x2048_S2048x64_S2048x64_0_0_1_1_n_n 2048 rfl rfl).symm]
  refine Finset.sum_congr rfl fun k _ => ?_
  have hk := contrEquiv1_symm_val dot_S2048x2048_S2048x64_S2048x64_0_0_1_1_n_n 2048 rfl rfl k
  have el : dot_S2048x2048_S2048x64_S2048x64_0_0_1_1_n_n.lhsIdx (ix2 p q) ((contrEquiv1 dot_S2048x2048_S2048x64_S2048x64_0_0_1_1_n_n 2048 rfl rfl).symm k) = ix2 k p := funext fun a => Fin.ext (by
    match a with
    | ⟨0, _⟩ => exact (lhs_T_c _ _).trans hk
    | ⟨1, _⟩ => exact lhs_T_n _ _)
  have er : dot_S2048x2048_S2048x64_S2048x64_0_0_1_1_n_n.rhsIdx (ix2 p q) ((contrEquiv1 dot_S2048x2048_S2048x64_S2048x64_0_0_1_1_n_n 2048 rfl rfl).symm k) = ix2 k q := funext fun a => Fin.ext (by
    match a with
    | ⟨0, _⟩ => exact (rhs_T_c _ _).trans hk
    | ⟨1, _⟩ => exact rhs_T_n _ _)
  rw [el, er]

theorem lhs_N_c (j : S2048x64.Idx) (q : dot_S2048x2048_S2048x64_S2048x64_1_0_0_1_n_n.contr.Idx) :
    (dot_S2048x2048_S2048x64_S2048x64_1_0_0_1_n_n.lhsIdx j q 1).val = (q ⟨0, by decide⟩).val :=
  dot_S2048x2048_S2048x64_S2048x64_1_0_0_1_n_n.lhsIdx_val_of_single rfl j q
theorem lhs_N_n (j : S2048x64.Idx) (q : dot_S2048x2048_S2048x64_S2048x64_1_0_0_1_n_n.contr.Idx) :
    (dot_S2048x2048_S2048x64_S2048x64_1_0_0_1_n_n.lhsIdx j q 0).val = (j 0).val := by
  unfold DotDims.lhsIdx
  rw [dif_neg (show ¬(0 : Fin S2048x2048.rank) ∈ dot_S2048x2048_S2048x64_S2048x64_1_0_0_1_n_n.lhsBatch by decide), dif_pos (show (0 : Fin S2048x2048.rank) ∈ dot_S2048x2048_S2048x64_S2048x64_1_0_0_1_n_n.lhsNonContracting by decide)]
  rfl
theorem rhs_N_c (j : S2048x64.Idx) (q : dot_S2048x2048_S2048x64_S2048x64_1_0_0_1_n_n.contr.Idx) :
    (dot_S2048x2048_S2048x64_S2048x64_1_0_0_1_n_n.rhsIdx j q 0).val = (q ⟨0, by decide⟩).val :=
  dot_S2048x2048_S2048x64_S2048x64_1_0_0_1_n_n.rhsIdx_val_of_single rfl j q
theorem rhs_N_n (j : S2048x64.Idx) (q : dot_S2048x2048_S2048x64_S2048x64_1_0_0_1_n_n.contr.Idx) :
    (dot_S2048x2048_S2048x64_S2048x64_1_0_0_1_n_n.rhsIdx j q 1).val = (j 1).val := by
  unfold DotDims.rhsIdx
  rw [dif_neg (show ¬(1 : Fin S2048x64.rank) ∈ dot_S2048x2048_S2048x64_S2048x64_1_0_0_1_n_n.rhsBatch by decide), dif_pos (show (1 : Fin S2048x64.rank) ∈ dot_S2048x2048_S2048x64_S2048x64_1_0_0_1_n_n.rhsNonContracting by decide)]
  rfl

/-- The block matmul into a zero accumulator at an index. -/
theorem mm_N_apply (Y : Vec Ideal S2048x2048 .bf16) (Z : Vec Ideal S2048x64 .bf16) (p : Fin 2048) (q : Fin 64) :
    FloatOps.matmul (F := Ideal) (φ₁ := .bf16) (φ₂ := .bf16) dot_S2048x2048_S2048x64_S2048x64_1_0_0_1_n_n none Y Z (constant S2048x64 .f32 0x00000000#32) (ix2 p q)
      = ∑ kk : Fin 2048, Y (ix2 p kk) * Z (ix2 kk q) := by
  rw [Ideal.matmul_constant_zero_apply, ← Equiv.sum_comp (contrEquiv1 dot_S2048x2048_S2048x64_S2048x64_1_0_0_1_n_n 2048 rfl rfl).symm]
  refine Finset.sum_congr rfl fun k _ => ?_
  have hk := contrEquiv1_symm_val dot_S2048x2048_S2048x64_S2048x64_1_0_0_1_n_n 2048 rfl rfl k
  have el : dot_S2048x2048_S2048x64_S2048x64_1_0_0_1_n_n.lhsIdx (ix2 p q) ((contrEquiv1 dot_S2048x2048_S2048x64_S2048x64_1_0_0_1_n_n 2048 rfl rfl).symm k) = ix2 p k := funext fun a => Fin.ext (by
    match a with
    | ⟨1, _⟩ => exact (lhs_N_c _ _).trans hk
    | ⟨0, _⟩ => exact lhs_N_n _ _)
  have er : dot_S2048x2048_S2048x64_S2048x64_1_0_0_1_n_n.rhsIdx (ix2 p q) ((contrEquiv1 dot_S2048x2048_S2048x64_S2048x64_1_0_0_1_n_n 2048 rfl rfl).symm k) = ix2 k q := funext fun a => Fin.ext (by
    match a with
    | ⟨0, _⟩ => exact (rhs_N_c _ _).trans hk
    | ⟨1, _⟩ => exact rhs_N_n _ _)
  rw [el, er]

/-! ## The payloads -/

/-- Kernel 1's first payload: the zero it clears the accumulator with. -/
theorem pay1_apply_1 (p : Fin 2048) (q : Fin 64) : k1_pay1 (F := Ideal) (ix2 p q) = 0 := by
  unfold k1_pay1
  simp only [shapeCast_self]
  exact Ideal.ofBits_zero_f32

/-- Kernel 1's second payload at an index: the accumulator there plus the block product, the Θ block contracted along
    its row axis. -/
theorem pay2_apply_1 (x6 : Vec Ideal S2048x64 .f32) (x9 : Vec Ideal S2048x2048 .bf16) (acc : Vec Ideal S2048x64 .f32)
    (p : Fin 2048) (q : Fin 64) :
    k1_pay2 (F := Ideal) x6 x9 acc (ix2 p q)
      = acc (ix2 p q) + ∑ kk : Fin 2048, x9 (ix2 kk p) * x6 (ix2 kk q) := by
  unfold k1_pay2
  simp only [shapeCast_self, matmul]
  rw [addf_apply, mm_T_apply]
  rfl

/-- Kernel 2's first payload: the zero it clears the accumulator with. -/
theorem pay1_apply_2 (p : Fin 2048) (q : Fin 64) : k2_pay1 (F := Ideal) (ix2 p q) = 0 := by
  unfold k2_pay1
  simp only [shapeCast_self]
  exact Ideal.ofBits_zero_f32

/-- Kernel 2's second payload at an index: the accumulator there plus the block product, the Θ block contracted along
    its row axis. -/
theorem pay2_apply_2 (x6 : Vec Ideal S2048x64 .f32) (x9 : Vec Ideal S2048x2048 .bf16) (acc : Vec Ideal S2048x64 .f32)
    (p : Fin 2048) (q : Fin 64) :
    k2_pay2 (F := Ideal) x6 x9 acc (ix2 p q)
      = acc (ix2 p q) + ∑ kk : Fin 2048, x9 (ix2 kk p) * x6 (ix2 kk q) := by
  unfold k2_pay2
  simp only [shapeCast_self, matmul]
  rw [addf_apply, mm_T_apply]
  rfl

/-- Kernel 3's first payload: the zero it clears the accumulator with. -/
theorem pay1_apply_3 (p : Fin 2048) (q : Fin 64) : k3_pay1 (F := Ideal) (ix2 p q) = 0 := by
  unfold k3_pay1
  simp only [shapeCast_self]
  exact Ideal.ofBits_zero_f32

/-- Kernel 3's second payload at an index: the accumulator there plus the block product, the Θ block contracted along
    its column axis. -/
theorem pay2_apply_3 (x6 : Vec Ideal S2048x64 .f32) (x9 : Vec Ideal S2048x2048 .bf16) (acc : Vec Ideal S2048x64 .f32)
    (p : Fin 2048) (q : Fin 64) :
    k3_pay2 (F := Ideal) x6 x9 acc (ix2 p q)
      = acc (ix2 p q) + ∑ kk : Fin 2048, x9 (ix2 p kk) * x6 (ix2 kk q) := by
  unfold k3_pay2
  simp only [shapeCast_self, matmul]
  rw [addf_apply, mm_N_apply]
  rfl

/-- Kernel 4's first payload: the zero it clears the accumulator with. -/
theorem pay1_apply_4 (p : Fin 2048) (q : Fin 64) : k4_pay1 (F := Ideal) (ix2 p q) = 0 := by
  unfold k4_pay1
  simp only [shapeCast_self]
  exact Ideal.ofBits_zero_f32

/-- Kernel 4's second payload at an index: the accumulator there plus the block product, the Θ block contracted along
    its column axis. -/
theorem pay2_apply_4 (x6 : Vec Ideal S2048x64 .f32) (x9 : Vec Ideal S2048x2048 .bf16) (acc : Vec Ideal S2048x64 .f32)
    (p : Fin 2048) (q : Fin 64) :
    k4_pay2 (F := Ideal) x6 x9 acc (ix2 p q)
      = acc (ix2 p q) + ∑ kk : Fin 2048, x9 (ix2 p kk) * x6 (ix2 kk q) := by
  unfold k4_pay2
  simp only [shapeCast_self, matmul]
  rw [addf_apply, mm_N_apply]
  rfl

end Cert.KernelIdeal.Fr
-- ==== Proof.IdealTheta1Value.lean ====
import proofs.«135368_j63153199120588_2_alg».proof.Proof.IdealTheta1
import proofs.«135368_j63153199120588_2_alg».proof.Proof.Spec
import proofs.«135368_j63153199120588_2_alg».proof.Proof.PayloadApply
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Fr

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Spec

/-! # The value of region 1's output

After the four points (i, 0) … (i, 3) the accumulator holds zero plus the four block products in order; point (i, 3)
copies it into output block i, which is then written back. So the output array ends as `Spec.accT` of Θ (as cast)
and the region's second operand, row block by row block. -/

theorem lt4_0_1 : 0 < 4 := by decide
theorem lt4_1_1 : 1 < 4 := by decide
theorem lt4_2_1 : 2 < 4 := by decide
theorem lt4_3_1 : 3 < 4 := by decide

theorem hz2_1 : (![0, 0] : Fin 2 → Nat) = fun _ => 0 := funext fun a => by fin_cases a <;> rfl

/-- The 2048 rows of the resident operand the point reads, and the whole Θ block. -/
abbrev rX1 (i : grid1.Coords) : Rect S8192x64 := Rect.unit (s := S8192x64) (k1_off1 i) S2048x64.size (k1_off1_inb i)
abbrev rT1 : Rect S2048x2048 := Rect.unit (s := S2048x2048) ![0, 0] S2048x2048.size inb_S2048x2048_S2048x2048_0_0

section Pieces
variable {F : FTy → Type} [FloatOps F]

/-- What each case leaves in the accumulator (and case C in the output block): the one payload of the loaded blocks. -/
theorem sout1_A_eq (c : Dev nD) (i : grid1.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : cond1_0 i) (hc1 : ¬cond1_1 i) (x0 : Vec F S2048x2048 .bf16) (x1 : Vec F S8192x64 .f32) :
    sout1_A_0 c i arg2 harg2 arg3 harg3 arg4 harg4 arg5 harg5 hc0 hc1 x0 x1 = k1_pay2 (View.ld x1 (rX1 i)) (View.ld x0 rT1) k1_pay1 := by
  unfold sout1_A_0
  rw [View.read_writes_eq_canon _ _ _ (scover1_A_0 c i arg2 harg2 arg3 harg3 arg4 harg4 arg5 harg5 hc0 hc1 x0 x1)]
  unfold kernelRun1_A
  dsimp only
  sl_unfold_run_names
  rw [View.canon_cons_unit_zero hz2_1]
  simp only [View.readAt_eq_ld, harg3.read_unread, harg2.read_unread]
  rw [View.readCov_unit_zero (S := S2048x64) arg5.view hz2_1]

theorem sout1_B_eq (c : Dev nD) (i : grid1.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond1_0 i) (hc1 : ¬cond1_1 i) (x0 : Vec F S2048x2048 .bf16) (x1 : Vec F S8192x64 .f32) (xs0 : Vec F S2048x64 .f32) :
    sout1_B_0 c i arg2 harg2 arg3 harg3 arg4 harg4 arg5 harg5 hc0 hc1 x0 x1 xs0 = k1_pay2 (View.ld x1 (rX1 i)) (View.ld x0 rT1) xs0 := by
  unfold sout1_B_0
  rw [View.read_writes_eq_canon _ _ _ (scover1_B_0 c i arg2 harg2 arg3 harg3 arg4 harg4 arg5 harg5 hc0 hc1 x0 x1 xs0)]
  unfold kernelRun1_B
  dsimp only
  sl_unfold_run_names
  rw [View.canon_cons_unit_zero hz2_1]
  simp only [View.readAt_eq_ld, harg3.read_unread, harg2.read_unread, harg5.read_unread]
  rw [View.ld_unit_zero (S := S2048x64) hz2_1]

theorem sout1_C_eq (c : Dev nD) (i : grid1.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond1_0 i) (hc1 : cond1_1 i) (x0 : Vec F S2048x2048 .bf16) (x1 : Vec F S8192x64 .f32) (xs0 : Vec F S2048x64 .f32) :
    sout1_C_0 c i arg2 harg2 arg3 harg3 arg4 harg4 arg5 harg5 hc0 hc1 x0 x1 xs0 = k1_pay2 (View.ld x1 (rX1 i)) (View.ld x0 rT1) xs0 := by
  unfold sout1_C_0
  rw [View.read_writes_eq_canon _ _ _ (scover1_C_0 c i arg2 harg2 arg3 harg3 arg4 harg4 arg5 harg5 hc0 hc1 x0 x1 xs0)]
  unfold kernelRun1_C
  dsimp only
  sl_unfold_run_names
  rw [View.canon_cons_unit_zero hz2_1]
  simp only [View.readAt_eq_ld, harg3.read_unread, harg2.read_unread, harg5.read_unread]
  rw [View.ld_unit_zero (S := S2048x64) hz2_1]

theorem out1_C_eq (c : Dev nD) (i : grid1.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond1_0 i) (hc1 : cond1_1 i) (x0 : Vec F S2048x2048 .bf16) (x1 : Vec F S8192x64 .f32) (xs0 : Vec F S2048x64 .f32) :
    out1_C_2 c i arg2 harg2 arg3 harg3 arg4 harg4 arg5 harg5 hc0 hc1 x0 x1 xs0 = k1_pay2 (View.ld x1 (rX1 i)) (View.ld x0 rT1) xs0 := by
  unfold out1_C_2
  rw [View.read_writes_eq_canon _ _ _ (cover1_C_2 c i arg2 harg2 arg3 harg3 arg4 harg4 arg5 harg5 hc0 hc1 x0 x1 xs0)]
  unfold kernelRun1_C
  dsimp only
  sl_unfold_run_names
  rw [View.canon_cons_unit_zero hz2_1]
  simp only [View.readAt_eq_ld, harg3.read_unread, harg2.read_unread, harg5.read_unread]
  rw [View.readCov_unit_zero (S := S2048x64) arg5.view hz2_1, View.ld_unit_zero (S := S2048x64) hz2_1]

end Pieces

/-! ## One point's step, read at an index -/

/-- The step at an index: the accumulator plus the block product, the resident operand read at the point's row offset. -/
theorem step1_apply (i : grid1.Coords) (x0 : Vec Ideal S2048x2048 .bf16) (x1 : Vec Ideal S8192x64 .f32) (xs0 : Vec Ideal S2048x64 .f32)
    (o : ℕ) (ho : k1_off1 i = ![o, 0]) (hob : o + 2048 ≤ 8192) (p : Fin 2048) (q : Fin 64) :
    k1_pay2 (View.ld x1 (rX1 i)) (View.ld x0 rT1) xs0 (ix2 p q)
      = xs0 (ix2 p q) + ∑ kk : Fin 2048, x0 (ix2 kk p) * x1 (ix2 (⟨o + kk.val, by omega⟩ : Fin 8192) q) := by
  rw [pay2_apply_1, View.ld_unit_zero (S := S2048x2048) hz2_1]
  refine congrArg (xs0 (ix2 p q) + ·) (Finset.sum_congr rfl fun kk _ => congrArg (x0 (ix2 kk p) * ·) ?_)
  show x1 ((rX1 i).emb (ix2 kk q)) = _
  refine congrArg x1 (funext fun a => Fin.ext ?_)
  match a with
  | ⟨0, _⟩ => show k1_off1 i 0 + 1 * kk.val = o + kk.val; rw [ho]; show o + 1 * kk.val = _; omega
  | ⟨1, _⟩ => show k1_off1 i 1 + 1 * q.val = q.val; rw [ho]; show 0 + 1 * q.val = _; omega

/-! ## The schedule, decided over the sixteen points -/

theorem sched1 : ∀ t : Fin cfg1.N, win1_0.index t (0 : Fin 2) = t.val % 4 ∧ win1_0.index t (1 : Fin 2) = t.val / 4
    ∧ win1_1.index t (0 : Fin 2) = 0 ∧ win1_1.index t (1 : Fin 2) = 0
    ∧ win1_2.index t (0 : Fin 2) = t.val / 4 ∧ win1_2.index t (1 : Fin 2) = 0
    ∧ k1_off1 (grid1.coords t) = ![2048 * (t.val % 4), 0] :=
  (by decide +kernel : ∀ t : Fin grid1.N, _)

section Value

variable (V : (c : Dev nD) → (b : Ref sig .tc) → Buf (Elt Ideal) ((c : Thread nD τ).loc b))

/-- Point (i, b) of the grid. -/
def pt1 (i : Fin 4) (b : ℕ) (hb : b < 4) : Fin cfg1.N := ⟨4 * i.val + b, by have : cfg1.N = 16 := N_1; omega⟩

/-- The Θ block of point (i, b) read at an index. -/
theorem rdT1 (c : Dev nD) (i : Fin 4) (b : ℕ) (hb : b < 4) (p kk : Fin 2048) :
    iblk1 V c 0 (pt1 i b hb) (ix2 kk p) = V c main_v0 (ix2 (row ⟨b, hb⟩ kk) (⟨2048 * i.val + p.val, by omega⟩ : Fin 8192)) := by
  obtain ⟨e0, e1, -, -, -, -, -⟩ := sched1 (pt1 i b hb)
  show V c main_v0 (((cfg1.win 0).blk (pt1 i b hb)).view.emb (ix2 kk p)) = _
  refine congrArg (V c main_v0) (funext fun a => Fin.ext ?_)
  have hv : (pt1 i b hb).val = 4 * i.val + b := rfl
  match a with
  | ⟨0, _⟩ => show win1_0.index (pt1 i b hb) (0 : Fin 2) * 2048 + 1 * kk.val = 2048 * b + kk.val; rw [e0, hv]; omega
  | ⟨1, _⟩ => show win1_0.index (pt1 i b hb) (1 : Fin 2) * 2048 + 1 * p.val = 2048 * i.val + p.val; rw [e1, hv]; omega

/-- The resident operand's block is the whole array. -/
theorem rdZ1 (c : Dev nD) (t : Fin cfg1.N) (r : Fin 8192) (q : Fin 64) :
    iblk1 V c 1 t (ix2 r q) = V c main_v1 (ix2 r q) := by
  obtain ⟨-, -, e2, e3, -, -, -⟩ := sched1 t
  show V c main_v1 (((cfg1.win 1).blk t).view.emb (ix2 r q)) = _
  refine congrArg (V c main_v1) (funext fun a => Fin.ext ?_)
  match a with
  | ⟨0, _⟩ => show win1_1.index t (0 : Fin 2) * 8192 + 1 * r.val = r.val; rw [e2]; omega
  | ⟨1, _⟩ => show win1_1.index t (1 : Fin 2) * 64 + 1 * q.val = q.val; rw [e3]; omega

/-- Block `b`'s contribution to output row `2048 i + p`, column `q`. -/
def term1 (Θ : Vec Ideal S8192x8192 .bf16) (Z : Vec Ideal S8192x64 .f32) (i : Fin 4) (b : Fin 4) (p : Fin 2048) (q : Fin 64) : EReal :=
  ∑ kk : Fin 2048, Θ (ix2 (row b kk) (⟨2048 * i.val + p.val, by omega⟩ : Fin 8192)) * Z (ix2 (row b kk) q)

/-- One step at point (i, b), over any accumulator contents. -/
theorem step1_pt (c : Dev nD) (i : Fin 4) (b : ℕ) (hb : b < 4) (xs0 : Vec Ideal S2048x64 .f32) (p : Fin 2048) (q : Fin 64) :
    k1_pay2 (View.ld (iblk1 V c 1 (pt1 i b hb)) (rX1 (grid1.coords (pt1 i b hb)))) (View.ld (iblk1 V c 0 (pt1 i b hb)) rT1) xs0 (ix2 p q)
      = xs0 (ix2 p q) + term1 (V c main_v0) (V c main_v1) i ⟨b, hb⟩ p q := by
  have ho : k1_off1 (grid1.coords (pt1 i b hb)) = ![2048 * b, 0] := by
    have := (sched1 (pt1 i b hb)).2.2.2.2.2.2
    rw [this]; show ![2048 * ((4 * i.val + b) % 4), 0] = _
    rw [show (4 * i.val + b) % 4 = b from by omega]
  rw [step1_apply _ _ _ _ (2048 * b) ho (by omega) p q]
  refine congrArg (xs0 (ix2 p q) + ·) (Finset.sum_congr rfl fun kk _ => ?_)
  rw [rdT1 V c i b hb p kk, rdZ1 V c (pt1 i b hb) _ q]
  rfl

/-- The accumulator after points (i, 0) … (i, 3). -/
theorem acc1_0 (c : Dev nD) (i : Fin 4) (p : Fin 2048) (q : Fin 64) :
    (outsAt1 V c (4 * i.val + 0) (pt1 i 0 lt4_0_1).isLt).2 (ix2 p q) = 0 + term1 (V c main_v0) (V c main_v1) i 0 p q := by
  have h := outsAt1_A V c (pt1 i 0 lt4_0_1) (by show (4 * i.val + 0) % 4 = 0; omega) (by show ¬(4 * i.val + 0) % 4 = 3; omega)
  rw [show outsAt1 V c (4 * i.val + 0) _ = outsAt1 V c (pt1 i 0 lt4_0_1).val (pt1 i 0 lt4_0_1).isLt from rfl, h]
  dsimp only
  rw [sout1_A_eq]
  refine (step1_pt V c i 0 lt4_0_1 _ p q).trans ?_
  exact congrArg (· + term1 (V c main_v0) (V c main_v1) i 0 p q) (pay1_apply_1 p q)

theorem acc1_1 (c : Dev nD) (i : Fin 4) (p : Fin 2048) (q : Fin 64) :
    (outsAt1 V c (4 * i.val + 1) (pt1 i 1 lt4_1_1).isLt).2 (ix2 p q) = (0 + term1 (V c main_v0) (V c main_v1) i 0 p q) + term1 (V c main_v0) (V c main_v1) i 1 p q := by
  have h := outsAt1_B V c (pt1 i 1 lt4_1_1) (by show ¬(4 * i.val + 1) % 4 = 0; omega) (by show ¬(4 * i.val + 1) % 4 = 3; omega)
  rw [show outsAt1 V c (4 * i.val + 1) _ = outsAt1 V c (pt1 i 1 lt4_1_1).val (pt1 i 1 lt4_1_1).isLt from rfl, h]
  dsimp only
  rw [sout1_B_eq]
  refine (step1_pt V c i 1 lt4_1_1 _ p q).trans ?_
  refine congrArg (· + term1 (V c main_v0) (V c main_v1) i 1 p q) ?_
  exact acc1_0 V c i p q

theorem acc1_2 (c : Dev nD) (i : Fin 4) (p : Fin 2048) (q : Fin 64) :
    (outsAt1 V c (4 * i.val + 2) (pt1 i 2 lt4_2_1).isLt).2 (ix2 p q) = ((0 + term1 (V c main_v0) (V c main_v1) i 0 p q) + term1 (V c main_v0) (V c main_v1) i 1 p q) + term1 (V c main_v0) (V c main_v1) i 2 p q := by
  have h := outsAt1_B V c (pt1 i 2 lt4_2_1) (by show ¬(4 * i.val + 2) % 4 = 0; omega) (by show ¬(4 * i.val + 2) % 4 = 3; omega)
  rw [show outsAt1 V c (4 * i.val + 2) _ = outsAt1 V c (pt1 i 2 lt4_2_1).val (pt1 i 2 lt4_2_1).isLt from rfl, h]
  dsimp only
  rw [sout1_B_eq]
  refine (step1_pt V c i 2 lt4_2_1 _ p q).trans ?_
  refine congrArg (· + term1 (V c main_v0) (V c main_v1) i 2 p q) ?_
  exact acc1_1 V c i p q

/-- What point (i, 3) leaves in the output block. -/
theorem out1_3 (c : Dev nD) (i : Fin 4) (p : Fin 2048) (q : Fin 64) :
    (outsAt1 V c (4 * i.val + 3) (pt1 i 3 lt4_3_1).isLt).1 (ix2 p q)
      = (((0 + term1 (V c main_v0) (V c main_v1) i 0 p q) + term1 (V c main_v0) (V c main_v1) i 1 p q) + term1 (V c main_v0) (V c main_v1) i 2 p q) + term1 (V c main_v0) (V c main_v1) i 3 p q := by
  have h := outsAt1_C V c (pt1 i 3 lt4_3_1) (by show ¬(4 * i.val + 3) % 4 = 0; omega) (by show (4 * i.val + 3) % 4 = 3; omega)
  rw [show outsAt1 V c (4 * i.val + 3) _ = outsAt1 V c (pt1 i 3 lt4_3_1).val (pt1 i 3 lt4_3_1).isLt from rfl, h]
  dsimp only
  rw [out1_C_eq]
  refine (step1_pt V c i 3 lt4_3_1 _ p q).trans ?_
  refine congrArg (· + term1 (V c main_v0) (V c main_v1) i 3 p q) ?_
  exact acc1_2 V c i p q

/-- The specification at row `2048 i + p`. -/
theorem spec1_at (c : Dev nD) (i : Fin 4) (p : Fin 2048) (q : Fin 64) :
    Spec.accT (V c main_v0) (V c main_v1) (ix2 (⟨2048 * i.val + p.val, by omega⟩ : Fin 8192) q)
      = (((0 + term1 (V c main_v0) (V c main_v1) i 0 p q) + term1 (V c main_v0) (V c main_v1) i 1 p q) + term1 (V c main_v0) (V c main_v1) i 2 p q) + term1 (V c main_v0) (V c main_v1) i 3 p q := rfl

/-! ## From the blocks to the array -/

/-- What a writing-back point writes back is its block of the specification. -/
theorem flushed1_eq (c : Dev nD) (t : Fin cfg1.N) (hf : (cfg1.win 2).flush t = true) :
    (dat1 (F := Ideal) V c).flushed 2 t = ((cfg1.win 2).blk t).view.read (Elt Ideal) (Spec.accT (V c main_v0) (V c main_v1)) := by
  have h3 : t.val % 4 = 3 := (flush1_2 t).mp hf
  have hN : t.val < 16 := lt_of_lt_of_eq t.isLt (show cfg1.N = 16 from N_1)
  obtain ⟨i, rfl⟩ : ∃ i : Fin 4, t = pt1 i 3 lt4_3_1 := ⟨⟨t.val / 4, by omega⟩, Fin.ext (by show t.val = 4 * (t.val / 4) + 3; omega)⟩
  show (cfg1.win 2).cut (grid1.coords (pt1 i 3 lt4_3_1)) ((dat1 V c).after 2 (pt1 i 3 lt4_3_1)) = _
  rw [after1_2]
  funext y
  obtain ⟨p, q, rfl⟩ : ∃ (p : Fin 2048) (q : Fin 64), y = ix2 p q := ⟨y 0, y 1, eq_ix2 y⟩
  refine (out1_3 V c i p q).trans ((spec1_at V c i p q).symm.trans ?_)
  rw [View.read_apply]
  have hidx : ((cfg1.win 2).blk (pt1 i 3 lt4_3_1)).view.emb (ix2 p q) = (ix2 (⟨2048 * i.val + p.val, by omega⟩ : Fin 8192) q : S8192x64.Idx) := by
    obtain ⟨-, -, -, -, e4, e5, -⟩ := sched1 (pt1 i 3 lt4_3_1)
    have hv : (pt1 i 3 lt4_3_1).val = 4 * i.val + 3 := rfl
    funext a; apply Fin.ext
    match a with
    | ⟨0, _⟩ => show win1_2.index (pt1 i 3 lt4_3_1) (0 : Fin 2) * 2048 + 1 * p.val = 2048 * i.val + p.val; rw [e4, hv]; omega
    | ⟨1, _⟩ => show win1_2.index (pt1 i 3 lt4_3_1) (1 : Fin 2) * 64 + 1 * q.val = q.val; rw [e5]; omega
  rw [hidx]
  rfl

theorem mem_blk1 (t : Fin cfg1.N) (j : S8192x64.Idx) :
    j ∈ ((cfg1.win 2).blk t).view.set ↔ ∀ a : Fin 2, win1_2.index t a * S2048x64.size a ≤ (j a).val ∧ (j a).val < win1_2.index t a * S2048x64.size a + S2048x64.size a := by
  show j ∈ ((View.whole main_v6).slice (win1_2.rect t)).set ↔ _
  rw [View.set_slice_whole, Rect.mem_set_unit]
  exact Iff.rfl

/-- Every row lies in the output block of its row block's last point. -/
theorem cover1 (j : S8192x64.Idx) : ∃ t : Fin cfg1.N, (cfg1.win 2).flush t = true ∧ j ∈ ((cfg1.win 2).blk t).view.set := by
  have hj0 : (j 0).val < 8192 := (j 0).isLt
  have hj1 : (j 1).val < 64 := (j 1).isLt
  refine ⟨pt1 ⟨(j 0).val / 2048, by omega⟩ 3 lt4_3_1, (flush1_2 _).mpr (by show (4 * ((j 0).val / 2048) + 3) % 4 = 3; omega), ?_⟩
  rw [mem_blk1]
  obtain ⟨-, -, -, -, e4, e5, -⟩ := sched1 (pt1 ⟨(j 0).val / 2048, by omega⟩ 3 lt4_3_1)
  have hv : (pt1 ⟨(j 0).val / 2048, by omega⟩ 3 lt4_3_1).val = 4 * ((j 0).val / 2048) + 3 := rfl
  intro a
  match a with
  | ⟨0, _⟩ => show win1_2.index _ (0 : Fin 2) * 2048 ≤ (j 0).val ∧ (j 0).val < win1_2.index _ (0 : Fin 2) * 2048 + 2048; rw [e4, hv]; omega
  | ⟨1, _⟩ => show win1_2.index _ (1 : Fin 2) * 64 ≤ (j 1).val ∧ (j 1).val < win1_2.index _ (1 : Fin 2) * 64 + 64; rw [e5]; omega

/-- The output array after the region. -/
theorem final1 (c : Dev nD) : (dat1 (F := Ideal) V c).arrAt 2 cfg1.N = Spec.accT (V c main_v0) (V c main_v1) :=
  (dat1 V c).arrAt_eq_of_cover 2 _ (fun t hf => flushed1_eq V c t hf) (cover1)

end Value

end Cert.KernelIdeal.Fr

end
-- ==== Proof.IdealTheta2Value.lean ====
import proofs.«135368_j63153199120588_2_alg».proof.Proof.IdealTheta2
import proofs.«135368_j63153199120588_2_alg».proof.Proof.Spec
import proofs.«135368_j63153199120588_2_alg».proof.Proof.PayloadApply
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Fr

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Spec

/-! # The value of region 2's output

After the four points (i, 0) … (i, 3) the accumulator holds zero plus the four block products in order; point (i, 3)
copies it into output block i, which is then written back. So the output array ends as `Spec.accT` of Θ (as cast)
and the region's second operand, row block by row block. -/

theorem lt4_0_2 : 0 < 4 := by decide
theorem lt4_1_2 : 1 < 4 := by decide
theorem lt4_2_2 : 2 < 4 := by decide
theorem lt4_3_2 : 3 < 4 := by decide

theorem hz2_2 : (![0, 0] : Fin 2 → Nat) = fun _ => 0 := funext fun a => by fin_cases a <;> rfl

/-- The 2048 rows of the resident operand the point reads, and the whole Θ block. -/
abbrev rX2 (i : grid2.Coords) : Rect S8192x64 := Rect.unit (s := S8192x64) (k2_off1 i) S2048x64.size (k2_off1_inb i)
abbrev rT2 : Rect S2048x2048 := Rect.unit (s := S2048x2048) ![0, 0] S2048x2048.size inb_S2048x2048_S2048x2048_0_0

section Pieces
variable {F : FTy → Type} [FloatOps F]

/-- What each case leaves in the accumulator (and case C in the output block): the one payload of the loaded blocks. -/
theorem sout2_A_eq (c : Dev nD) (i : grid2.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : cond2_0 i) (hc1 : ¬cond2_1 i) (x0 : Vec F S2048x2048 .bf16) (x1 : Vec F S8192x64 .f32) :
    sout2_A_0 c i arg2 harg2 arg3 harg3 arg4 harg4 arg5 harg5 hc0 hc1 x0 x1 = k2_pay2 (View.ld x1 (rX2 i)) (View.ld x0 rT2) k2_pay1 := by
  unfold sout2_A_0
  rw [View.read_writes_eq_canon _ _ _ (scover2_A_0 c i arg2 harg2 arg3 harg3 arg4 harg4 arg5 harg5 hc0 hc1 x0 x1)]
  unfold kernelRun2_A
  dsimp only
  sl_unfold_run_names
  rw [View.canon_cons_unit_zero hz2_2]
  simp only [View.readAt_eq_ld, harg3.read_unread, harg2.read_unread]
  rw [View.readCov_unit_zero (S := S2048x64) arg5.view hz2_2]

theorem sout2_B_eq (c : Dev nD) (i : grid2.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond2_0 i) (hc1 : ¬cond2_1 i) (x0 : Vec F S2048x2048 .bf16) (x1 : Vec F S8192x64 .f32) (xs0 : Vec F S2048x64 .f32) :
    sout2_B_0 c i arg2 harg2 arg3 harg3 arg4 harg4 arg5 harg5 hc0 hc1 x0 x1 xs0 = k2_pay2 (View.ld x1 (rX2 i)) (View.ld x0 rT2) xs0 := by
  unfold sout2_B_0
  rw [View.read_writes_eq_canon _ _ _ (scover2_B_0 c i arg2 harg2 arg3 harg3 arg4 harg4 arg5 harg5 hc0 hc1 x0 x1 xs0)]
  unfold kernelRun2_B
  dsimp only
  sl_unfold_run_names
  rw [View.canon_cons_unit_zero hz2_2]
  simp only [View.readAt_eq_ld, harg3.read_unread, harg2.read_unread, harg5.read_unread]
  rw [View.ld_unit_zero (S := S2048x64) hz2_2]

theorem sout2_C_eq (c : Dev nD) (i : grid2.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond2_0 i) (hc1 : cond2_1 i) (x0 : Vec F S2048x2048 .bf16) (x1 : Vec F S8192x64 .f32) (xs0 : Vec F S2048x64 .f32) :
    sout2_C_0 c i arg2 harg2 arg3 harg3 arg4 harg4 arg5 harg5 hc0 hc1 x0 x1 xs0 = k2_pay2 (View.ld x1 (rX2 i)) (View.ld x0 rT2) xs0 := by
  unfold sout2_C_0
  rw [View.read_writes_eq_canon _ _ _ (scover2_C_0 c i arg2 harg2 arg3 harg3 arg4 harg4 arg5 harg5 hc0 hc1 x0 x1 xs0)]
  unfold kernelRun2_C
  dsimp only
  sl_unfold_run_names
  rw [View.canon_cons_unit_zero hz2_2]
  simp only [View.readAt_eq_ld, harg3.read_unread, harg2.read_unread, harg5.read_unread]
  rw [View.ld_unit_zero (S := S2048x64) hz2_2]

theorem out2_C_eq (c : Dev nD) (i : grid2.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond2_0 i) (hc1 : cond2_1 i) (x0 : Vec F S2048x2048 .bf16) (x1 : Vec F S8192x64 .f32) (xs0 : Vec F S2048x64 .f32) :
    out2_C_2 c i arg2 harg2 arg3 harg3 arg4 harg4 arg5 harg5 hc0 hc1 x0 x1 xs0 = k2_pay2 (View.ld x1 (rX2 i)) (View.ld x0 rT2) xs0 := by
  unfold out2_C_2
  rw [View.read_writes_eq_canon _ _ _ (cover2_C_2 c i arg2 harg2 arg3 harg3 arg4 harg4 arg5 harg5 hc0 hc1 x0 x1 xs0)]
  unfold kernelRun2_C
  dsimp only
  sl_unfold_run_names
  rw [View.canon_cons_unit_zero hz2_2]
  simp only [View.readAt_eq_ld, harg3.read_unread, harg2.read_unread, harg5.read_unread]
  rw [View.readCov_unit_zero (S := S2048x64) arg5.view hz2_2, View.ld_unit_zero (S := S2048x64) hz2_2]

end Pieces

/-! ## One point's step, read at an index -/

/-- The step at an index: the accumulator plus the block product, the resident operand read at the point's row offset. -/
theorem step2_apply (i : grid2.Coords) (x0 : Vec Ideal S2048x2048 .bf16) (x1 : Vec Ideal S8192x64 .f32) (xs0 : Vec Ideal S2048x64 .f32)
    (o : ℕ) (ho : k2_off1 i = ![o, 0]) (hob : o + 2048 ≤ 8192) (p : Fin 2048) (q : Fin 64) :
    k2_pay2 (View.ld x1 (rX2 i)) (View.ld x0 rT2) xs0 (ix2 p q)
      = xs0 (ix2 p q) + ∑ kk : Fin 2048, x0 (ix2 kk p) * x1 (ix2 (⟨o + kk.val, by omega⟩ : Fin 8192) q) := by
  rw [pay2_apply_2, View.ld_unit_zero (S := S2048x2048) hz2_2]
  refine congrArg (xs0 (ix2 p q) + ·) (Finset.sum_congr rfl fun kk _ => congrArg (x0 (ix2 kk p) * ·) ?_)
  show x1 ((rX2 i).emb (ix2 kk q)) = _
  refine congrArg x1 (funext fun a => Fin.ext ?_)
  match a with
  | ⟨0, _⟩ => show k2_off1 i 0 + 1 * kk.val = o + kk.val; rw [ho]; show o + 1 * kk.val = _; omega
  | ⟨1, _⟩ => show k2_off1 i 1 + 1 * q.val = q.val; rw [ho]; show 0 + 1 * q.val = _; omega

/-! ## The schedule, decided over the sixteen points -/

theorem sched2 : ∀ t : Fin cfg2.N, win2_0.index t (0 : Fin 2) = t.val % 4 ∧ win2_0.index t (1 : Fin 2) = t.val / 4
    ∧ win2_1.index t (0 : Fin 2) = 0 ∧ win2_1.index t (1 : Fin 2) = 0
    ∧ win2_2.index t (0 : Fin 2) = t.val / 4 ∧ win2_2.index t (1 : Fin 2) = 0
    ∧ k2_off1 (grid2.coords t) = ![2048 * (t.val % 4), 0] :=
  (by decide +kernel : ∀ t : Fin grid2.N, _)

section Value

variable (V : (c : Dev nD) → (b : Ref sig .tc) → Buf (Elt Ideal) ((c : Thread nD τ).loc b))

/-- Point (i, b) of the grid. -/
def pt2 (i : Fin 4) (b : ℕ) (hb : b < 4) : Fin cfg2.N := ⟨4 * i.val + b, by have : cfg2.N = 16 := N_2; omega⟩

/-- The Θ block of point (i, b) read at an index. -/
theorem rdT2 (c : Dev nD) (i : Fin 4) (b : ℕ) (hb : b < 4) (p kk : Fin 2048) :
    iblk2 V c 0 (pt2 i b hb) (ix2 kk p) = V c main_v0 (ix2 (row ⟨b, hb⟩ kk) (⟨2048 * i.val + p.val, by omega⟩ : Fin 8192)) := by
  obtain ⟨e0, e1, -, -, -, -, -⟩ := sched2 (pt2 i b hb)
  show V c main_v0 (((cfg2.win 0).blk (pt2 i b hb)).view.emb (ix2 kk p)) = _
  refine congrArg (V c main_v0) (funext fun a => Fin.ext ?_)
  have hv : (pt2 i b hb).val = 4 * i.val + b := rfl
  match a with
  | ⟨0, _⟩ => show win2_0.index (pt2 i b hb) (0 : Fin 2) * 2048 + 1 * kk.val = 2048 * b + kk.val; rw [e0, hv]; omega
  | ⟨1, _⟩ => show win2_0.index (pt2 i b hb) (1 : Fin 2) * 2048 + 1 * p.val = 2048 * i.val + p.val; rw [e1, hv]; omega

/-- The resident operand's block is the whole array. -/
theorem rdZ2 (c : Dev nD) (t : Fin cfg2.N) (r : Fin 8192) (q : Fin 64) :
    iblk2 V c 1 t (ix2 r q) = V c main_v6 (ix2 r q) := by
  obtain ⟨-, -, e2, e3, -, -, -⟩ := sched2 t
  show V c main_v6 (((cfg2.win 1).blk t).view.emb (ix2 r q)) = _
  refine congrArg (V c main_v6) (funext fun a => Fin.ext ?_)
  match a with
  | ⟨0, _⟩ => show win2_1.index t (0 : Fin 2) * 8192 + 1 * r.val = r.val; rw [e2]; omega
  | ⟨1, _⟩ => show win2_1.index t (1 : Fin 2) * 64 + 1 * q.val = q.val; rw [e3]; omega

/-- Block `b`'s contribution to output row `2048 i + p`, column `q`. -/
def term2 (Θ : Vec Ideal S8192x8192 .bf16) (Z : Vec Ideal S8192x64 .f32) (i : Fin 4) (b : Fin 4) (p : Fin 2048) (q : Fin 64) : EReal :=
  ∑ kk : Fin 2048, Θ (ix2 (row b kk) (⟨2048 * i.val + p.val, by omega⟩ : Fin 8192)) * Z (ix2 (row b kk) q)

/-- One step at point (i, b), over any accumulator contents. -/
theorem step2_pt (c : Dev nD) (i : Fin 4) (b : ℕ) (hb : b < 4) (xs0 : Vec Ideal S2048x64 .f32) (p : Fin 2048) (q : Fin 64) :
    k2_pay2 (View.ld (iblk2 V c 1 (pt2 i b hb)) (rX2 (grid2.coords (pt2 i b hb)))) (View.ld (iblk2 V c 0 (pt2 i b hb)) rT2) xs0 (ix2 p q)
      = xs0 (ix2 p q) + term2 (V c main_v0) (V c main_v6) i ⟨b, hb⟩ p q := by
  have ho : k2_off1 (grid2.coords (pt2 i b hb)) = ![2048 * b, 0] := by
    have := (sched2 (pt2 i b hb)).2.2.2.2.2.2
    rw [this]; show ![2048 * ((4 * i.val + b) % 4), 0] = _
    rw [show (4 * i.val + b) % 4 = b from by omega]
  rw [step2_apply _ _ _ _ (2048 * b) ho (by omega) p q]
  refine congrArg (xs0 (ix2 p q) + ·) (Finset.sum_congr rfl fun kk _ => ?_)
  rw [rdT2 V c i b hb p kk, rdZ2 V c (pt2 i b hb) _ q]
  rfl

/-- The accumulator after points (i, 0) … (i, 3). -/
theorem acc2_0 (c : Dev nD) (i : Fin 4) (p : Fin 2048) (q : Fin 64) :
    (outsAt2 V c (4 * i.val + 0) (pt2 i 0 lt4_0_2).isLt).2 (ix2 p q) = 0 + term2 (V c main_v0) (V c main_v6) i 0 p q := by
  have h := outsAt2_A V c (pt2 i 0 lt4_0_2) (by show (4 * i.val + 0) % 4 = 0; omega) (by show ¬(4 * i.val + 0) % 4 = 3; omega)
  rw [show outsAt2 V c (4 * i.val + 0) _ = outsAt2 V c (pt2 i 0 lt4_0_2).val (pt2 i 0 lt4_0_2).isLt from rfl, h]
  dsimp only
  rw [sout2_A_eq]
  refine (step2_pt V c i 0 lt4_0_2 _ p q).trans ?_
  exact congrArg (· + term2 (V c main_v0) (V c main_v6) i 0 p q) (pay1_apply_2 p q)

theorem acc2_1 (c : Dev nD) (i : Fin 4) (p : Fin 2048) (q : Fin 64) :
    (outsAt2 V c (4 * i.val + 1) (pt2 i 1 lt4_1_2).isLt).2 (ix2 p q) = (0 + term2 (V c main_v0) (V c main_v6) i 0 p q) + term2 (V c main_v0) (V c main_v6) i 1 p q := by
  have h := outsAt2_B V c (pt2 i 1 lt4_1_2) (by show ¬(4 * i.val + 1) % 4 = 0; omega) (by show ¬(4 * i.val + 1) % 4 = 3; omega)
  rw [show outsAt2 V c (4 * i.val + 1) _ = outsAt2 V c (pt2 i 1 lt4_1_2).val (pt2 i 1 lt4_1_2).isLt from rfl, h]
  dsimp only
  rw [sout2_B_eq]
  refine (step2_pt V c i 1 lt4_1_2 _ p q).trans ?_
  refine congrArg (· + term2 (V c main_v0) (V c main_v6) i 1 p q) ?_
  exact acc2_0 V c i p q

theorem acc2_2 (c : Dev nD) (i : Fin 4) (p : Fin 2048) (q : Fin 64) :
    (outsAt2 V c (4 * i.val + 2) (pt2 i 2 lt4_2_2).isLt).2 (ix2 p q) = ((0 + term2 (V c main_v0) (V c main_v6) i 0 p q) + term2 (V c main_v0) (V c main_v6) i 1 p q) + term2 (V c main_v0) (V c main_v6) i 2 p q := by
  have h := outsAt2_B V c (pt2 i 2 lt4_2_2) (by show ¬(4 * i.val + 2) % 4 = 0; omega) (by show ¬(4 * i.val + 2) % 4 = 3; omega)
  rw [show outsAt2 V c (4 * i.val + 2) _ = outsAt2 V c (pt2 i 2 lt4_2_2).val (pt2 i 2 lt4_2_2).isLt from rfl, h]
  dsimp only
  rw [sout2_B_eq]
  refine (step2_pt V c i 2 lt4_2_2 _ p q).trans ?_
  refine congrArg (· + term2 (V c main_v0) (V c main_v6) i 2 p q) ?_
  exact acc2_1 V c i p q

/-- What point (i, 3) leaves in the output block. -/
theorem out2_3 (c : Dev nD) (i : Fin 4) (p : Fin 2048) (q : Fin 64) :
    (outsAt2 V c (4 * i.val + 3) (pt2 i 3 lt4_3_2).isLt).1 (ix2 p q)
      = (((0 + term2 (V c main_v0) (V c main_v6) i 0 p q) + term2 (V c main_v0) (V c main_v6) i 1 p q) + term2 (V c main_v0) (V c main_v6) i 2 p q) + term2 (V c main_v0) (V c main_v6) i 3 p q := by
  have h := outsAt2_C V c (pt2 i 3 lt4_3_2) (by show ¬(4 * i.val + 3) % 4 = 0; omega) (by show (4 * i.val + 3) % 4 = 3; omega)
  rw [show outsAt2 V c (4 * i.val + 3) _ = outsAt2 V c (pt2 i 3 lt4_3_2).val (pt2 i 3 lt4_3_2).isLt from rfl, h]
  dsimp only
  rw [out2_C_eq]
  refine (step2_pt V c i 3 lt4_3_2 _ p q).trans ?_
  refine congrArg (· + term2 (V c main_v0) (V c main_v6) i 3 p q) ?_
  exact acc2_2 V c i p q

/-- The specification at row `2048 i + p`. -/
theorem spec2_at (c : Dev nD) (i : Fin 4) (p : Fin 2048) (q : Fin 64) :
    Spec.accT (V c main_v0) (V c main_v6) (ix2 (⟨2048 * i.val + p.val, by omega⟩ : Fin 8192) q)
      = (((0 + term2 (V c main_v0) (V c main_v6) i 0 p q) + term2 (V c main_v0) (V c main_v6) i 1 p q) + term2 (V c main_v0) (V c main_v6) i 2 p q) + term2 (V c main_v0) (V c main_v6) i 3 p q := rfl

/-! ## From the blocks to the array -/

/-- What a writing-back point writes back is its block of the specification. -/
theorem flushed2_eq (c : Dev nD) (t : Fin cfg2.N) (hf : (cfg2.win 2).flush t = true) :
    (dat2 (F := Ideal) V c).flushed 2 t = ((cfg2.win 2).blk t).view.read (Elt Ideal) (Spec.accT (V c main_v0) (V c main_v6)) := by
  have h3 : t.val % 4 = 3 := (flush2_2 t).mp hf
  have hN : t.val < 16 := lt_of_lt_of_eq t.isLt (show cfg2.N = 16 from N_2)
  obtain ⟨i, rfl⟩ : ∃ i : Fin 4, t = pt2 i 3 lt4_3_2 := ⟨⟨t.val / 4, by omega⟩, Fin.ext (by show t.val = 4 * (t.val / 4) + 3; omega)⟩
  show (cfg2.win 2).cut (grid2.coords (pt2 i 3 lt4_3_2)) ((dat2 V c).after 2 (pt2 i 3 lt4_3_2)) = _
  rw [after2_2]
  funext y
  obtain ⟨p, q, rfl⟩ : ∃ (p : Fin 2048) (q : Fin 64), y = ix2 p q := ⟨y 0, y 1, eq_ix2 y⟩
  refine (out2_3 V c i p q).trans ((spec2_at V c i p q).symm.trans ?_)
  rw [View.read_apply]
  have hidx : ((cfg2.win 2).blk (pt2 i 3 lt4_3_2)).view.emb (ix2 p q) = (ix2 (⟨2048 * i.val + p.val, by omega⟩ : Fin 8192) q : S8192x64.Idx) := by
    obtain ⟨-, -, -, -, e4, e5, -⟩ := sched2 (pt2 i 3 lt4_3_2)
    have hv : (pt2 i 3 lt4_3_2).val = 4 * i.val + 3 := rfl
    funext a; apply Fin.ext
    match a with
    | ⟨0, _⟩ => show win2_2.index (pt2 i 3 lt4_3_2) (0 : Fin 2) * 2048 + 1 * p.val = 2048 * i.val + p.val; rw [e4, hv]; omega
    | ⟨1, _⟩ => show win2_2.index (pt2 i 3 lt4_3_2) (1 : Fin 2) * 64 + 1 * q.val = q.val; rw [e5]; omega
  rw [hidx]
  rfl

theorem mem_blk2 (t : Fin cfg2.N) (j : S8192x64.Idx) :
    j ∈ ((cfg2.win 2).blk t).view.set ↔ ∀ a : Fin 2, win2_2.index t a * S2048x64.size a ≤ (j a).val ∧ (j a).val < win2_2.index t a * S2048x64.size a + S2048x64.size a := by
  show j ∈ ((View.whole main_v12).slice (win2_2.rect t)).set ↔ _
  rw [View.set_slice_whole, Rect.mem_set_unit]
  exact Iff.rfl

/-- Every row lies in the output block of its row block's last point. -/
theorem cover2 (j : S8192x64.Idx) : ∃ t : Fin cfg2.N, (cfg2.win 2).flush t = true ∧ j ∈ ((cfg2.win 2).blk t).view.set := by
  have hj0 : (j 0).val < 8192 := (j 0).isLt
  have hj1 : (j 1).val < 64 := (j 1).isLt
  refine ⟨pt2 ⟨(j 0).val / 2048, by omega⟩ 3 lt4_3_2, (flush2_2 _).mpr (by show (4 * ((j 0).val / 2048) + 3) % 4 = 3; omega), ?_⟩
  rw [mem_blk2]
  obtain ⟨-, -, -, -, e4, e5, -⟩ := sched2 (pt2 ⟨(j 0).val / 2048, by omega⟩ 3 lt4_3_2)
  have hv : (pt2 ⟨(j 0).val / 2048, by omega⟩ 3 lt4_3_2).val = 4 * ((j 0).val / 2048) + 3 := rfl
  intro a
  match a with
  | ⟨0, _⟩ => show win2_2.index _ (0 : Fin 2) * 2048 ≤ (j 0).val ∧ (j 0).val < win2_2.index _ (0 : Fin 2) * 2048 + 2048; rw [e4, hv]; omega
  | ⟨1, _⟩ => show win2_2.index _ (1 : Fin 2) * 64 ≤ (j 1).val ∧ (j 1).val < win2_2.index _ (1 : Fin 2) * 64 + 64; rw [e5]; omega

/-- The output array after the region. -/
theorem final2 (c : Dev nD) : (dat2 (F := Ideal) V c).arrAt 2 cfg2.N = Spec.accT (V c main_v0) (V c main_v6) :=
  (dat2 V c).arrAt_eq_of_cover 2 _ (fun t hf => flushed2_eq V c t hf) (cover2)

end Value

end Cert.KernelIdeal.Fr

end
-- ==== Proof.IdealTheta3Value.lean ====
import proofs.«135368_j63153199120588_2_alg».proof.Proof.IdealTheta3
import proofs.«135368_j63153199120588_2_alg».proof.Proof.Spec
import proofs.«135368_j63153199120588_2_alg».proof.Proof.PayloadApply
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Fr

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Spec

/-! # The value of region 3's output

After the four points (i, 0) … (i, 3) the accumulator holds zero plus the four block products in order; point (i, 3)
copies it into output block i, which is then written back. So the output array ends as `Spec.accN` of Θ (as cast)
and the region's second operand, row block by row block. -/

theorem lt4_0_3 : 0 < 4 := by decide
theorem lt4_1_3 : 1 < 4 := by decide
theorem lt4_2_3 : 2 < 4 := by decide
theorem lt4_3_3 : 3 < 4 := by decide

theorem hz2_3 : (![0, 0] : Fin 2 → Nat) = fun _ => 0 := funext fun a => by fin_cases a <;> rfl

/-- The 2048 rows of the resident operand the point reads, and the whole Θ block. -/
abbrev rX3 (i : grid3.Coords) : Rect S8192x64 := Rect.unit (s := S8192x64) (k3_off1 i) S2048x64.size (k3_off1_inb i)
abbrev rT3 : Rect S2048x2048 := Rect.unit (s := S2048x2048) ![0, 0] S2048x2048.size inb_S2048x2048_S2048x2048_0_0

section Pieces
variable {F : FTy → Type} [FloatOps F]

/-- What each case leaves in the accumulator (and case C in the output block): the one payload of the loaded blocks. -/
theorem sout3_A_eq (c : Dev nD) (i : grid3.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : cond3_0 i) (hc1 : ¬cond3_1 i) (x0 : Vec F S2048x2048 .bf16) (x1 : Vec F S8192x64 .f32) :
    sout3_A_0 c i arg2 harg2 arg3 harg3 arg4 harg4 arg5 harg5 hc0 hc1 x0 x1 = k3_pay2 (View.ld x1 (rX3 i)) (View.ld x0 rT3) k3_pay1 := by
  unfold sout3_A_0
  rw [View.read_writes_eq_canon _ _ _ (scover3_A_0 c i arg2 harg2 arg3 harg3 arg4 harg4 arg5 harg5 hc0 hc1 x0 x1)]
  unfold kernelRun3_A
  dsimp only
  sl_unfold_run_names
  rw [View.canon_cons_unit_zero hz2_3]
  simp only [View.readAt_eq_ld, harg3.read_unread, harg2.read_unread]
  rw [View.readCov_unit_zero (S := S2048x64) arg5.view hz2_3]

theorem sout3_B_eq (c : Dev nD) (i : grid3.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond3_0 i) (hc1 : ¬cond3_1 i) (x0 : Vec F S2048x2048 .bf16) (x1 : Vec F S8192x64 .f32) (xs0 : Vec F S2048x64 .f32) :
    sout3_B_0 c i arg2 harg2 arg3 harg3 arg4 harg4 arg5 harg5 hc0 hc1 x0 x1 xs0 = k3_pay2 (View.ld x1 (rX3 i)) (View.ld x0 rT3) xs0 := by
  unfold sout3_B_0
  rw [View.read_writes_eq_canon _ _ _ (scover3_B_0 c i arg2 harg2 arg3 harg3 arg4 harg4 arg5 harg5 hc0 hc1 x0 x1 xs0)]
  unfold kernelRun3_B
  dsimp only
  sl_unfold_run_names
  rw [View.canon_cons_unit_zero hz2_3]
  simp only [View.readAt_eq_ld, harg3.read_unread, harg2.read_unread, harg5.read_unread]
  rw [View.ld_unit_zero (S := S2048x64) hz2_3]

theorem sout3_C_eq (c : Dev nD) (i : grid3.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond3_0 i) (hc1 : cond3_1 i) (x0 : Vec F S2048x2048 .bf16) (x1 : Vec F S8192x64 .f32) (xs0 : Vec F S2048x64 .f32) :
    sout3_C_0 c i arg2 harg2 arg3 harg3 arg4 harg4 arg5 harg5 hc0 hc1 x0 x1 xs0 = k3_pay2 (View.ld x1 (rX3 i)) (View.ld x0 rT3) xs0 := by
  unfold sout3_C_0
  rw [View.read_writes_eq_canon _ _ _ (scover3_C_0 c i arg2 harg2 arg3 harg3 arg4 harg4 arg5 harg5 hc0 hc1 x0 x1 xs0)]
  unfold kernelRun3_C
  dsimp only
  sl_unfold_run_names
  rw [View.canon_cons_unit_zero hz2_3]
  simp only [View.readAt_eq_ld, harg3.read_unread, harg2.read_unread, harg5.read_unread]
  rw [View.ld_unit_zero (S := S2048x64) hz2_3]

theorem out3_C_eq (c : Dev nD) (i : grid3.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond3_0 i) (hc1 : cond3_1 i) (x0 : Vec F S2048x2048 .bf16) (x1 : Vec F S8192x64 .f32) (xs0 : Vec F S2048x64 .f32) :
    out3_C_2 c i arg2 harg2 arg3 harg3 arg4 harg4 arg5 harg5 hc0 hc1 x0 x1 xs0 = k3_pay2 (View.ld x1 (rX3 i)) (View.ld x0 rT3) xs0 := by
  unfold out3_C_2
  rw [View.read_writes_eq_canon _ _ _ (cover3_C_2 c i arg2 harg2 arg3 harg3 arg4 harg4 arg5 harg5 hc0 hc1 x0 x1 xs0)]
  unfold kernelRun3_C
  dsimp only
  sl_unfold_run_names
  rw [View.canon_cons_unit_zero hz2_3]
  simp only [View.readAt_eq_ld, harg3.read_unread, harg2.read_unread, harg5.read_unread]
  rw [View.readCov_unit_zero (S := S2048x64) arg5.view hz2_3, View.ld_unit_zero (S := S2048x64) hz2_3]

end Pieces

/-! ## One point's step, read at an index -/

/-- The step at an index: the accumulator plus the block product, the resident operand read at the point's row offset. -/
theorem step3_apply (i : grid3.Coords) (x0 : Vec Ideal S2048x2048 .bf16) (x1 : Vec Ideal S8192x64 .f32) (xs0 : Vec Ideal S2048x64 .f32)
    (o : ℕ) (ho : k3_off1 i = ![o, 0]) (hob : o + 2048 ≤ 8192) (p : Fin 2048) (q : Fin 64) :
    k3_pay2 (View.ld x1 (rX3 i)) (View.ld x0 rT3) xs0 (ix2 p q)
      = xs0 (ix2 p q) + ∑ kk : Fin 2048, x0 (ix2 p kk) * x1 (ix2 (⟨o + kk.val, by omega⟩ : Fin 8192) q) := by
  rw [pay2_apply_3, View.ld_unit_zero (S := S2048x2048) hz2_3]
  refine congrArg (xs0 (ix2 p q) + ·) (Finset.sum_congr rfl fun kk _ => congrArg (x0 (ix2 p kk) * ·) ?_)
  show x1 ((rX3 i).emb (ix2 kk q)) = _
  refine congrArg x1 (funext fun a => Fin.ext ?_)
  match a with
  | ⟨0, _⟩ => show k3_off1 i 0 + 1 * kk.val = o + kk.val; rw [ho]; show o + 1 * kk.val = _; omega
  | ⟨1, _⟩ => show k3_off1 i 1 + 1 * q.val = q.val; rw [ho]; show 0 + 1 * q.val = _; omega

/-! ## The schedule, decided over the sixteen points -/

theorem sched3 : ∀ t : Fin cfg3.N, win3_0.index t (0 : Fin 2) = t.val / 4 ∧ win3_0.index t (1 : Fin 2) = t.val % 4
    ∧ win3_1.index t (0 : Fin 2) = 0 ∧ win3_1.index t (1 : Fin 2) = 0
    ∧ win3_2.index t (0 : Fin 2) = t.val / 4 ∧ win3_2.index t (1 : Fin 2) = 0
    ∧ k3_off1 (grid3.coords t) = ![2048 * (t.val % 4), 0] :=
  (by decide +kernel : ∀ t : Fin grid3.N, _)

section Value

variable (V : (c : Dev nD) → (b : Ref sig .tc) → Buf (Elt Ideal) ((c : Thread nD τ).loc b))

/-- Point (i, b) of the grid. -/
def pt3 (i : Fin 4) (b : ℕ) (hb : b < 4) : Fin cfg3.N := ⟨4 * i.val + b, by have : cfg3.N = 16 := N_3; omega⟩

/-- The Θ block of point (i, b) read at an index. -/
theorem rdT3 (c : Dev nD) (i : Fin 4) (b : ℕ) (hb : b < 4) (p kk : Fin 2048) :
    iblk3 V c 0 (pt3 i b hb) (ix2 p kk) = V c main_v0 (ix2 (⟨2048 * i.val + p.val, by omega⟩ : Fin 8192) (row ⟨b, hb⟩ kk)) := by
  obtain ⟨e0, e1, -, -, -, -, -⟩ := sched3 (pt3 i b hb)
  show V c main_v0 (((cfg3.win 0).blk (pt3 i b hb)).view.emb (ix2 p kk)) = _
  refine congrArg (V c main_v0) (funext fun a => Fin.ext ?_)
  have hv : (pt3 i b hb).val = 4 * i.val + b := rfl
  match a with
  | ⟨0, _⟩ => show win3_0.index (pt3 i b hb) (0 : Fin 2) * 2048 + 1 * p.val = 2048 * i.val + p.val; rw [e0, hv]; omega
  | ⟨1, _⟩ => show win3_0.index (pt3 i b hb) (1 : Fin 2) * 2048 + 1 * kk.val = 2048 * b + kk.val; rw [e1, hv]; omega

/-- The resident operand's block is the whole array. -/
theorem rdZ3 (c : Dev nD) (t : Fin cfg3.N) (r : Fin 8192) (q : Fin 64) :
    iblk3 V c 1 t (ix2 r q) = V c main_v20 (ix2 r q) := by
  obtain ⟨-, -, e2, e3, -, -, -⟩ := sched3 t
  show V c main_v20 (((cfg3.win 1).blk t).view.emb (ix2 r q)) = _
  refine congrArg (V c main_v20) (funext fun a => Fin.ext ?_)
  match a with
  | ⟨0, _⟩ => show win3_1.index t (0 : Fin 2) * 8192 + 1 * r.val = r.val; rw [e2]; omega
  | ⟨1, _⟩ => show win3_1.index t (1 : Fin 2) * 64 + 1 * q.val = q.val; rw [e3]; omega

/-- Block `b`'s contribution to output row `2048 i + p`, column `q`. -/
def term3 (Θ : Vec Ideal S8192x8192 .bf16) (Z : Vec Ideal S8192x64 .f32) (i : Fin 4) (b : Fin 4) (p : Fin 2048) (q : Fin 64) : EReal :=
  ∑ kk : Fin 2048, Θ (ix2 (⟨2048 * i.val + p.val, by omega⟩ : Fin 8192) (row b kk)) * Z (ix2 (row b kk) q)

/-- One step at point (i, b), over any accumulator contents. -/
theorem step3_pt (c : Dev nD) (i : Fin 4) (b : ℕ) (hb : b < 4) (xs0 : Vec Ideal S2048x64 .f32) (p : Fin 2048) (q : Fin 64) :
    k3_pay2 (View.ld (iblk3 V c 1 (pt3 i b hb)) (rX3 (grid3.coords (pt3 i b hb)))) (View.ld (iblk3 V c 0 (pt3 i b hb)) rT3) xs0 (ix2 p q)
      = xs0 (ix2 p q) + term3 (V c main_v0) (V c main_v20) i ⟨b, hb⟩ p q := by
  have ho : k3_off1 (grid3.coords (pt3 i b hb)) = ![2048 * b, 0] := by
    have := (sched3 (pt3 i b hb)).2.2.2.2.2.2
    rw [this]; show ![2048 * ((4 * i.val + b) % 4), 0] = _
    rw [show (4 * i.val + b) % 4 = b from by omega]
  rw [step3_apply _ _ _ _ (2048 * b) ho (by omega) p q]
  refine congrArg (xs0 (ix2 p q) + ·) (Finset.sum_congr rfl fun kk _ => ?_)
  rw [rdT3 V c i b hb p kk, rdZ3 V c (pt3 i b hb) _ q]
  rfl

/-- The accumulator after points (i, 0) … (i, 3). -/
theorem acc3_0 (c : Dev nD) (i : Fin 4) (p : Fin 2048) (q : Fin 64) :
    (outsAt3 V c (4 * i.val + 0) (pt3 i 0 lt4_0_3).isLt).2 (ix2 p q) = 0 + term3 (V c main_v0) (V c main_v20) i 0 p q := by
  have h := outsAt3_A V c (pt3 i 0 lt4_0_3) (by show (4 * i.val + 0) % 4 = 0; omega) (by show ¬(4 * i.val + 0) % 4 = 3; omega)
  rw [show outsAt3 V c (4 * i.val + 0) _ = outsAt3 V c (pt3 i 0 lt4_0_3).val (pt3 i 0 lt4_0_3).isLt from rfl, h]
  dsimp only
  rw [sout3_A_eq]
  refine (step3_pt V c i 0 lt4_0_3 _ p q).trans ?_
  exact congrArg (· + term3 (V c main_v0) (V c main_v20) i 0 p q) (pay1_apply_3 p q)

theorem acc3_1 (c : Dev nD) (i : Fin 4) (p : Fin 2048) (q : Fin 64) :
    (outsAt3 V c (4 * i.val + 1) (pt3 i 1 lt4_1_3).isLt).2 (ix2 p q) = (0 + term3 (V c main_v0) (V c main_v20) i 0 p q) + term3 (V c main_v0) (V c main_v20) i 1 p q := by
  have h := outsAt3_B V c (pt3 i 1 lt4_1_3) (by show ¬(4 * i.val + 1) % 4 = 0; omega) (by show ¬(4 * i.val + 1) % 4 = 3; omega)
  rw [show outsAt3 V c (4 * i.val + 1) _ = outsAt3 V c (pt3 i 1 lt4_1_3).val (pt3 i 1 lt4_1_3).isLt from rfl, h]
  dsimp only
  rw [sout3_B_eq]
  refine (step3_pt V c i 1 lt4_1_3 _ p q).trans ?_
  refine congrArg (· + term3 (V c main_v0) (V c main_v20) i 1 p q) ?_
  exact acc3_0 V c i p q

theorem acc3_2 (c : Dev nD) (i : Fin 4) (p : Fin 2048) (q : Fin 64) :
    (outsAt3 V c (4 * i.val + 2) (pt3 i 2 lt4_2_3).isLt).2 (ix2 p q) = ((0 + term3 (V c main_v0) (V c main_v20) i 0 p q) + term3 (V c main_v0) (V c main_v20) i 1 p q) + term3 (V c main_v0) (V c main_v20) i 2 p q := by
  have h := outsAt3_B V c (pt3 i 2 lt4_2_3) (by show ¬(4 * i.val + 2) % 4 = 0; omega) (by show ¬(4 * i.val + 2) % 4 = 3; omega)
  rw [show outsAt3 V c (4 * i.val + 2) _ = outsAt3 V c (pt3 i 2 lt4_2_3).val (pt3 i 2 lt4_2_3).isLt from rfl, h]
  dsimp only
  rw [sout3_B_eq]
  refine (step3_pt V c i 2 lt4_2_3 _ p q).trans ?_
  refine congrArg (· + term3 (V c main_v0) (V c main_v20) i 2 p q) ?_
  exact acc3_1 V c i p q

/-- What point (i, 3) leaves in the output block. -/
theorem out3_3 (c : Dev nD) (i : Fin 4) (p : Fin 2048) (q : Fin 64) :
    (outsAt3 V c (4 * i.val + 3) (pt3 i 3 lt4_3_3).isLt).1 (ix2 p q)
      = (((0 + term3 (V c main_v0) (V c main_v20) i 0 p q) + term3 (V c main_v0) (V c main_v20) i 1 p q) + term3 (V c main_v0) (V c main_v20) i 2 p q) + term3 (V c main_v0) (V c main_v20) i 3 p q := by
  have h := outsAt3_C V c (pt3 i 3 lt4_3_3) (by show ¬(4 * i.val + 3) % 4 = 0; omega) (by show (4 * i.val + 3) % 4 = 3; omega)
  rw [show outsAt3 V c (4 * i.val + 3) _ = outsAt3 V c (pt3 i 3 lt4_3_3).val (pt3 i 3 lt4_3_3).isLt from rfl, h]
  dsimp only
  rw [out3_C_eq]
  refine (step3_pt V c i 3 lt4_3_3 _ p q).trans ?_
  refine congrArg (· + term3 (V c main_v0) (V c main_v20) i 3 p q) ?_
  exact acc3_2 V c i p q

/-- The specification at row `2048 i + p`. -/
theorem spec3_at (c : Dev nD) (i : Fin 4) (p : Fin 2048) (q : Fin 64) :
    Spec.accN (V c main_v0) (V c main_v20) (ix2 (⟨2048 * i.val + p.val, by omega⟩ : Fin 8192) q)
      = (((0 + term3 (V c main_v0) (V c main_v20) i 0 p q) + term3 (V c main_v0) (V c main_v20) i 1 p q) + term3 (V c main_v0) (V c main_v20) i 2 p q) + term3 (V c main_v0) (V c main_v20) i 3 p q := rfl

/-! ## From the blocks to the array -/

/-- What a writing-back point writes back is its block of the specification. -/
theorem flushed3_eq (c : Dev nD) (t : Fin cfg3.N) (hf : (cfg3.win 2).flush t = true) :
    (dat3 (F := Ideal) V c).flushed 2 t = ((cfg3.win 2).blk t).view.read (Elt Ideal) (Spec.accN (V c main_v0) (V c main_v20)) := by
  have h3 : t.val % 4 = 3 := (flush3_2 t).mp hf
  have hN : t.val < 16 := lt_of_lt_of_eq t.isLt (show cfg3.N = 16 from N_3)
  obtain ⟨i, rfl⟩ : ∃ i : Fin 4, t = pt3 i 3 lt4_3_3 := ⟨⟨t.val / 4, by omega⟩, Fin.ext (by show t.val = 4 * (t.val / 4) + 3; omega)⟩
  show (cfg3.win 2).cut (grid3.coords (pt3 i 3 lt4_3_3)) ((dat3 V c).after 2 (pt3 i 3 lt4_3_3)) = _
  rw [after3_2]
  funext y
  obtain ⟨p, q, rfl⟩ : ∃ (p : Fin 2048) (q : Fin 64), y = ix2 p q := ⟨y 0, y 1, eq_ix2 y⟩
  refine (out3_3 V c i p q).trans ((spec3_at V c i p q).symm.trans ?_)
  rw [View.read_apply]
  have hidx : ((cfg3.win 2).blk (pt3 i 3 lt4_3_3)).view.emb (ix2 p q) = (ix2 (⟨2048 * i.val + p.val, by omega⟩ : Fin 8192) q : S8192x64.Idx) := by
    obtain ⟨-, -, -, -, e4, e5, -⟩ := sched3 (pt3 i 3 lt4_3_3)
    have hv : (pt3 i 3 lt4_3_3).val = 4 * i.val + 3 := rfl
    funext a; apply Fin.ext
    match a with
    | ⟨0, _⟩ => show win3_2.index (pt3 i 3 lt4_3_3) (0 : Fin 2) * 2048 + 1 * p.val = 2048 * i.val + p.val; rw [e4, hv]; omega
    | ⟨1, _⟩ => show win3_2.index (pt3 i 3 lt4_3_3) (1 : Fin 2) * 64 + 1 * q.val = q.val; rw [e5]; omega
  rw [hidx]
  rfl

theorem mem_blk3 (t : Fin cfg3.N) (j : S8192x64.Idx) :
    j ∈ ((cfg3.win 2).blk t).view.set ↔ ∀ a : Fin 2, win3_2.index t a * S2048x64.size a ≤ (j a).val ∧ (j a).val < win3_2.index t a * S2048x64.size a + S2048x64.size a := by
  show j ∈ ((View.whole main_v25).slice (win3_2.rect t)).set ↔ _
  rw [View.set_slice_whole, Rect.mem_set_unit]
  exact Iff.rfl

/-- Every row lies in the output block of its row block's last point. -/
theorem cover3 (j : S8192x64.Idx) : ∃ t : Fin cfg3.N, (cfg3.win 2).flush t = true ∧ j ∈ ((cfg3.win 2).blk t).view.set := by
  have hj0 : (j 0).val < 8192 := (j 0).isLt
  have hj1 : (j 1).val < 64 := (j 1).isLt
  refine ⟨pt3 ⟨(j 0).val / 2048, by omega⟩ 3 lt4_3_3, (flush3_2 _).mpr (by show (4 * ((j 0).val / 2048) + 3) % 4 = 3; omega), ?_⟩
  rw [mem_blk3]
  obtain ⟨-, -, -, -, e4, e5, -⟩ := sched3 (pt3 ⟨(j 0).val / 2048, by omega⟩ 3 lt4_3_3)
  have hv : (pt3 ⟨(j 0).val / 2048, by omega⟩ 3 lt4_3_3).val = 4 * ((j 0).val / 2048) + 3 := rfl
  intro a
  match a with
  | ⟨0, _⟩ => show win3_2.index _ (0 : Fin 2) * 2048 ≤ (j 0).val ∧ (j 0).val < win3_2.index _ (0 : Fin 2) * 2048 + 2048; rw [e4, hv]; omega
  | ⟨1, _⟩ => show win3_2.index _ (1 : Fin 2) * 64 ≤ (j 1).val ∧ (j 1).val < win3_2.index _ (1 : Fin 2) * 64 + 64; rw [e5]; omega

/-- The output array after the region. -/
theorem final3 (c : Dev nD) : (dat3 (F := Ideal) V c).arrAt 2 cfg3.N = Spec.accN (V c main_v0) (V c main_v20) :=
  (dat3 V c).arrAt_eq_of_cover 2 _ (fun t hf => flushed3_eq V c t hf) (cover3)

end Value

end Cert.KernelIdeal.Fr

end
-- ==== Proof.IdealTheta4Value.lean ====
import proofs.«135368_j63153199120588_2_alg».proof.Proof.IdealTheta4
import proofs.«135368_j63153199120588_2_alg».proof.Proof.Spec
import proofs.«135368_j63153199120588_2_alg».proof.Proof.PayloadApply
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Fr

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Spec

/-! # The value of region 4's output

After the four points (i, 0) … (i, 3) the accumulator holds zero plus the four block products in order; point (i, 3)
copies it into output block i, which is then written back. So the output array ends as `Spec.accN` of Θ (as cast)
and the region's second operand, row block by row block. -/

theorem lt4_0_4 : 0 < 4 := by decide
theorem lt4_1_4 : 1 < 4 := by decide
theorem lt4_2_4 : 2 < 4 := by decide
theorem lt4_3_4 : 3 < 4 := by decide

theorem hz2_4 : (![0, 0] : Fin 2 → Nat) = fun _ => 0 := funext fun a => by fin_cases a <;> rfl

/-- The 2048 rows of the resident operand the point reads, and the whole Θ block. -/
abbrev rX4 (i : grid4.Coords) : Rect S8192x64 := Rect.unit (s := S8192x64) (k4_off1 i) S2048x64.size (k4_off1_inb i)
abbrev rT4 : Rect S2048x2048 := Rect.unit (s := S2048x2048) ![0, 0] S2048x2048.size inb_S2048x2048_S2048x2048_0_0

section Pieces
variable {F : FTy → Type} [FloatOps F]

/-- What each case leaves in the accumulator (and case C in the output block): the one payload of the loaded blocks. -/
theorem sout4_A_eq (c : Dev nD) (i : grid4.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : cond4_0 i) (hc1 : ¬cond4_1 i) (x0 : Vec F S2048x2048 .bf16) (x1 : Vec F S8192x64 .f32) :
    sout4_A_0 c i arg2 harg2 arg3 harg3 arg4 harg4 arg5 harg5 hc0 hc1 x0 x1 = k4_pay2 (View.ld x1 (rX4 i)) (View.ld x0 rT4) k4_pay1 := by
  unfold sout4_A_0
  rw [View.read_writes_eq_canon _ _ _ (scover4_A_0 c i arg2 harg2 arg3 harg3 arg4 harg4 arg5 harg5 hc0 hc1 x0 x1)]
  unfold kernelRun4_A
  dsimp only
  sl_unfold_run_names
  rw [View.canon_cons_unit_zero hz2_4]
  simp only [View.readAt_eq_ld, harg3.read_unread, harg2.read_unread]
  rw [View.readCov_unit_zero (S := S2048x64) arg5.view hz2_4]

theorem sout4_B_eq (c : Dev nD) (i : grid4.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond4_0 i) (hc1 : ¬cond4_1 i) (x0 : Vec F S2048x2048 .bf16) (x1 : Vec F S8192x64 .f32) (xs0 : Vec F S2048x64 .f32) :
    sout4_B_0 c i arg2 harg2 arg3 harg3 arg4 harg4 arg5 harg5 hc0 hc1 x0 x1 xs0 = k4_pay2 (View.ld x1 (rX4 i)) (View.ld x0 rT4) xs0 := by
  unfold sout4_B_0
  rw [View.read_writes_eq_canon _ _ _ (scover4_B_0 c i arg2 harg2 arg3 harg3 arg4 harg4 arg5 harg5 hc0 hc1 x0 x1 xs0)]
  unfold kernelRun4_B
  dsimp only
  sl_unfold_run_names
  rw [View.canon_cons_unit_zero hz2_4]
  simp only [View.readAt_eq_ld, harg3.read_unread, harg2.read_unread, harg5.read_unread]
  rw [View.ld_unit_zero (S := S2048x64) hz2_4]

theorem sout4_C_eq (c : Dev nD) (i : grid4.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond4_0 i) (hc1 : cond4_1 i) (x0 : Vec F S2048x2048 .bf16) (x1 : Vec F S8192x64 .f32) (xs0 : Vec F S2048x64 .f32) :
    sout4_C_0 c i arg2 harg2 arg3 harg3 arg4 harg4 arg5 harg5 hc0 hc1 x0 x1 xs0 = k4_pay2 (View.ld x1 (rX4 i)) (View.ld x0 rT4) xs0 := by
  unfold sout4_C_0
  rw [View.read_writes_eq_canon _ _ _ (scover4_C_0 c i arg2 harg2 arg3 harg3 arg4 harg4 arg5 harg5 hc0 hc1 x0 x1 xs0)]
  unfold kernelRun4_C
  dsimp only
  sl_unfold_run_names
  rw [View.canon_cons_unit_zero hz2_4]
  simp only [View.readAt_eq_ld, harg3.read_unread, harg2.read_unread, harg5.read_unread]
  rw [View.ld_unit_zero (S := S2048x64) hz2_4]

theorem out4_C_eq (c : Dev nD) (i : grid4.Coords) (arg2 : Memref sig .tc .vmem S2048x2048 .bf16) (harg2 : arg2.IsWhole) (arg3 : Memref sig .tc .vmem S8192x64 .f32) (harg3 : arg3.IsWhole) (arg4 : Memref sig .tc .vmem S2048x64 .f32) (harg4 : arg4.IsWhole) (arg5 : Memref sig .tc .vmem S2048x64 .f32) (harg5 : arg5.IsWhole) (hc0 : ¬cond4_0 i) (hc1 : cond4_1 i) (x0 : Vec F S2048x2048 .bf16) (x1 : Vec F S8192x64 .f32) (xs0 : Vec F S2048x64 .f32) :
    out4_C_2 c i arg2 harg2 arg3 harg3 arg4 harg4 arg5 harg5 hc0 hc1 x0 x1 xs0 = k4_pay2 (View.ld x1 (rX4 i)) (View.ld x0 rT4) xs0 := by
  unfold out4_C_2
  rw [View.read_writes_eq_canon _ _ _ (cover4_C_2 c i arg2 harg2 arg3 harg3 arg4 harg4 arg5 harg5 hc0 hc1 x0 x1 xs0)]
  unfold kernelRun4_C
  dsimp only
  sl_unfold_run_names
  rw [View.canon_cons_unit_zero hz2_4]
  simp only [View.readAt_eq_ld, harg3.read_unread, harg2.read_unread, harg5.read_unread]
  rw [View.readCov_unit_zero (S := S2048x64) arg5.view hz2_4, View.ld_unit_zero (S := S2048x64) hz2_4]

end Pieces

/-! ## One point's step, read at an index -/

/-- The step at an index: the accumulator plus the block product, the resident operand read at the point's row offset. -/
theorem step4_apply (i : grid4.Coords) (x0 : Vec Ideal S2048x2048 .bf16) (x1 : Vec Ideal S8192x64 .f32) (xs0 : Vec Ideal S2048x64 .f32)
    (o : ℕ) (ho : k4_off1 i = ![o, 0]) (hob : o + 2048 ≤ 8192) (p : Fin 2048) (q : Fin 64) :
    k4_pay2 (View.ld x1 (rX4 i)) (View.ld x0 rT4) xs0 (ix2 p q)
      = xs0 (ix2 p q) + ∑ kk : Fin 2048, x0 (ix2 p kk) * x1 (ix2 (⟨o + kk.val, by omega⟩ : Fin 8192) q) := by
  rw [pay2_apply_4, View.ld_unit_zero (S := S2048x2048) hz2_4]
  refine congrArg (xs0 (ix2 p q) + ·) (Finset.sum_congr rfl fun kk _ => congrArg (x0 (ix2 p kk) * ·) ?_)
  show x1 ((rX4 i).emb (ix2 kk q)) = _
  refine congrArg x1 (funext fun a => Fin.ext ?_)
  match a with
  | ⟨0, _⟩ => show k4_off1 i 0 + 1 * kk.val = o + kk.val; rw [ho]; show o + 1 * kk.val = _; omega
  | ⟨1, _⟩ => show k4_off1 i 1 + 1 * q.val = q.val; rw [ho]; show 0 + 1 * q.val = _; omega

/-! ## The schedule, decided over the sixteen points -/

theorem sched4 : ∀ t : Fin cfg4.N, win4_0.index t (0 : Fin 2) = t.val / 4 ∧ win4_0.index t (1 : Fin 2) = t.val % 4
    ∧ win4_1.index t (0 : Fin 2) = 0 ∧ win4_1.index t (1 : Fin 2) = 0
    ∧ win4_2.index t (0 : Fin 2) = t.val / 4 ∧ win4_2.index t (1 : Fin 2) = 0
    ∧ k4_off1 (grid4.coords t) = ![2048 * (t.val % 4), 0] :=
  (by decide +kernel : ∀ t : Fin grid4.N, _)

section Value

variable (V : (c : Dev nD) → (b : Ref sig .tc) → Buf (Elt Ideal) ((c : Thread nD τ).loc b))

/-- Point (i, b) of the grid. -/
def pt4 (i : Fin 4) (b : ℕ) (hb : b < 4) : Fin cfg4.N := ⟨4 * i.val + b, by have : cfg4.N = 16 := N_4; omega⟩

/-- The Θ block of point (i, b) read at an index. -/
theorem rdT4 (c : Dev nD) (i : Fin 4) (b : ℕ) (hb : b < 4) (p kk : Fin 2048) :
    iblk4 V c 0 (pt4 i b hb) (ix2 p kk) = V c main_v0 (ix2 (⟨2048 * i.val + p.val, by omega⟩ : Fin 8192) (row ⟨b, hb⟩ kk)) := by
  obtain ⟨e0, e1, -, -, -, -, -⟩ := sched4 (pt4 i b hb)
  show V c main_v0 (((cfg4.win 0).blk (pt4 i b hb)).view.emb (ix2 p kk)) = _
  refine congrArg (V c main_v0) (funext fun a => Fin.ext ?_)
  have hv : (pt4 i b hb).val = 4 * i.val + b := rfl
  match a with
  | ⟨0, _⟩ => show win4_0.index (pt4 i b hb) (0 : Fin 2) * 2048 + 1 * p.val = 2048 * i.val + p.val; rw [e0, hv]; omega
  | ⟨1, _⟩ => show win4_0.index (pt4 i b hb) (1 : Fin 2) * 2048 + 1 * kk.val = 2048 * b + kk.val; rw [e1, hv]; omega

/-- The resident operand's block is the whole array. -/
theorem rdZ4 (c : Dev nD) (t : Fin cfg4.N) (r : Fin 8192) (q : Fin 64) :
    iblk4 V c 1 t (ix2 r q) = V c main_v25 (ix2 r q) := by
  obtain ⟨-, -, e2, e3, -, -, -⟩ := sched4 t
  show V c main_v25 (((cfg4.win 1).blk t).view.emb (ix2 r q)) = _
  refine congrArg (V c main_v25) (funext fun a => Fin.ext ?_)
  match a with
  | ⟨0, _⟩ => show win4_1.index t (0 : Fin 2) * 8192 + 1 * r.val = r.val; rw [e2]; omega
  | ⟨1, _⟩ => show win4_1.index t (1 : Fin 2) * 64 + 1 * q.val = q.val; rw [e3]; omega

/-- Block `b`'s contribution to output row `2048 i + p`, column `q`. -/
def term4 (Θ : Vec Ideal S8192x8192 .bf16) (Z : Vec Ideal S8192x64 .f32) (i : Fin 4) (b : Fin 4) (p : Fin 2048) (q : Fin 64) : EReal :=
  ∑ kk : Fin 2048, Θ (ix2 (⟨2048 * i.val + p.val, by omega⟩ : Fin 8192) (row b kk)) * Z (ix2 (row b kk) q)

/-- One step at point (i, b), over any accumulator contents. -/
theorem step4_pt (c : Dev nD) (i : Fin 4) (b : ℕ) (hb : b < 4) (xs0 : Vec Ideal S2048x64 .f32) (p : Fin 2048) (q : Fin 64) :
    k4_pay2 (View.ld (iblk4 V c 1 (pt4 i b hb)) (rX4 (grid4.coords (pt4 i b hb)))) (View.ld (iblk4 V c 0 (pt4 i b hb)) rT4) xs0 (ix2 p q)
      = xs0 (ix2 p q) + term4 (V c main_v0) (V c main_v25) i ⟨b, hb⟩ p q := by
  have ho : k4_off1 (grid4.coords (pt4 i b hb)) = ![2048 * b, 0] := by
    have := (sched4 (pt4 i b hb)).2.2.2.2.2.2
    rw [this]; show ![2048 * ((4 * i.val + b) % 4), 0] = _
    rw [show (4 * i.val + b) % 4 = b from by omega]
  rw [step4_apply _ _ _ _ (2048 * b) ho (by omega) p q]
  refine congrArg (xs0 (ix2 p q) + ·) (Finset.sum_congr rfl fun kk _ => ?_)
  rw [rdT4 V c i b hb p kk, rdZ4 V c (pt4 i b hb) _ q]
  rfl

/-- The accumulator after points (i, 0) … (i, 3). -/
theorem acc4_0 (c : Dev nD) (i : Fin 4) (p : Fin 2048) (q : Fin 64) :
    (outsAt4 V c (4 * i.val + 0) (pt4 i 0 lt4_0_4).isLt).2 (ix2 p q) = 0 + term4 (V c main_v0) (V c main_v25) i 0 p q := by
  have h := outsAt4_A V c (pt4 i 0 lt4_0_4) (by show (4 * i.val + 0) % 4 = 0; omega) (by show ¬(4 * i.val + 0) % 4 = 3; omega)
  rw [show outsAt4 V c (4 * i.val + 0) _ = outsAt4 V c (pt4 i 0 lt4_0_4).val (pt4 i 0 lt4_0_4).isLt from rfl, h]
  dsimp only
  rw [sout4_A_eq]
  refine (step4_pt V c i 0 lt4_0_4 _ p q).trans ?_
  exact congrArg (· + term4 (V c main_v0) (V c main_v25) i 0 p q) (pay1_apply_4 p q)

theorem acc4_1 (c : Dev nD) (i : Fin 4) (p : Fin 2048) (q : Fin 64) :
    (outsAt4 V c (4 * i.val + 1) (pt4 i 1 lt4_1_4).isLt).2 (ix2 p q) = (0 + term4 (V c main_v0) (V c main_v25) i 0 p q) + term4 (V c main_v0) (V c main_v25) i 1 p q := by
  have h := outsAt4_B V c (pt4 i 1 lt4_1_4) (by show ¬(4 * i.val + 1) % 4 = 0; omega) (by show ¬(4 * i.val + 1) % 4 = 3; omega)
  rw [show outsAt4 V c (4 * i.val + 1) _ = outsAt4 V c (pt4 i 1 lt4_1_4).val (pt4 i 1 lt4_1_4).isLt from rfl, h]
  dsimp only
  rw [sout4_B_eq]
  refine (step4_pt V c i 1 lt4_1_4 _ p q).trans ?_
  refine congrArg (· + term4 (V c main_v0) (V c main_v25) i 1 p q) ?_
  exact acc4_0 V c i p q

theorem acc4_2 (c : Dev nD) (i : Fin 4) (p : Fin 2048) (q : Fin 64) :
    (outsAt4 V c (4 * i.val + 2) (pt4 i 2 lt4_2_4).isLt).2 (ix2 p q) = ((0 + term4 (V c main_v0) (V c main_v25) i 0 p q) + term4 (V c main_v0) (V c main_v25) i 1 p q) + term4 (V c main_v0) (V c main_v25) i 2 p q := by
  have h := outsAt4_B V c (pt4 i 2 lt4_2_4) (by show ¬(4 * i.val + 2) % 4 = 0; omega) (by show ¬(4 * i.val + 2) % 4 = 3; omega)
  rw [show outsAt4 V c (4 * i.val + 2) _ = outsAt4 V c (pt4 i 2 lt4_2_4).val (pt4 i 2 lt4_2_4).isLt from rfl, h]
  dsimp only
  rw [sout4_B_eq]
  refine (step4_pt V c i 2 lt4_2_4 _ p q).trans ?_
  refine congrArg (· + term4 (V c main_v0) (V c main_v25) i 2 p q) ?_
  exact acc4_1 V c i p q

/-- What point (i, 3) leaves in the output block. -/
theorem out4_3 (c : Dev nD) (i : Fin 4) (p : Fin 2048) (q : Fin 64) :
    (outsAt4 V c (4 * i.val + 3) (pt4 i 3 lt4_3_4).isLt).1 (ix2 p q)
      = (((0 + term4 (V c main_v0) (V c main_v25) i 0 p q) + term4 (V c main_v0) (V c main_v25) i 1 p q) + term4 (V c main_v0) (V c main_v25) i 2 p q) + term4 (V c main_v0) (V c main_v25) i 3 p q := by
  have h := outsAt4_C V c (pt4 i 3 lt4_3_4) (by show ¬(4 * i.val + 3) % 4 = 0; omega) (by show (4 * i.val + 3) % 4 = 3; omega)
  rw [show outsAt4 V c (4 * i.val + 3) _ = outsAt4 V c (pt4 i 3 lt4_3_4).val (pt4 i 3 lt4_3_4).isLt from rfl, h]
  dsimp only
  rw [out4_C_eq]
  refine (step4_pt V c i 3 lt4_3_4 _ p q).trans ?_
  refine congrArg (· + term4 (V c main_v0) (V c main_v25) i 3 p q) ?_
  exact acc4_2 V c i p q

/-- The specification at row `2048 i + p`. -/
theorem spec4_at (c : Dev nD) (i : Fin 4) (p : Fin 2048) (q : Fin 64) :
    Spec.accN (V c main_v0) (V c main_v25) (ix2 (⟨2048 * i.val + p.val, by omega⟩ : Fin 8192) q)
      = (((0 + term4 (V c main_v0) (V c main_v25) i 0 p q) + term4 (V c main_v0) (V c main_v25) i 1 p q) + term4 (V c main_v0) (V c main_v25) i 2 p q) + term4 (V c main_v0) (V c main_v25) i 3 p q := rfl

/-! ## From the blocks to the array -/

/-- What a writing-back point writes back is its block of the specification. -/
theorem flushed4_eq (c : Dev nD) (t : Fin cfg4.N) (hf : (cfg4.win 2).flush t = true) :
    (dat4 (F := Ideal) V c).flushed 2 t = ((cfg4.win 2).blk t).view.read (Elt Ideal) (Spec.accN (V c main_v0) (V c main_v25)) := by
  have h3 : t.val % 4 = 3 := (flush4_2 t).mp hf
  have hN : t.val < 16 := lt_of_lt_of_eq t.isLt (show cfg4.N = 16 from N_4)
  obtain ⟨i, rfl⟩ : ∃ i : Fin 4, t = pt4 i 3 lt4_3_4 := ⟨⟨t.val / 4, by omega⟩, Fin.ext (by show t.val = 4 * (t.val / 4) + 3; omega)⟩
  show (cfg4.win 2).cut (grid4.coords (pt4 i 3 lt4_3_4)) ((dat4 V c).after 2 (pt4 i 3 lt4_3_4)) = _
  rw [after4_2]
  funext y
  obtain ⟨p, q, rfl⟩ : ∃ (p : Fin 2048) (q : Fin 64), y = ix2 p q := ⟨y 0, y 1, eq_ix2 y⟩
  refine (out4_3 V c i p q).trans ((spec4_at V c i p q).symm.trans ?_)
  rw [View.read_apply]
  have hidx : ((cfg4.win 2).blk (pt4 i 3 lt4_3_4)).view.emb (ix2 p q) = (ix2 (⟨2048 * i.val + p.val, by omega⟩ : Fin 8192) q : S8192x64.Idx) := by
    obtain ⟨-, -, -, -, e4, e5, -⟩ := sched4 (pt4 i 3 lt4_3_4)
    have hv : (pt4 i 3 lt4_3_4).val = 4 * i.val + 3 := rfl
    funext a; apply Fin.ext
    match a with
    | ⟨0, _⟩ => show win4_2.index (pt4 i 3 lt4_3_4) (0 : Fin 2) * 2048 + 1 * p.val = 2048 * i.val + p.val; rw [e4, hv]; omega
    | ⟨1, _⟩ => show win4_2.index (pt4 i 3 lt4_3_4) (1 : Fin 2) * 64 + 1 * q.val = q.val; rw [e5]; omega
  rw [hidx]
  rfl

theorem mem_blk4 (t : Fin cfg4.N) (j : S8192x64.Idx) :
    j ∈ ((cfg4.win 2).blk t).view.set ↔ ∀ a : Fin 2, win4_2.index t a * S2048x64.size a ≤ (j a).val ∧ (j a).val < win4_2.index t a * S2048x64.size a + S2048x64.size a := by
  show j ∈ ((View.whole main_v31).slice (win4_2.rect t)).set ↔ _
  rw [View.set_slice_whole, Rect.mem_set_unit]
  exact Iff.rfl

/-- Every row lies in the output block of its row block's last point. -/
theorem cover4 (j : S8192x64.Idx) : ∃ t : Fin cfg4.N, (cfg4.win 2).flush t = true ∧ j ∈ ((cfg4.win 2).blk t).view.set := by
  have hj0 : (j 0).val < 8192 := (j 0).isLt
  have hj1 : (j 1).val < 64 := (j 1).isLt
  refine ⟨pt4 ⟨(j 0).val / 2048, by omega⟩ 3 lt4_3_4, (flush4_2 _).mpr (by show (4 * ((j 0).val / 2048) + 3) % 4 = 3; omega), ?_⟩
  rw [mem_blk4]
  obtain ⟨-, -, -, -, e4, e5, -⟩ := sched4 (pt4 ⟨(j 0).val / 2048, by omega⟩ 3 lt4_3_4)
  have hv : (pt4 ⟨(j 0).val / 2048, by omega⟩ 3 lt4_3_4).val = 4 * ((j 0).val / 2048) + 3 := rfl
  intro a
  match a with
  | ⟨0, _⟩ => show win4_2.index _ (0 : Fin 2) * 2048 ≤ (j 0).val ∧ (j 0).val < win4_2.index _ (0 : Fin 2) * 2048 + 2048; rw [e4, hv]; omega
  | ⟨1, _⟩ => show win4_2.index _ (1 : Fin 2) * 64 ≤ (j 1).val ∧ (j 1).val < win4_2.index _ (1 : Fin 2) * 64 + 64; rw [e5]; omega

/-- The output array after the region. -/
theorem final4 (c : Dev nD) : (dat4 (F := Ideal) V c).arrAt 2 cfg4.N = Spec.accN (V c main_v0) (V c main_v25) :=
  (dat4 V c).arrAt_eq_of_cover 2 _ (fun t hf => flushed4_eq V c t hf) (cover4)

end Value

end Cert.KernelIdeal.Fr

end
-- ==== Proof.SumBlocks.lean ====
/-
  Adding four blocks of 2048 consecutive terms to a zero, in order, is the sum of all 8192 terms:
  addition of extended reals is commutative and associative, and an index below 8192 is, uniquely,
  2048 · b + kk with b below 4 and kk below 2048.
-/
import proofs.«135368_j63153199120588_2_alg».proof.Proof.Spec
import Mathlib.Algebra.BigOperators.Fin
import Mathlib.Logic.Equiv.Fin.Basic
import Mathlib.Data.EReal.Basic

noncomputable section

open scoped BigOperators

namespace Cert.KernelIdeal.Spec

/-- A sum over all 8192 indices is the double sum over the four blocks and the 2048 rows of each. -/
theorem sum_eq_sum_blocks {M : Type*} [AddCommMonoid M] (f : Fin 8192 → M) :
    ∑ k : Fin 8192, f k = ∑ b : Fin 4, ∑ kk : Fin 2048, f (row b kk) := by
  rw [← Fintype.sum_prod_type (f := fun p : Fin 4 × Fin 2048 => f (row p.1 p.2))]
  rw [← Equiv.sum_comp (finProdFinEquiv (m := 4) (n := 2048)) f]
  refine Fintype.sum_congr _ _ fun p => ?_
  congr 1
  apply Fin.ext
  show p.2.val + 2048 * p.1.val = 2048 * p.1.val + p.2.val
  omega

/-- Zero plus the four blocks' sums, added in order, is the sum over all 8192 indices. -/
theorem sum_blocks (f : Fin 8192 → EReal) :
    ((((0 : EReal) + ∑ kk : Fin 2048, f (row 0 kk)) + ∑ kk : Fin 2048, f (row 1 kk))
        + ∑ kk : Fin 2048, f (row 2 kk)) + ∑ kk : Fin 2048, f (row 3 kk) = ∑ k : Fin 8192, f k := by
  rw [sum_eq_sum_blocks, Fin.sum_univ_four, zero_add]

end Cert.KernelIdeal.Spec
-- ==== Proof.RefValue.lean ====
/-
  The reference side at the ideal instance. Each region's specification (Spec.lean) is the reference's
  whole-array operation: `gemm` is the [8192,64] × [64,64] dot_general; `accT` of the (format-changed, at
  the ideal instance unchanged) array Θ is the dot_general of Θ's transpose; `accN` is the dot_general of Θ.
  A dot_general's element is the sum over its one contraction coordinate; the four accumulated blocks are
  that sum split by SumBlocks.lean. Then the kernel's result, written as the host operations of @main with
  each region replaced by its specification, is the reference's result term.
-/
import proofs.«135368_j63153199120588_2_alg».proof.Proof.Gen.KernelIdeal
import proofs.«135368_j63153199120588_2_alg».proof.Proof.Gen.ReferenceIdeal.Run
import proofs.«135368_j63153199120588_2_alg».proof.Proof.Gen.ReferenceIdeal.Read
import proofs.«135368_j63153199120588_2_alg».proof.Proof.Spec
import proofs.«135368_j63153199120588_2_alg».proof.Proof.SumBlocks
import Idealize.ShloMosaic.PureOps.Ideal.Laws
import Idealize.ShloMosaic.Lib.ValueIdx
import Idealize.ShloMosaic.Lib.Pipeline.Value

noncomputable section

open scoped BigOperators

namespace Cert.ReferenceIdeal.RefValue

open Idealize.ShloMosaic Idealize.ShloMosaic.ValueIdx Cert.ReferenceIdeal Cert.ReferenceIdeal.Gen

/-! ## A dot_general's element: the sum over the one contraction coordinate -/

/-- The [8192,64] × [64,64] dot_general at an index: row `j 0` of the left operand against column `j 1` of the right. -/
theorem dot64_apply (X : Vec Ideal S8192x64 .f32) (Wt : Vec Ideal S64x64 .f32) (j : S8192x64.Idx) :
    Host.dotGeneral (F := Ideal) (φ₁ := .f32) (φ₂ := .f32) dot_S8192x64_S64x64_S8192x64_1_0_0_1_n_n none X Wt j
      = ∑ k : Fin 64, X (ix2 (j 0) k) * Wt (ix2 k (j 1)) := by
  simp only [Host.dotGeneral]
  rw [Ideal.dotGeneral_apply, ← Equiv.sum_comp (contrEquiv1 dot_S8192x64_S64x64_S8192x64_1_0_0_1_n_n 64 rfl rfl).symm]
  refine Finset.sum_congr rfl fun k _ => ?_
  have hk := contrEquiv1_symm_val dot_S8192x64_S64x64_S8192x64_1_0_0_1_n_n 64 rfl rfl k
  have el : dot_S8192x64_S64x64_S8192x64_1_0_0_1_n_n.lhsIdx j ((contrEquiv1 dot_S8192x64_S64x64_S8192x64_1_0_0_1_n_n 64 rfl rfl).symm k)
      = ix2 (j 0) k := funext fun a => Fin.ext (by
    match a with
    | ⟨0, _⟩ => exact Read.lhs_main_v0_0 _ _
    | ⟨1, _⟩ => exact (Read.lhs_main_v0_1 _ _).trans hk)
  have er : dot_S8192x64_S64x64_S8192x64_1_0_0_1_n_n.rhsIdx j ((contrEquiv1 dot_S8192x64_S64x64_S8192x64_1_0_0_1_n_n 64 rfl rfl).symm k)
      = ix2 k (j 1) := funext fun a => Fin.ext (by
    match a with
    | ⟨0, _⟩ => exact (Read.rhs_main_v0_0 _ _).trans hk
    | ⟨1, _⟩ => exact Read.rhs_main_v0_1 _ _)
  rw [el, er]
  rfl

/-- The [8192,8192] × [8192,64] dot_general at an index: row `j 0` of the left operand against column `j 1` of the right. -/
theorem dot8192_apply (Y : Vec Ideal S8192x8192 .f32) (Z : Vec Ideal S8192x64 .f32) (j : S8192x64.Idx) :
    Host.dotGeneral (F := Ideal) (φ₁ := .f32) (φ₂ := .f32) dot_S8192x8192_S8192x64_S8192x64_1_0_0_1_n_n none Y Z j
      = ∑ k : Fin 8192, Y (ix2 (j 0) k) * Z (ix2 k (j 1)) := by
  simp only [Host.dotGeneral]
  rw [Ideal.dotGeneral_apply, ← Equiv.sum_comp (contrEquiv1 dot_S8192x8192_S8192x64_S8192x64_1_0_0_1_n_n 8192 rfl rfl).symm]
  refine Finset.sum_congr rfl fun k _ => ?_
  have hk := contrEquiv1_symm_val dot_S8192x8192_S8192x64_S8192x64_1_0_0_1_n_n 8192 rfl rfl k
  have el : dot_S8192x8192_S8192x64_S8192x64_1_0_0_1_n_n.lhsIdx j ((contrEquiv1 dot_S8192x8192_S8192x64_S8192x64_1_0_0_1_n_n 8192 rfl rfl).symm k)
      = ix2 (j 0) k := funext fun a => Fin.ext (by
    match a with
    | ⟨0, _⟩ => exact Read.lhs_main_v6_0 _ _
    | ⟨1, _⟩ => exact (Read.lhs_main_v6_1 _ _).trans hk)
  have er : dot_S8192x8192_S8192x64_S8192x64_1_0_0_1_n_n.rhsIdx j ((contrEquiv1 dot_S8192x8192_S8192x64_S8192x64_1_0_0_1_n_n 8192 rfl rfl).symm k)
      = ix2 k (j 1) := funext fun a => Fin.ext (by
    match a with
    | ⟨0, _⟩ => exact (Read.rhs_main_v6_0 _ _).trans hk
    | ⟨1, _⟩ => exact Read.rhs_main_v6_1 _ _)
  rw [el, er]
  rfl

/-- The transpose of a square array reads at the swapped index. -/
theorem transpose_ix2 (Θ : Vec Ideal S8192x8192 .f32) (a b : Fin 8192) :
    transpose S8192x8192 [1, 0] Θ Facts₀.transposes_S8192x8192_S8192x8192_1_0 (ix2 a b) = Θ (ix2 b a) :=
  transpose_apply [1, 0] Θ Facts₀.transposes_S8192x8192_S8192x8192_1_0 (ix2 a b) (ix2 b a) (fun c => match c with
    | ⟨0, _⟩ => rfl
    | ⟨1, _⟩ => rfl)

/-! ## Each region's specification is the reference's operation -/

theorem gemm_eq (X : Vec Ideal S8192x64 .f32) (Wt : Vec Ideal S64x64 .f32) :
    Cert.KernelIdeal.Spec.gemm X Wt
      = Host.dotGeneral (F := Ideal) (φ₁ := .f32) (φ₂ := .f32) dot_S8192x64_S64x64_S8192x64_1_0_0_1_n_n none X Wt := by
  funext j
  rw [dot64_apply]
  rfl

theorem accT_eq (Θ : Vec Ideal S8192x8192 .f32) (Z : Vec Ideal S8192x64 .f32) :
    Cert.KernelIdeal.Spec.accT (truncf (F := Ideal) (s := Cert.KernelIdeal.S8192x8192) (φ := .f32) .bf16 Θ Cert.KernelIdeal.Facts₀.bitsLt_bf16_f32) Z
      = Host.dotGeneral (F := Ideal) (φ₁ := .f32) (φ₂ := .f32) dot_S8192x8192_S8192x64_S8192x64_1_0_0_1_n_n none
          (transpose S8192x8192 [1, 0] Θ Facts₀.transposes_S8192x8192_S8192x8192_1_0) Z := by
  funext j
  rw [dot8192_apply]
  refine (Cert.KernelIdeal.Spec.sum_blocks fun k => Θ (ix2 k (j 0)) * Z (ix2 k (j 1))).trans ?_
  refine Finset.sum_congr rfl fun k _ => ?_
  exact congrArg (fun t => t * Z (ix2 k (j 1))) (transpose_ix2 Θ (j 0) k).symm

theorem accN_eq (Θ : Vec Ideal S8192x8192 .f32) (Z : Vec Ideal S8192x64 .f32) :
    Cert.KernelIdeal.Spec.accN (truncf (F := Ideal) (s := Cert.KernelIdeal.S8192x8192) (φ := .f32) .bf16 Θ Cert.KernelIdeal.Facts₀.bitsLt_bf16_f32) Z
      = Host.dotGeneral (F := Ideal) (φ₁ := .f32) (φ₂ := .f32) dot_S8192x8192_S8192x64_S8192x64_1_0_0_1_n_n none Θ Z := by
  funext j
  rw [dot8192_apply]
  exact Cert.KernelIdeal.Spec.sum_blocks fun k => Θ (ix2 (j 0) k) * Z (ix2 k (j 1))

/-! ## The kernel's result, region by region, is the reference's -/

/-- The kernel's result as a function of its five arguments: the host operations of @main in order, each
    region's output replaced by its specification of the arrays it reads. -/
def kernelResult (a0 : Vec Ideal Cert.KernelIdeal.S8192x64 .f32) (a1 : Vec Ideal Cert.KernelIdeal.S8192x8192 .f32)
    (a2 : Vec Ideal Cert.KernelIdeal.S8192 .f32) (a3 : Vec Ideal Cert.KernelIdeal.S6 .f32) (a4 : Vec Ideal Cert.KernelIdeal.S64x64 .f32) :
    Vec Ideal Cert.KernelIdeal.S8192x64 .f32 :=
  let v0 : Vec Ideal Cert.KernelIdeal.S8192x8192 .bf16 :=
    truncf (F := Ideal) (s := Cert.KernelIdeal.S8192x8192) (φ := .f32) .bf16 a1 Cert.KernelIdeal.Facts₀.bitsLt_bf16_f32
  let v1 : Vec Ideal Cert.KernelIdeal.S8192x64 .f32 := Cert.KernelIdeal.Spec.gemm a0 a4
  let v4 : Vec Ideal Cert.KernelIdeal.S8192x64 .f32 := broadcastInDim Cert.KernelIdeal.S8192x64 ![] Cert.KernelIdeal.Facts₀.bcast_S_S8192x64 (shapeCast Cert.KernelIdeal.S_ (extractStridedSlice Cert.KernelIdeal.S1 ![3] a3 Cert.KernelIdeal.Facts₀.slices_S6_S1_3) Cert.KernelIdeal.Facts₀.shapeCasts_S1_S_)
  let v5 : Vec Ideal Cert.KernelIdeal.S8192x64 .f32 := mulf (F := Ideal) (φ := .f32) v4 v1
  let v6 : Vec Ideal Cert.KernelIdeal.S8192x64 .f32 := Cert.KernelIdeal.Spec.accT v0 v1
  let v9 : Vec Ideal Cert.KernelIdeal.S8192x64 .f32 := broadcastInDim Cert.KernelIdeal.S8192x64 ![] Cert.KernelIdeal.Facts₀.bcast_S_S8192x64 (shapeCast Cert.KernelIdeal.S_ (extractStridedSlice Cert.KernelIdeal.S1 ![4] a3 Cert.KernelIdeal.Facts₀.slices_S6_S1_4) Cert.KernelIdeal.Facts₀.shapeCasts_S1_S_)
  let v10 : Vec Ideal Cert.KernelIdeal.S8192x64 .f32 := mulf (F := Ideal) (φ := .f32) v9 v6
  let v11 : Vec Ideal Cert.KernelIdeal.S8192x64 .f32 := addf (F := Ideal) (φ := .f32) v5 v10
  let v12 : Vec Ideal Cert.KernelIdeal.S8192x64 .f32 := Cert.KernelIdeal.Spec.accT v0 v6
  let v15 : Vec Ideal Cert.KernelIdeal.S8192x64 .f32 := broadcastInDim Cert.KernelIdeal.S8192x64 ![] Cert.KernelIdeal.Facts₀.bcast_S_S8192x64 (shapeCast Cert.KernelIdeal.S_ (extractStridedSlice Cert.KernelIdeal.S1 ![5] a3 Cert.KernelIdeal.Facts₀.slices_S6_S1_5) Cert.KernelIdeal.Facts₀.shapeCasts_S1_S_)
  let v16 : Vec Ideal Cert.KernelIdeal.S8192x64 .f32 := mulf (F := Ideal) (φ := .f32) v15 v12
  let v17 : Vec Ideal Cert.KernelIdeal.S8192x64 .f32 := addf (F := Ideal) (φ := .f32) v11 v16
  let v18 : Vec Ideal Cert.KernelIdeal.S8192x1 .f32 := broadcastInDim Cert.KernelIdeal.S8192x1 ![0] Cert.KernelIdeal.Facts₀.bcast_S8192_S8192x1_0 a2
  let v19 : Vec Ideal Cert.KernelIdeal.S8192x64 .f32 := broadcastInDim Cert.KernelIdeal.S8192x64 ![0, 1] Cert.KernelIdeal.Facts₀.bcast_S8192x1_S8192x64_0_1 v18
  let v20 : Vec Ideal Cert.KernelIdeal.S8192x64 .f32 := mulf (F := Ideal) (φ := .f32) v19 v17
  let v23 : Vec Ideal Cert.KernelIdeal.S8192x64 .f32 := broadcastInDim Cert.KernelIdeal.S8192x64 ![] Cert.KernelIdeal.Facts₀.bcast_S_S8192x64 (shapeCast Cert.KernelIdeal.S_ (extractStridedSlice Cert.KernelIdeal.S1 ![0] a3 Cert.KernelIdeal.Facts₀.slices_S6_S1_0) Cert.KernelIdeal.Facts₀.shapeCasts_S1_S_)
  let v24 : Vec Ideal Cert.KernelIdeal.S8192x64 .f32 := mulf (F := Ideal) (φ := .f32) v23 v20
  let v25 : Vec Ideal Cert.KernelIdeal.S8192x64 .f32 := Cert.KernelIdeal.Spec.accN v0 v20
  let v28 : Vec Ideal Cert.KernelIdeal.S8192x64 .f32 := broadcastInDim Cert.KernelIdeal.S8192x64 ![] Cert.KernelIdeal.Facts₀.bcast_S_S8192x64 (shapeCast Cert.KernelIdeal.S_ (extractStridedSlice Cert.KernelIdeal.S1 ![1] a3 Cert.KernelIdeal.Facts₀.slices_S6_S1_1) Cert.KernelIdeal.Facts₀.shapeCasts_S1_S_)
  let v29 : Vec Ideal Cert.KernelIdeal.S8192x64 .f32 := mulf (F := Ideal) (φ := .f32) v28 v25
  let v30 : Vec Ideal Cert.KernelIdeal.S8192x64 .f32 := addf (F := Ideal) (φ := .f32) v24 v29
  let v31 : Vec Ideal Cert.KernelIdeal.S8192x64 .f32 := Cert.KernelIdeal.Spec.accN v0 v25
  let v34 : Vec Ideal Cert.KernelIdeal.S8192x64 .f32 := broadcastInDim Cert.KernelIdeal.S8192x64 ![] Cert.KernelIdeal.Facts₀.bcast_S_S8192x64 (shapeCast Cert.KernelIdeal.S_ (extractStridedSlice Cert.KernelIdeal.S1 ![2] a3 Cert.KernelIdeal.Facts₀.slices_S6_S1_2) Cert.KernelIdeal.Facts₀.shapeCasts_S1_S_)
  let v35 : Vec Ideal Cert.KernelIdeal.S8192x64 .f32 := mulf (F := Ideal) (φ := .f32) v34 v31
  addf (F := Ideal) (φ := .f32) v30 v35

/-- With each region's specification rewritten to the reference's operation, the kernel's result is the
    reference's result term (the generated reading of its last operation), operation by operation. -/
theorem kernelResult_eq (a0 : Vec Ideal Cert.KernelIdeal.S8192x64 .f32) (a1 : Vec Ideal Cert.KernelIdeal.S8192x8192 .f32)
    (a2 : Vec Ideal Cert.KernelIdeal.S8192 .f32) (a3 : Vec Ideal Cert.KernelIdeal.S6 .f32) (a4 : Vec Ideal Cert.KernelIdeal.S64x64 .f32) :
    kernelResult a0 a1 a2 a3 a4 = Read.val_main_v37 (F := Ideal) a0 a1 a2 a3 a4 := by
  unfold kernelResult
  simp only [gemm_eq, accT_eq, accN_eq]
  rfl

end Cert.ReferenceIdeal.RefValue
-- ==== Proof.IdealValue.lean ====
/- The value of the kernel's result at the ideal instance. Each boundary's contents at the buffers later segments
   read, as terms of the five argument arrays at launch: a host stretch's results are its operations applied to what
   the stretch is entered with; a region's output array is the region's specification (the plain product, or one of
   the two accumulated products by Θ) of the two arrays it reads; every other buffer passes through unchanged. The
   last boundary's contents at the result buffer are then the host operations of @main applied to the five
   specifications in order — the function `kv36` of the arguments, which is the reference side's `kernelResult`. -/
import proofs.«135368_j63153199120588_2_alg».proof.Proof.IdealRun
import proofs.«135368_j63153199120588_2_alg».proof.Proof.IdealGemmValue
import proofs.«135368_j63153199120588_2_alg».proof.Proof.IdealTheta1Value
import proofs.«135368_j63153199120588_2_alg».proof.Proof.IdealTheta2Value
import proofs.«135368_j63153199120588_2_alg».proof.Proof.IdealTheta3Value
import proofs.«135368_j63153199120588_2_alg».proof.Proof.IdealTheta4Value
import proofs.«135368_j63153199120588_2_alg».proof.Proof.Spec
import proofs.«135368_j63153199120588_2_alg».proof.Proof.RefValue
import Idealize.ShloMosaic.Lib.StableHlo.Run

set_option maxRecDepth 16384

noncomputable section

namespace Cert.KernelIdeal.Fr

open Idealize.ShloMosaic Idealize.ShloMosaic.TcCoe Idealize.ShloMosaic.Tactic
open Idealize.SL Idealize.SL.Sem
open Cert.KernelIdeal Cert.KernelIdeal.Gen

/-! ## The result as a function of the five argument arrays -/

/-- Coefficient 0 of the six, as a constant [8192,64] array. -/
def coef0 (a3 : Vec Ideal S6 .f32) : Vec Ideal S8192x64 .f32 :=
  broadcastInDim S8192x64 ![] Facts₀.bcast_S_S8192x64 (shapeCast S_ (extractStridedSlice S1 ![0] a3 Facts₀.slices_S6_S1_0) Facts₀.shapeCasts_S1_S_)
/-- Coefficient 1 of the six, as a constant [8192,64] array. -/
def coef1 (a3 : Vec Ideal S6 .f32) : Vec Ideal S8192x64 .f32 :=
  broadcastInDim S8192x64 ![] Facts₀.bcast_S_S8192x64 (shapeCast S_ (extractStridedSlice S1 ![1] a3 Facts₀.slices_S6_S1_1) Facts₀.shapeCasts_S1_S_)
/-- Coefficient 2 of the six, as a constant [8192,64] array. -/
def coef2 (a3 : Vec Ideal S6 .f32) : Vec Ideal S8192x64 .f32 :=
  broadcastInDim S8192x64 ![] Facts₀.bcast_S_S8192x64 (shapeCast S_ (extractStridedSlice S1 ![2] a3 Facts₀.slices_S6_S1_2) Facts₀.shapeCasts_S1_S_)
/-- Coefficient 3 of the six, as a constant [8192,64] array. -/
def coef3 (a3 : Vec Ideal S6 .f32) : Vec Ideal S8192x64 .f32 :=
  broadcastInDim S8192x64 ![] Facts₀.bcast_S_S8192x64 (shapeCast S_ (extractStridedSlice S1 ![3] a3 Facts₀.slices_S6_S1_3) Facts₀.shapeCasts_S1_S_)
/-- Coefficient 4 of the six, as a constant [8192,64] array. -/
def coef4 (a3 : Vec Ideal S6 .f32) : Vec Ideal S8192x64 .f32 :=
  broadcastInDim S8192x64 ![] Facts₀.bcast_S_S8192x64 (shapeCast S_ (extractStridedSlice S1 ![4] a3 Facts₀.slices_S6_S1_4) Facts₀.shapeCasts_S1_S_)
/-- Coefficient 5 of the six, as a constant [8192,64] array. -/
def coef5 (a3 : Vec Ideal S6 .f32) : Vec Ideal S8192x64 .f32 :=
  broadcastInDim S8192x64 ![] Facts₀.bcast_S_S8192x64 (shapeCast S_ (extractStridedSlice S1 ![5] a3 Facts₀.slices_S6_S1_5) Facts₀.shapeCasts_S1_S_)

/-- Θ in the narrower format. -/
def kv0 (a0 : Vec Ideal S8192x64 .f32) (a1 : Vec Ideal S8192x8192 .f32) (a2 : Vec Ideal S8192 .f32) (a3 : Vec Ideal S6 .f32) (a4 : Vec Ideal S64x64 .f32) : Vec Ideal S8192x8192 .bf16 :=
  truncf (F := Ideal) (s := S8192x8192) (φ := .f32) .bf16 a1 Facts₀.bitsLt_bf16_f32
/-- Z₀ = X · W. -/
def kv1 (a0 : Vec Ideal S8192x64 .f32) (a1 : Vec Ideal S8192x8192 .f32) (a2 : Vec Ideal S8192 .f32) (a3 : Vec Ideal S6 .f32) (a4 : Vec Ideal S64x64 .f32) : Vec Ideal S8192x64 .f32 := Spec.gemm a0 a4
def kv5 (a0 : Vec Ideal S8192x64 .f32) (a1 : Vec Ideal S8192x8192 .f32) (a2 : Vec Ideal S8192 .f32) (a3 : Vec Ideal S6 .f32) (a4 : Vec Ideal S64x64 .f32) : Vec Ideal S8192x64 .f32 := mulf (F := Ideal) (φ := .f32) (coef3 a3) (kv1 a0 a1 a2 a3 a4)
/-- Z₁ = Θᵀ · Z₀. -/
def kv6 (a0 : Vec Ideal S8192x64 .f32) (a1 : Vec Ideal S8192x8192 .f32) (a2 : Vec Ideal S8192 .f32) (a3 : Vec Ideal S6 .f32) (a4 : Vec Ideal S64x64 .f32) : Vec Ideal S8192x64 .f32 := Spec.accT (kv0 a0 a1 a2 a3 a4) (kv1 a0 a1 a2 a3 a4)
def kv11 (a0 : Vec Ideal S8192x64 .f32) (a1 : Vec Ideal S8192x8192 .f32) (a2 : Vec Ideal S8192 .f32) (a3 : Vec Ideal S6 .f32) (a4 : Vec Ideal S64x64 .f32) : Vec Ideal S8192x64 .f32 :=
  addf (F := Ideal) (φ := .f32) (kv5 a0 a1 a2 a3 a4) (mulf (F := Ideal) (φ := .f32) (coef4 a3) (kv6 a0 a1 a2 a3 a4))
/-- Z₂ = Θᵀ · Z₁. -/
def kv12 (a0 : Vec Ideal S8192x64 .f32) (a1 : Vec Ideal S8192x8192 .f32) (a2 : Vec Ideal S8192 .f32) (a3 : Vec Ideal S6 .f32) (a4 : Vec Ideal S64x64 .f32) : Vec Ideal S8192x64 .f32 := Spec.accT (kv0 a0 a1 a2 a3 a4) (kv6 a0 a1 a2 a3 a4)
/-- The row-scaled combination D · (c₃ Z₀ + c₄ Z₁ + c₅ Z₂). -/
def kv20 (a0 : Vec Ideal S8192x64 .f32) (a1 : Vec Ideal S8192x8192 .f32) (a2 : Vec Ideal S8192 .f32) (a3 : Vec Ideal S6 .f32) (a4 : Vec Ideal S64x64 .f32) : Vec Ideal S8192x64 .f32 :=
  mulf (F := Ideal) (φ := .f32)
    (broadcastInDim S8192x64 ![0, 1] Facts₀.bcast_S8192x1_S8192x64_0_1 (broadcastInDim S8192x1 ![0] Facts₀.bcast_S8192_S8192x1_0 a2))
    (addf (F := Ideal) (φ := .f32) (kv11 a0 a1 a2 a3 a4) (mulf (F := Ideal) (φ := .f32) (coef5 a3) (kv12 a0 a1 a2 a3 a4)))
def kv24 (a0 : Vec Ideal S8192x64 .f32) (a1 : Vec Ideal S8192x8192 .f32) (a2 : Vec Ideal S8192 .f32) (a3 : Vec Ideal S6 .f32) (a4 : Vec Ideal S64x64 .f32) : Vec Ideal S8192x64 .f32 := mulf (F := Ideal) (φ := .f32) (coef0 a3) (kv20 a0 a1 a2 a3 a4)
/-- Y₁ = Θ · Y₀. -/
def kv25 (a0 : Vec Ideal S8192x64 .f32) (a1 : Vec Ideal S8192x8192 .f32) (a2 : Vec Ideal S8192 .f32) (a3 : Vec Ideal S6 .f32) (a4 : Vec Ideal S64x64 .f32) : Vec Ideal S8192x64 .f32 := Spec.accN (kv0 a0 a1 a2 a3 a4) (kv20 a0 a1 a2 a3 a4)
def kv30 (a0 : Vec Ideal S8192x64 .f32) (a1 : Vec Ideal S8192x8192 .f32) (a2 : Vec Ideal S8192 .f32) (a3 : Vec Ideal S6 .f32) (a4 : Vec Ideal S64x64 .f32) : Vec Ideal S8192x64 .f32 :=
  addf (F := Ideal) (φ := .f32) (kv24 a0 a1 a2 a3 a4) (mulf (F := Ideal) (φ := .f32) (coef1 a3) (kv25 a0 a1 a2 a3 a4))
/-- Y₂ = Θ · Y₁. -/
def kv31 (a0 : Vec Ideal S8192x64 .f32) (a1 : Vec Ideal S8192x8192 .f32) (a2 : Vec Ideal S8192 .f32) (a3 : Vec Ideal S6 .f32) (a4 : Vec Ideal S64x64 .f32) : Vec Ideal S8192x64 .f32 := Spec.accN (kv0 a0 a1 a2 a3 a4) (kv25 a0 a1 a2 a3 a4)
/-- The result: c₀ Y₀ + c₁ Y₁ + c₂ Y₂. -/
def kv36 (a0 : Vec Ideal S8192x64 .f32) (a1 : Vec Ideal S8192x8192 .f32) (a2 : Vec Ideal S8192 .f32) (a3 : Vec Ideal S6 .f32) (a4 : Vec Ideal S64x64 .f32) : Vec Ideal S8192x64 .f32 :=
  addf (F := Ideal) (φ := .f32) (kv30 a0 a1 a2 a3 a4) (mulf (F := Ideal) (φ := .f32) (coef2 a3) (kv31 a0 a1 a2 a3 a4))

/-- The same function, as the reference side writes it (the host operations as nested definitions). -/
theorem kv36_eq (a0 : Vec Ideal S8192x64 .f32) (a1 : Vec Ideal S8192x8192 .f32) (a2 : Vec Ideal S8192 .f32) (a3 : Vec Ideal S6 .f32) (a4 : Vec Ideal S64x64 .f32) : kv36 a0 a1 a2 a3 a4 = Cert.ReferenceIdeal.RefValue.kernelResult a0 a1 a2 a3 a4 := rfl

/-! ## The boundaries' contents, buffer by buffer -/

variable (m : (ℓ : Loc nD τ sig) → Buf (Elt Ideal) ℓ) (ρ : Dev nD → PrngReg) (c : Dev nD)

/-- The five argument arrays at launch. -/
abbrev A0 : Vec Ideal S8192x64 .f32 := m ((c : Thread nD τ).loc main_arg0)
abbrev A1 : Vec Ideal S8192x8192 .f32 := m ((c : Thread nD τ).loc main_arg1)
abbrev A2 : Vec Ideal S8192 .f32 := m ((c : Thread nD τ).loc main_arg2)
abbrev A3 : Vec Ideal S6 .f32 := m ((c : Thread nD τ).loc main_arg3)
abbrev A4 : Vec Ideal S64x64 .f32 := m ((c : Thread nD τ).loc main_arg4)

theorem W0_arg0 : W0 m ρ c (Proc.devRef .tc main_arg0) = A0 m c := rfl

theorem W0_arg1 : W0 m ρ c (Proc.devRef .tc main_arg1) = A1 m c := rfl

theorem W0_arg2 : W0 m ρ c (Proc.devRef .tc main_arg2) = A2 m c := rfl

theorem W0_arg3 : W0 m ρ c (Proc.devRef .tc main_arg3) = A3 m c := rfl

theorem W0_arg4 : W0 m ρ c (Proc.devRef .tc main_arg4) = A4 m c := rfl

theorem W1_v0 : W1 m ρ c (Proc.devRef .tc main_v0) = kv0 (A0 m c) (A1 m c) (A2 m c) (A3 m c) (A4 m c) := by
  show StableHlo.after hostOps0 (W0 m ρ c) (Proc.devRef .tc main_v0) = _
  after_results_simp
  rw [W0_arg1 m ρ c]
  rfl

theorem W1_arg0 : W1 m ρ c (Proc.devRef .tc main_arg0) = A0 m c :=
  (StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W0_arg0 m ρ c)

theorem W1_arg4 : W1 m ρ c (Proc.devRef .tc main_arg4) = A4 m c :=
  (StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W0_arg4 m ρ c)

theorem W1_arg3 : W1 m ρ c (Proc.devRef .tc main_arg3) = A3 m c :=
  (StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W0_arg3 m ρ c)

theorem W2_arg3 : W2 m ρ c (Proc.devRef .tc main_arg3) = A3 m c :=
  (W2_of_ne m ρ c main_arg3 (by decide)).trans (W1_arg3 m ρ c)

theorem W1_arg2 : W1 m ρ c (Proc.devRef .tc main_arg2) = A2 m c :=
  (StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W0_arg2 m ρ c)

theorem W2_arg2 : W2 m ρ c (Proc.devRef .tc main_arg2) = A2 m c :=
  (W2_of_ne m ρ c main_arg2 (by decide)).trans (W1_arg2 m ρ c)

theorem W2_v1 : W2 m ρ c (Proc.devRef .tc main_v1) = kv1 (A0 m c) (A1 m c) (A2 m c) (A3 m c) (A4 m c) :=
  ((W2_arr m ρ c 2).trans (final0 (V1 m ρ) c)).trans (congrArg₂ Spec.gemm (W1_arg0 m ρ c) (W1_arg4 m ρ c))

theorem W2_v0 : W2 m ρ c (Proc.devRef .tc main_v0) = kv0 (A0 m c) (A1 m c) (A2 m c) (A3 m c) (A4 m c) :=
  (W2_of_ne m ρ c main_v0 (by decide)).trans (W1_v0 m ρ c)

theorem W3_v0 : W3 m ρ c (Proc.devRef .tc main_v0) = kv0 (A0 m c) (A1 m c) (A2 m c) (A3 m c) (A4 m c) :=
  (StableHlo.after_of_forall_not_mem (b := Proc.devRef .tc main_v0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_v0 m ρ c)

theorem W3_v1 : W3 m ρ c (Proc.devRef .tc main_v1) = kv1 (A0 m c) (A1 m c) (A2 m c) (A3 m c) (A4 m c) :=
  (StableHlo.after_of_forall_not_mem (b := Proc.devRef .tc main_v1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_v1 m ρ c)

theorem W3_v5 : W3 m ρ c (Proc.devRef .tc main_v5) = kv5 (A0 m c) (A1 m c) (A2 m c) (A3 m c) (A4 m c) := by
  show StableHlo.after hostOps1 (W2 m ρ c) (Proc.devRef .tc main_v5) = _
  after_results_simp
  rw [W2_arg3 m ρ c, W2_v1 m ρ c]
  rfl

theorem W4_v6 : W4 m ρ c (Proc.devRef .tc main_v6) = kv6 (A0 m c) (A1 m c) (A2 m c) (A3 m c) (A4 m c) :=
  ((W4_arr m ρ c 2).trans (final1 (V3 m ρ) c)).trans (congrArg₂ Spec.accT (W3_v0 m ρ c) (W3_v1 m ρ c))

theorem W4_v5 : W4 m ρ c (Proc.devRef .tc main_v5) = kv5 (A0 m c) (A1 m c) (A2 m c) (A3 m c) (A4 m c) :=
  (W4_of_ne m ρ c main_v5 (by decide)).trans (W3_v5 m ρ c)

theorem W3_arg3 : W3 m ρ c (Proc.devRef .tc main_arg3) = A3 m c :=
  (StableHlo.after_of_forall_not_mem (b := Proc.devRef .tc main_arg3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_arg3 m ρ c)

theorem W4_arg3 : W4 m ρ c (Proc.devRef .tc main_arg3) = A3 m c :=
  (W4_of_ne m ρ c main_arg3 (by decide)).trans (W3_arg3 m ρ c)

theorem W3_arg2 : W3 m ρ c (Proc.devRef .tc main_arg2) = A2 m c :=
  (StableHlo.after_of_forall_not_mem (b := Proc.devRef .tc main_arg2) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_arg2 m ρ c)

theorem W4_arg2 : W4 m ρ c (Proc.devRef .tc main_arg2) = A2 m c :=
  (W4_of_ne m ρ c main_arg2 (by decide)).trans (W3_arg2 m ρ c)

theorem W5_v11 : W5 m ρ c (Proc.devRef .tc main_v11) = kv11 (A0 m c) (A1 m c) (A2 m c) (A3 m c) (A4 m c) := by
  show StableHlo.after hostOps2 (W4 m ρ c) (Proc.devRef .tc main_v11) = _
  after_results_simp
  rw [W4_v5 m ρ c, W4_arg3 m ρ c, W4_v6 m ρ c]
  rfl

theorem W4_v0 : W4 m ρ c (Proc.devRef .tc main_v0) = kv0 (A0 m c) (A1 m c) (A2 m c) (A3 m c) (A4 m c) :=
  ((W4_arr m ρ c 0).trans (((dat1 (V3 m ρ) c).arrAt_in 0 rfl _).trans (A_eq1 (V3 m ρ) c 0))).trans (W3_v0 m ρ c)

theorem W5_v0 : W5 m ρ c (Proc.devRef .tc main_v0) = kv0 (A0 m c) (A1 m c) (A2 m c) (A3 m c) (A4 m c) :=
  (StableHlo.after_of_forall_not_mem (b := Proc.devRef .tc main_v0) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_v0 m ρ c)

theorem W5_v6 : W5 m ρ c (Proc.devRef .tc main_v6) = kv6 (A0 m c) (A1 m c) (A2 m c) (A3 m c) (A4 m c) :=
  (StableHlo.after_of_forall_not_mem (b := Proc.devRef .tc main_v6) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_v6 m ρ c)

theorem W6_v12 : W6 m ρ c (Proc.devRef .tc main_v12) = kv12 (A0 m c) (A1 m c) (A2 m c) (A3 m c) (A4 m c) :=
  ((W6_arr m ρ c 2).trans (final2 (V5 m ρ) c)).trans (congrArg₂ Spec.accT (W5_v0 m ρ c) (W5_v6 m ρ c))

theorem W6_v11 : W6 m ρ c (Proc.devRef .tc main_v11) = kv11 (A0 m c) (A1 m c) (A2 m c) (A3 m c) (A4 m c) :=
  (W6_of_ne m ρ c main_v11 (by decide)).trans (W5_v11 m ρ c)

theorem W5_arg3 : W5 m ρ c (Proc.devRef .tc main_arg3) = A3 m c :=
  (StableHlo.after_of_forall_not_mem (b := Proc.devRef .tc main_arg3) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_arg3 m ρ c)

theorem W6_arg3 : W6 m ρ c (Proc.devRef .tc main_arg3) = A3 m c :=
  (W6_of_ne m ρ c main_arg3 (by decide)).trans (W5_arg3 m ρ c)

theorem W5_arg2 : W5 m ρ c (Proc.devRef .tc main_arg2) = A2 m c :=
  (StableHlo.after_of_forall_not_mem (b := Proc.devRef .tc main_arg2) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W4_arg2 m ρ c)

theorem W6_arg2 : W6 m ρ c (Proc.devRef .tc main_arg2) = A2 m c :=
  (W6_of_ne m ρ c main_arg2 (by decide)).trans (W5_arg2 m ρ c)

theorem W7_v20 : W7 m ρ c (Proc.devRef .tc main_v20) = kv20 (A0 m c) (A1 m c) (A2 m c) (A3 m c) (A4 m c) := by
  show StableHlo.after hostOps3 (W6 m ρ c) (Proc.devRef .tc main_v20) = _
  after_results_simp
  rw [W6_arg2 m ρ c, W6_v11 m ρ c, W6_arg3 m ρ c, W6_v12 m ρ c]
  rfl

theorem W7_v24 : W7 m ρ c (Proc.devRef .tc main_v24) = kv24 (A0 m c) (A1 m c) (A2 m c) (A3 m c) (A4 m c) := by
  show StableHlo.after hostOps3 (W6 m ρ c) (Proc.devRef .tc main_v24) = _
  after_results_simp
  rw [W6_arg3 m ρ c, W6_arg2 m ρ c, W6_v11 m ρ c, W6_v12 m ρ c]
  rfl

theorem W6_v0 : W6 m ρ c (Proc.devRef .tc main_v0) = kv0 (A0 m c) (A1 m c) (A2 m c) (A3 m c) (A4 m c) :=
  ((W6_arr m ρ c 0).trans (((dat2 (V5 m ρ) c).arrAt_in 0 rfl _).trans (A_eq2 (V5 m ρ) c 0))).trans (W5_v0 m ρ c)

theorem W7_v0 : W7 m ρ c (Proc.devRef .tc main_v0) = kv0 (A0 m c) (A1 m c) (A2 m c) (A3 m c) (A4 m c) :=
  (StableHlo.after_of_forall_not_mem (b := Proc.devRef .tc main_v0) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W6_v0 m ρ c)

theorem W8_v25 : W8 m ρ c (Proc.devRef .tc main_v25) = kv25 (A0 m c) (A1 m c) (A2 m c) (A3 m c) (A4 m c) :=
  ((W8_arr m ρ c 2).trans (final3 (V7 m ρ) c)).trans (congrArg₂ Spec.accN (W7_v0 m ρ c) (W7_v20 m ρ c))

theorem W8_v24 : W8 m ρ c (Proc.devRef .tc main_v24) = kv24 (A0 m c) (A1 m c) (A2 m c) (A3 m c) (A4 m c) :=
  (W8_of_ne m ρ c main_v24 (by decide)).trans (W7_v24 m ρ c)

theorem W7_arg3 : W7 m ρ c (Proc.devRef .tc main_arg3) = A3 m c :=
  (StableHlo.after_of_forall_not_mem (b := Proc.devRef .tc main_arg3) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W6_arg3 m ρ c)

theorem W8_arg3 : W8 m ρ c (Proc.devRef .tc main_arg3) = A3 m c :=
  (W8_of_ne m ρ c main_arg3 (by decide)).trans (W7_arg3 m ρ c)

theorem W9_v30 : W9 m ρ c (Proc.devRef .tc main_v30) = kv30 (A0 m c) (A1 m c) (A2 m c) (A3 m c) (A4 m c) := by
  show StableHlo.after hostOps4 (W8 m ρ c) (Proc.devRef .tc main_v30) = _
  after_results_simp
  rw [W8_v24 m ρ c, W8_arg3 m ρ c, W8_v25 m ρ c]
  rfl

theorem W8_v0 : W8 m ρ c (Proc.devRef .tc main_v0) = kv0 (A0 m c) (A1 m c) (A2 m c) (A3 m c) (A4 m c) :=
  ((W8_arr m ρ c 0).trans (((dat3 (V7 m ρ) c).arrAt_in 0 rfl _).trans (A_eq3 (V7 m ρ) c 0))).trans (W7_v0 m ρ c)

theorem W9_v0 : W9 m ρ c (Proc.devRef .tc main_v0) = kv0 (A0 m c) (A1 m c) (A2 m c) (A3 m c) (A4 m c) :=
  (StableHlo.after_of_forall_not_mem (b := Proc.devRef .tc main_v0) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W8_v0 m ρ c)

theorem W9_v25 : W9 m ρ c (Proc.devRef .tc main_v25) = kv25 (A0 m c) (A1 m c) (A2 m c) (A3 m c) (A4 m c) :=
  (StableHlo.after_of_forall_not_mem (b := Proc.devRef .tc main_v25) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W8_v25 m ρ c)

theorem W10_v31 : W10 m ρ c (Proc.devRef .tc main_v31) = kv31 (A0 m c) (A1 m c) (A2 m c) (A3 m c) (A4 m c) :=
  ((W10_arr m ρ c 2).trans (final4 (V9 m ρ) c)).trans (congrArg₂ Spec.accN (W9_v0 m ρ c) (W9_v25 m ρ c))

theorem W10_v30 : W10 m ρ c (Proc.devRef .tc main_v30) = kv30 (A0 m c) (A1 m c) (A2 m c) (A3 m c) (A4 m c) :=
  (W10_of_ne m ρ c main_v30 (by decide)).trans (W9_v30 m ρ c)

theorem W9_arg3 : W9 m ρ c (Proc.devRef .tc main_arg3) = A3 m c :=
  (StableHlo.after_of_forall_not_mem (b := Proc.devRef .tc main_arg3) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W8_arg3 m ρ c)

theorem W10_arg3 : W10 m ρ c (Proc.devRef .tc main_arg3) = A3 m c :=
  (W10_of_ne m ρ c main_arg3 (by decide)).trans (W9_arg3 m ρ c)

theorem W11_v36 : W11 m ρ c (Proc.devRef .tc main_v36) = kv36 (A0 m c) (A1 m c) (A2 m c) (A3 m c) (A4 m c) := by
  show StableHlo.after hostOps5 (W10 m ρ c) (Proc.devRef .tc main_v36) = _
  after_results_simp
  rw [W10_v30 m ρ c, W10_arg3 m ρ c, W10_v31 m ρ c]
  rfl

/-- The result buffer at the return: the kernel's result function of the launch arguments. -/
theorem W11_out : W11 m ρ c (Proc.devRef .tc main_v36)
    = Cert.ReferenceIdeal.RefValue.kernelResult (A0 m c) (A1 m c) (A2 m c) (A3 m c) (A4 m c) :=
  (W11_v36 m ρ c).trans (kv36_eq _ _ _ _ _)

end Cert.KernelIdeal.Fr

end
-- ==== Proof.Algebraic.lean ====
/- The algebraic conjunct. At the ideal instance, from memories agreeing on the arguments, the kernel's run ends with
   its result buffer at the result function of the launch arguments (the boundaries' contents folded through @main,
   each region at its specification) and the reference's run with its result at its operations' composed term of the
   same arguments; the two are one function of the arguments. Both runs leave the arguments as launched. -/
import proofs.«135368_j63153199120588_2_alg».proof.Defs
import proofs.«135368_j63153199120588_2_alg».proof.Proof.Gen.Pre_finite_inputs
import proofs.«135368_j63153199120588_2_alg».proof.Proof.Gen.ReferenceIdeal
import proofs.«135368_j63153199120588_2_alg».proof.Proof.Gen.ReferenceIdeal.Run
import proofs.«135368_j63153199120588_2_alg».proof.Proof.Gen.ReferenceIdeal.Read
import proofs.«135368_j63153199120588_2_alg».proof.Proof.IdealValue
import proofs.«135368_j63153199120588_2_alg».proof.Proof.RefValue

set_option maxRecDepth 16384

noncomputable section

namespace Cert.Proof.Alg

open Idealize.ShloMosaic Idealize.ShloMosaic.TcCoe Idealize.SL.Sem

/-- The reference runs and leaves its arguments as launched: the run of its operations read back, the result's conjunct dropped. -/
theorem frame_ri : Cert.frame_ReferenceIdeal := fun m ρ _ =>
  (θ_run Cert.ReferenceIdeal.defs _ _).mono (fun _ h c => (h c).2) (Cert.ReferenceIdeal.Value.run (F := Ideal) m ρ)

/-- Kernel and reference, from memories agreeing on the arguments, both run and end with equal results and
    unchanged arguments: the common result is the kernel's result function of the kernel's launch arguments. -/
theorem algebraic : Cert.algebraic_KernelIdeal_ReferenceIdeal := by
  intro m ρ m' ρ' _ hagree
  refine ⟨fun c => Cert.ReferenceIdeal.RefValue.kernelResult (Cert.KernelIdeal.Fr.A0 m c) (Cert.KernelIdeal.Fr.A1 m c)
      (Cert.KernelIdeal.Fr.A2 m c) (Cert.KernelIdeal.Fr.A3 m c) (Cert.KernelIdeal.Fr.A4 m c), ?_, ?_⟩
  · exact (θ_run Cert.KernelIdeal.defs _ _).mono (fun r h c =>
      ⟨(Cert.KernelIdeal.Fr.W_out m ρ r c (h c)).trans (Cert.KernelIdeal.Fr.W11_out m ρ c),
       (h c _ (Cert.KernelIdeal.Fr.mem_uc Cert.KernelIdeal.main_arg0 (by decide))).trans (Cert.KernelIdeal.Fr.W11_main_arg0 m ρ c),
       (h c _ (Cert.KernelIdeal.Fr.mem_uc Cert.KernelIdeal.main_arg1 (by decide))).trans (Cert.KernelIdeal.Fr.W11_main_arg1 m ρ c),
       (h c _ (Cert.KernelIdeal.Fr.mem_uc Cert.KernelIdeal.main_arg2 (by decide))).trans (Cert.KernelIdeal.Fr.W11_main_arg2 m ρ c),
       (h c _ (Cert.KernelIdeal.Fr.mem_uc Cert.KernelIdeal.main_arg3 (by decide))).trans (Cert.KernelIdeal.Fr.W11_main_arg3 m ρ c),
       (h c _ (Cert.KernelIdeal.Fr.mem_uc Cert.KernelIdeal.main_arg4 (by decide))).trans (Cert.KernelIdeal.Fr.W11_main_arg4 m ρ c)⟩)
      (Cert.KernelIdeal.Fr.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v37_eq, (hagree c).1, (hagree c).2.1, (hagree c).2.2.1, (hagree c).2.2.2.1, (hagree c).2.2.2.2]
    exact (Cert.ReferenceIdeal.RefValue.kernelResult_eq _ _ _ _ _).symm

end Cert.Proof.Alg

end
-- ==== Proof.lean ====
/- The kernel computes, from features [8192,64], Θ [8192,8192], diag [8192], six scalars par₀ … par₅ and weight [64,64]:
     X   = features · weight
     acc = par₃ X + par₄ Θᵀ X + par₅ Θᵀ Θᵀ X
     Y   = diag ⊙ acc                      (row i scaled by diag i)
     out = par₀ Y + par₁ Θ Y + par₂ Θ Θ Y,
   each product by Θ or Θᵀ streamed in 2048 × 2048 blocks of Θ, an accumulator summing the four blocks along the
   contraction before a block of 2048 rows of the product is stored; the reference computes the same expression with
   whole-array products. Every run terminates with the argument arrays as launched (the program as a sequence of host
   stretches and pipelined regions, each entered from the buffer contents the one before leaves). At the ideal instance
   a sum over 8192 terms equals the sum of its four consecutive blocks' sums, added in order from zero, and the change
   of Θ's format is the identity: that is all that joins the two sides, so the two results are one function of the
   arguments. -/
import proofs.«135368_j63153199120588_2_alg».proof.Defs
import proofs.«135368_j63153199120588_2_alg».proof.Proof.Gen.Kernel
import proofs.«135368_j63153199120588_2_alg».proof.Proof.Gen.KernelIdeal
import proofs.«135368_j63153199120588_2_alg».proof.Proof.Gen.ReferenceIdeal
import proofs.«135368_j63153199120588_2_alg».proof.Proof.Gen.Pre_finite_inputs
import proofs.«135368_j63153199120588_2_alg».proof.Proof.BitsRun
import proofs.«135368_j63153199120588_2_alg».proof.Proof.IdealRun
import proofs.«135368_j63153199120588_2_alg».proof.Proof.Algebraic

noncomputable section

namespace Cert.Proof

open Idealize.ShloMosaic Idealize.SL.Sem

/-- The five claims: the kernel at the word-level instance and at the ideal instance, and the reference, each run and
    keep their arguments; the ideal program is the kernel's own text (nothing to preserve); kernel and reference at the
    ideal instance end with equal results. -/
theorem claim : Cert.Claim :=
  ⟨Cert.Kernel.Gen.facts, Cert.KernelIdeal.Gen.facts, Cert.ReferenceIdeal.Gen.facts, Cert.Pre_finite_inputs.Gen.facts,
    fun m ρ _ => Cert.Kernel.Fr.frame m ρ,
    fun m ρ _ => Cert.KernelIdeal.Fr.frame m ρ,
    Cert.Proof.Alg.frame_ri,
    trivial,
    Cert.Proof.Alg.algebraic⟩

end Cert.Proof

end
